-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) (main_arg1 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Kernel.lean ====
abbrev S2048x1024 : Shape := ⟨2, ![2048, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1 : Shape := ⟨2, ![1, 1]⟩
abbrev S512x1024 : Shape := ⟨2, ![512, 1024]⟩
abbrev S1024x512 : Shape := ⟨2, ![1024, 512]⟩
abbrev S512x512 : Shape := ⟨2, ![512, 512]⟩
abbrev S512x1 : Shape := ⟨2, ![512, 1]⟩
abbrev S1x512 : Shape := ⟨2, ![1, 512]⟩
abbrev S1x512x512 : Shape := ⟨3, ![1, 512, 512]⟩
abbrev S1 : Shape := ⟨1, ![1]⟩
abbrev S1x1x1 : Shape := ⟨3, ![1, 1, 1]⟩

abbrev nBuf : Space → Nat
  | .hbm => 23
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S1x1, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1, .f32⟩
  | .local _ .vmem, ⟨5, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  concatenates_S2048x1024_S2048x1024_S4096x1024_d0 : Shape.Concatenates [S2048x1024, S2048x1024] S4096x1024 0
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  iota_S512x1_d0_w32 : S512x1.Iotas .tc 32 [0]
  iota_S1x512_d1_w32 : S1x512.Iotas .tc 32 [1]
  natLt_1_32 : 1 < 32
  broadcasts_S512x1_S512x512 : S512x1.Broadcasts S512x512
  broadcasts_S1x512_S512x512 : S1x512.Broadcasts S512x512
  shapeCasts_S1x1_S1x1 : S1x1.ShapeCasts S1x1
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v6) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S4096x4096 : Shape := ⟨2, ![4096, 4096]⟩
abbrev S1x4096 : Shape := ⟨2, ![1, 4096]⟩

abbrev nBuf : Space → Nat
  | .hbm => 124
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S1024x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096, .i32⟩
  | .hbm, ⟨19, _⟩ => ⟨S_, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S4096x1, .i32⟩
  | .hbm, ⟨38, _⟩ => ⟨S1x4096, .i32⟩
  | .hbm, ⟨39, _⟩ => ⟨S4096x4096, .i32⟩
  | .hbm, ⟨40, _⟩ => ⟨S4096x4096, .i32⟩
  | .hbm, ⟨41, _⟩ => ⟨S4096x4096, .i1⟩
  | .hbm, ⟨42, _⟩ => ⟨S4096x1, .i32⟩
  | .hbm, ⟨43, _⟩ => ⟨S1x4096, .i32⟩
  | .hbm, ⟨44, _⟩ => ⟨S4096x4096, .i32⟩
  | .hbm, ⟨45, _⟩ => ⟨S4096x4096, .i32⟩
  | .hbm, ⟨46, _⟩ => ⟨S4096x4096, .i1⟩
  | .hbm, ⟨47, _⟩ => ⟨S4096x4096, .i1⟩
  | .hbm, ⟨48, _⟩ => ⟨S4096x4096, .f32⟩
  | .hbm, ⟨49, _⟩ => ⟨S4096x1, .i32⟩
  | .hbm, ⟨50, _⟩ => ⟨S1x4096, .i32⟩
  | .hbm, ⟨51, _⟩ => ⟨S4096x4096, .i32⟩
  | .hbm, ⟨52, _⟩ => ⟨S4096x4096, .i32⟩
  | .hbm, ⟨53, _⟩ => ⟨S4096x4096, .i1⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .i1⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S_, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S_, .f32⟩
  | .hbm, ⟨76, _⟩ => ⟨S4096x4096, .f32⟩
  | .hbm, ⟨77, _⟩ => ⟨S4096x4096, .f32⟩
  | .hbm, ⟨78, _⟩ => ⟨S4096x4096, .f32⟩
  | .hbm, ⟨79, _⟩ => ⟨S4096x4096, .f32⟩
  | .hbm, ⟨80, _⟩ => ⟨S4096x4096, .i1⟩
  | .hbm, ⟨81, _⟩ => ⟨S4096x4096, .f32⟩
  | .hbm, ⟨82, _⟩ => ⟨S4096x4096, .f32⟩
  | .hbm, ⟨83, _⟩ => ⟨S4096x4096, .f32⟩
  | .hbm, ⟨84, _⟩ => ⟨S4096x4096, .f32⟩
  | .hbm, ⟨85, _⟩ => ⟨S4096x4096, .f32⟩
  | .hbm, ⟨86, _⟩ => ⟨S4096x4096, .f32⟩
  | .hbm, ⟨87, _⟩ => ⟨S4096x4096, .f32⟩
  | .hbm, ⟨88, _⟩ => ⟨S4096x4096, .f32⟩
  | .hbm, ⟨89, _⟩ => ⟨S4096x4096, .f32⟩
  | .hbm, ⟨90, _⟩ => ⟨S_, .f32⟩
  | .hbm, ⟨91, _⟩ => ⟨S4096x4096, .f32⟩
  | .hbm, ⟨92, _⟩ => ⟨S4096x4096, .f32⟩
  | .hbm, ⟨93, _⟩ => ⟨S4096x4096, .f32⟩
  | .hbm, ⟨94, _⟩ => ⟨S_, .f32⟩
  | .hbm, ⟨95, _⟩ => ⟨S4096x4096, .f32⟩
  | .hbm, ⟨96, _⟩ => ⟨S4096x4096, .f32⟩
  | .hbm, ⟨97, _⟩ => ⟨S4096x4096, .f32⟩
  | .hbm, ⟨98, _⟩ => ⟨S4096x4096, .f32⟩
  | .hbm, ⟨99, _⟩ => ⟨S4096x4096, .f32⟩
  | .hbm, ⟨100, _⟩ => ⟨S_, .f32⟩
  | .hbm, ⟨101, _⟩ => ⟨S4096x4096, .f32⟩
  | .hbm, ⟨102, _⟩ => ⟨S4096x4096, .i1⟩
  | .hbm, ⟨103, _⟩ => ⟨S_, .f32⟩
  | .hbm, ⟨104, _⟩ => ⟨S_, .f32⟩
  | .hbm, ⟨105, _⟩ => ⟨S4096x4096, .f32⟩
  | .hbm, ⟨106, _⟩ => ⟨S4096x4096, .f32⟩
  | .hbm, ⟨107, _⟩ => ⟨S4096x4096, .f32⟩
  | .hbm, ⟨108, _⟩ => ⟨S4096x4096, .f32⟩
  | .hbm, ⟨109, _⟩ => ⟨S4096x4096, .f32⟩
  | .hbm, ⟨110, _⟩ => ⟨S4096x4096, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S4096x4096, .f32⟩
  | .hbm, ⟨115, _⟩ => ⟨S4096x4096, .f32⟩
  | .hbm, ⟨116, _⟩ => ⟨S4096x4096, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_c : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_0 : Ref sig .tc := ⟨.hbm, 33, rfl⟩
abbrev main_call1_v12 : Ref sig .tc := ⟨.hbm, 34, rfl⟩
abbrev main_call1_v13 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_call2_v0 : Ref sig .tc := ⟨.hbm, 54, rfl⟩
abbrev main_call2_call0_cst : Ref sig .tc := ⟨.hbm, 55, rfl⟩
abbrev main_call2_call0_v0 : Ref sig .tc := ⟨.hbm, 56, rfl⟩
abbrev main_call2_call0_v1 : Ref sig .tc := ⟨.hbm, 57, rfl⟩
abbrev main_call2_call0_v2 : Ref sig .tc := ⟨.hbm, 58, rfl⟩
abbrev main_call2_call0_v3 : Ref sig .tc := ⟨.hbm, 59, rfl⟩
abbrev main_call2_call0_v4 : Ref sig .tc := ⟨.hbm, 60, rfl⟩
abbrev main_call2_call0_v5 : Ref sig .tc := ⟨.hbm, 61, rfl⟩
abbrev main_call2_call0_v6 : Ref sig .tc := ⟨.hbm, 62, rfl⟩
abbrev main_call2_call0_v7 : Ref sig .tc := ⟨.hbm, 63, rfl⟩
abbrev main_call2_call0_v8 : Ref sig .tc := ⟨.hbm, 64, rfl⟩
abbrev main_call2_call0_v9 : Ref sig .tc := ⟨.hbm, 65, rfl⟩
abbrev main_call2_call0_v10 : Ref sig .tc := ⟨.hbm, 66, rfl⟩
abbrev main_call2_call0_v11 : Ref sig .tc := ⟨.hbm, 67, rfl⟩
abbrev main_call2_v1 : Ref sig .tc := ⟨.hbm, 68, rfl⟩
abbrev main_v29 : Ref sig .tc := ⟨.hbm, 69, rfl⟩
abbrev main_cst_1 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_call3_v0 : Ref sig .tc := ⟨.hbm, 74, rfl⟩
abbrev main_call3_call0_cst : Ref sig .tc := ⟨.hbm, 75, rfl⟩
abbrev main_call3_call0_v0 : Ref sig .tc := ⟨.hbm, 76, rfl⟩
abbrev main_call3_call0_v1 : Ref sig .tc := ⟨.hbm, 77, rfl⟩
abbrev main_call3_call0_v2 : Ref sig .tc := ⟨.hbm, 78, rfl⟩
abbrev main_call3_call0_v3 : Ref sig .tc := ⟨.hbm, 79, rfl⟩
abbrev main_call3_call0_v4 : Ref sig .tc := ⟨.hbm, 80, rfl⟩
abbrev main_call3_call0_v5 : Ref sig .tc := ⟨.hbm, 81, rfl⟩
abbrev main_call3_call0_v6 : Ref sig .tc := ⟨.hbm, 82, rfl⟩
abbrev main_call3_call0_v7 : Ref sig .tc := ⟨.hbm, 83, rfl⟩
abbrev main_call3_call0_v8 : Ref sig .tc := ⟨.hbm, 84, rfl⟩
abbrev main_call3_call0_v9 : Ref sig .tc := ⟨.hbm, 85, rfl⟩
abbrev main_call3_call0_v10 : Ref sig .tc := ⟨.hbm, 86, rfl⟩
abbrev main_call3_call0_v11 : Ref sig .tc := ⟨.hbm, 87, rfl⟩
abbrev main_call3_v1 : Ref sig .tc := ⟨.hbm, 88, rfl⟩
abbrev main_v33 : Ref sig .tc := ⟨.hbm, 89, rfl⟩
abbrev main_cst_2 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_cst_3 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_cst_4 : Ref sig .tc := ⟨.hbm, 100, rfl⟩
abbrev main_v42 : Ref sig .tc := ⟨.hbm, 101, rfl⟩
abbrev main_v43 : Ref sig .tc := ⟨.hbm, 102, rfl⟩
abbrev main_cst_5 : Ref sig .tc := ⟨.hbm, 103, rfl⟩
abbrev main_cst_6 : Ref sig .tc := ⟨.hbm, 104, rfl⟩
abbrev main_call4_v0 : Ref sig .tc := ⟨.hbm, 105, rfl⟩
abbrev main_call4_v1 : Ref sig .tc := ⟨.hbm, 106, rfl⟩
abbrev main_v44 : Ref sig .tc := ⟨.hbm, 107, rfl⟩
abbrev main_call5_v0 : Ref sig .tc := ⟨.hbm, 108, rfl⟩
abbrev main_v45 : Ref sig .tc := ⟨.hbm, 109, rfl⟩
abbrev main_v46 : Ref sig .tc := ⟨.hbm, 110, rfl⟩
abbrev main_cst_7 : Ref sig .tc := ⟨.hbm, 111, rfl⟩
abbrev main_v47 : Ref sig .tc := ⟨.hbm, 112, rfl⟩
abbrev main_cst_8 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_cst_9 : Ref sig .tc := ⟨.hbm, 117, rfl⟩
abbrev main_v51 : Ref sig .tc := ⟨.hbm, 118, rfl⟩
abbrev main_cst_10 : Ref sig .tc := ⟨.hbm, 119, rfl⟩
abbrev main_v52 : Ref sig .tc := ⟨.hbm, 120, rfl⟩
abbrev main_cst_11 : Ref sig .tc := ⟨.hbm, 121, rfl⟩
abbrev main_v53 : Ref sig .tc := ⟨.hbm, 122, rfl⟩
abbrev main_v54 : Ref sig .tc := ⟨.hbm, 123, rfl⟩

abbrev nD : Nat := 1
abbrev τ : Topo := Topo.v7x

variable {F : FTy → Type} [FloatOps F]

class Facts₀ : Prop where
  concatenates_S2048x1024_S2048x1024_S4096x1024_d0 : Shape.Concatenates [S2048x1024, S2048x1024] S4096x1024 0
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S_d0_1 : S4096x4096.ReducesTo [0, 1] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KBRuns.lean ====
/-
  What the runs of the kernel's body share. @main is three stretches of host operations (the two inputs stacked, each
  row's norm, the division by the clamped norm and the change of format), the region, and seven more host operations
  (each 1×1 total reshaped, divided by its number of pairs, and the two added). Here: the buffer contents when the
  region is entered, @main reduced to the region continued by the later operations, each window's block at a grid
  point, the condition under which the body resets its two accumulators (the first grid point only), and the
  staging memrefs the pipeline passes the body.
-/
import proofs.«117261_j20804821582530_1_alg».proof.Proof.Gen.Kernel.Launch
import proofs.«117261_j20804821582530_1_alg».proof.Proof.Gen.Kernel.Skeleton
import proofs.«117261_j20804821582530_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host operations before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later host operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch condition -/

/-- The body zeroes its two accumulators exactly when both grid coordinates are 0. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- That is the first point of the grid only. -/
theorem hcond0_0 : ∀ t : Fin cfg0.N, cond0_0 (grid0.coords t) ↔ t.val = 0 :=
  (by decide +kernel : ∀ t : Fin grid0.N, cond0_0 (grid0.coords t) ↔ t.val = 0)

/-! ## The staging memrefs at a point -/

/-- One staging buffer of each accumulator window, through which its contents are stated. -/
abbrev VO0_2 : View sig .tc .vmem S1x1 .f32 := (Memref.whole cc0_stg2_0 : Memref sig .tc .vmem S1x1 .f32).view
abbrev VO0_3 : View sig .tc .vmem S1x1 .f32 := (Memref.whole cc0_stg3_0 : Memref sig .tc .vmem S1x1 .f32).view
abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)

end Cert.Kernel.Fr

end
-- ==== Proof.KBRunA.lean ====
/-
  The kernel's body at the first grid point, where it first zeroes its two 1×1 accumulators: run on whole staging
  memrefs holding the two input blocks, it ends with each accumulator's memref overwritten by the stores listed (the
  zero, then zero plus the tile's total) and the input blocks untouched.
-/
import proofs.«117261_j20804821582530_1_alg».proof.Proof.KBRuns

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in each accumulator at the first point (last first), with the proof that the body runs
    to its end from the input blocks `x0`, `x1` and accumulators holding anything. -/
noncomputable def kernelRun0_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S512x1024 .bf16) (x1 : Vec F S512x1024 .bf16) :
    Σ' (L2 : List (View.Piece (Elt F) S1x1 .f32)), { L3 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__ntxent_kernel i arg2 harg2 arg3 harg3 arg4 harg4 arg5 harg5) K } := by
  refine ⟨?_, ?_, fun E K => ?run⟩
  case run =>
    simp only [cc0__ntxent_kernel_eq_skeleton]; unfold cc0__ntxent_kernel_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Fr

end
-- ==== Proof.KBRunB.lean ====
/-
  The kernel's body at every later grid point: run on whole staging memrefs holding the two input blocks and the
  accumulators' running contents `xo2`, `xo3`, it ends with each accumulator's memref overwritten by the one
  store listed (the running value plus the tile's total) and the input blocks untouched.
-/
import proofs.«117261_j20804821582530_1_alg».proof.Proof.KBRunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The store the body leaves in each accumulator at a later point, with the proof that the body runs to its end
    from the input blocks `x0`, `x1` and the accumulators at `xo2`, `xo3`. -/
noncomputable def kernelRun0_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S512x1024 .bf16) (x1 : Vec F S512x1024 .bf16) (xo2 : Vec F S1x1 .f32) (xo3 : Vec F S1x1 .f32) :
    Σ' (L2 : List (View.Piece (Elt F) S1x1 .f32)), { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__ntxent_kernel i arg2 harg2 arg3 harg3 arg4 harg4 arg5 harg5) K } := by
  refine ⟨?_, ?_, fun E K => ?run⟩
  case run =>
    simp only [cc0__ntxent_kernel_eq_skeleton]; unfold cc0__ntxent_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Fr

end
-- ==== Proof.KBFrame.lean ====
/-
  What the two accumulators hold after each grid point, and the body's triple at every point. The first point
  zeroes each accumulator and adds its tile's total; every later point adds its tile's total to what the point
  before left, the accumulators' staging buffers being written back only after the last point. The two input
  windows read one array (the matrix of unit rows): each holds half of it.
-/
import proofs.«117261_j20804821582530_1_alg».proof.Proof.KBRunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulators -/

theorem cover0_A_2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S512x1024 .bf16) (x1 : Vec F S512x1024 .bf16) (y : S1x1.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x1.size (by sl_kernel_rfl) y
theorem cover0_A_3 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S512x1024 .bf16) (x1 : Vec F S512x1024 .bf16) (y : S1x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1.size (by sl_kernel_rfl) y
theorem cover0_B_2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S512x1024 .bf16) (x1 : Vec F S512x1024 .bf16) (xo2 xo3 : Vec F S1x1 .f32) (y : S1x1.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x1.size (by sl_kernel_rfl) y
theorem cover0_B_3 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S512x1024 .bf16) (x1 : Vec F S512x1024 .bf16) (xo2 xo3 : Vec F S1x1 .f32) (y : S1x1.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x1.size (by sl_kernel_rfl) y

/-- What the first point leaves in the accumulator of the positive pairs: its stores read back. -/
def out0_A_2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S512x1024 .bf16) (x1 : Vec F S512x1024 .bf16) : Vec F S1x1 .f32 :=
  VO0_2.read (Elt F) (VO0_2.writes (Elt F) VO0_2.junk (kernelRun0_A c i arg2 harg2 arg3 harg3 arg4 harg4 arg5 harg5 hc0 x0 x1).1)
/-- And in the accumulator of the other pairs. -/
def out0_A_3 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S512x1024 .bf16) (x1 : Vec F S512x1024 .bf16) : Vec F S1x1 .f32 :=
  VO0_3.read (Elt F) (VO0_3.writes (Elt F) VO0_3.junk (kernelRun0_A c i arg2 harg2 arg3 harg3 arg4 harg4 arg5 harg5 hc0 x0 x1).2.1)
/-- What a later point leaves in the accumulator of the positive pairs, over the running contents. -/
def out0_B_2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S512x1024 .bf16) (x1 : Vec F S512x1024 .bf16) (xo2 xo3 : Vec F S1x1 .f32) : Vec F S1x1 .f32 :=
  VO0_2.read (Elt F) (VO0_2.writes (Elt F) VO0_2.junk (kernelRun0_B c i arg2 harg2 arg3 harg3 arg4 harg4 arg5 harg5 hc0 x0 x1 xo2 xo3).1)
/-- And in the accumulator of the other pairs. -/
def out0_B_3 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S512x1024 .bf16) (x1 : Vec F S512x1024 .bf16) (xo2 xo3 : Vec F S1x1 .f32) : Vec F S1x1 .f32 :=
  VO0_3.read (Elt F) (VO0_3.writes (Elt F) VO0_3.junk (kernelRun0_B c i arg2 harg2 arg3 harg3 arg4 harg4 arg5 harg5 hc0 x0 x1 xo2 xo3).2.1)

/-! ## The accumulation -/

/-- What the two accumulators' staging buffers hold after the body at position `n`: the first point's contents at
    `0`, afterwards the later-point contents over what position `n - 1` left. -/
def outsAt0 (c : Dev nD) : (n : ℕ) → n < cfg0.N → Vec F S1x1 .f32 × Vec F S1x1 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr rfl) (iblk m c 0 ⟨0, hn⟩) (iblk m c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr rfl) (iblk m c 0 ⟨0, hn⟩) (iblk m c 1 ⟨0, hn⟩))
  | n + 1, hn =>
    (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => Nat.succ_ne_zero n ((hcond0_0 ⟨n + 1, hn⟩).mp h)) (iblk m c 0 ⟨n + 1, hn⟩) (iblk m c 1 ⟨n + 1, hn⟩)
        (outsAt0 c n (Nat.lt_of_succ_lt hn)).1 (outsAt0 c n (Nat.lt_of_succ_lt hn)).2,
     out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => Nat.succ_ne_zero n ((hcond0_0 ⟨n + 1, hn⟩).mp h)) (iblk m c 0 ⟨n + 1, hn⟩) (iblk m c 1 ⟨n + 1, hn⟩)
        (outsAt0 c n (Nat.lt_of_succ_lt hn)).1 (outsAt0 c n (Nat.lt_of_succ_lt hn)).2)

theorem outsAt0_A (c : Dev nD) (t : Fin cfg0.N) (h0 : t.val = 0) :
    outsAt0 m c t.val t.isLt =
      (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t),
       out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 m c t.val t.isLt =
      (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2,
       out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data on core `c`: the arrays as the region finds them; after the body each input's buffer at its block
    and the accumulators' at `outsAt0`; the two input windows, which read one array, each hold half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-- After the first point each accumulator's staging buffer holds what the body left at the point before: it is
    written back only after the last point. -/
theorem before0_2_B (c : Dev nD) (t : Fin cfg0.N) (h0 : ¬t.val = 0) (d) :
    (dats m 0 c).before 2 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 2 rfl t h0 (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val = 0) (d) :
    (dats m 0 c).before 3 t d = (outsAt0 m c (t.val - 1) (Nat.lt_of_le_of_lt (Nat.sub_le _ _) t.isLt)).2 := by
  have hN : t.val < 64 := lt_of_lt_of_eq t.isLt (show cfg0.N = 64 from N_0)
  rw [Dat.before_out_kept _ 3 rfl t h0 (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' memrefs hold their blocks; at the first point the accumulators hold anything
    and the first-point run applies, at a later one they hold what the point before left and the later-point run
    applies; the invariant passes through unread and nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val = 0
  · rw [outsAt0_A m c t h0]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    · unfold owns; iexists _; isplitr
      swap; · iexact H3
      ipureintro; exact View.read_writes_of_cover _ _ _ _ _ (cover0_A_3 c _ _ _ _ _ _ _ _ _ _ _ _)
  · rw [outsAt0_B m c t h0]
    dsimp only
    simp only [before0_2_B m c t h0, before0_3_B m c t h0]
    unfold out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    · unfold owns; iexists _; isplitr
      swap; · iexact H3
      ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.KBLaunch.lean ====
/-
  The launch of the kernel's region with its continuation. The two input windows read ONE array, so the array's
  points-to is split in halves between them at the region's entry and joined again at its exit; the two 1×1
  accumulator arrays are held outright. After the region the seven later host operations run over every unscoped
  buffer, the two accumulator arrays at what the last grid point wrote back. The run ends with the result buffer at
  those operations' value and the two argument arrays as launched.
-/
import proofs.«117261_j20804821582530_1_alg».proof.Proof.KBFrame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one pipeline's configuration prefetches no table: its one admissible table contents. -/
abbrev admK : (q : Fin 1) → (pcfgs (F := F) q).Adm := fun q => (cfgs q).toPCfg_adm

/-! ## The arrays, one by one -/

/-- The distinct buffers behind the windows' arrays: the matrix of unit rows and the two accumulators. -/
theorem arrBufs_eq (c : Dev nD) (Vb : (b : Ref sig .tc) → Buf (Elt F) ((c : Thread nD τ).loc b)) :
    (Pipeline.arrBufs spec0 c Vb : sProp 𝕄)
      = iprop((((c : Thread nD τ).loc main_v6) ↦{fullShare} Vb main_v6) ∗ (((c : Thread nD τ).loc main_v7_0) ↦{fullShare} Vb main_v7_0)
          ∗ (((c : Thread nD τ).loc main_v7_1) ↦{fullShare} Vb main_v7_1)) := by
  unfold Pipeline.arrBufs
  rw [bigSep_eq_bigSepL_of_eq [main_v6, main_v7_0, main_v7_1] (by decide) (by decide)]
  rfl

/-- The proof data's arrays: the matrix of unit rows in two halves, the accumulators outright. -/
theorem arrays_eq (c : Dev nD) (Fa : (w : Fin cfg0.W) → Buf (Elt F) ((cfg0.win w).arr.view.loc (c.tc : Thread nD τ))) :
    ((dats m 0 c).arrays Fa : sProp 𝕄)
      = iprop((((c : Thread nD τ).loc main_v6) ↦{fullShare.left} Fa 0) ∗ (((c : Thread nD τ).loc main_v6) ↦{fullShare.right} Fa 1)
          ∗ (((c : Thread nD τ).loc main_v7_0) ↦{fullShare} Fa 2) ∗ (((c : Thread nD τ).loc main_v7_1) ↦{fullShare} Fa 3)) := by
  unfold Dat.arrays
  rw [bigSep_W0, (arr_whole0 0).set_eq_univ, (arr_whole0 2).set_eq_univ, (arr_whole0 3).set_eq_univ]
  rfl

/-! ## The contents at the region's exit and at the program's end -/

/-- Core `c`'s buffers at the region's exit: as at its entry, the two accumulator arrays at what the pipeline wrote back. -/
abbrev Wx (c : Dev nD) : Valuation τ sig (Elt F) :=
  Function.update (Function.update (V0 m c) (Proc.devRef .tc main_v7_0) ((dats m 0 c).arrAt 2 cfg0.N))
    (Proc.devRef .tc main_v7_1) ((dats m 0 c).arrAt 3 cfg0.N)

/-- And at the program's end: after the seven later host operations. -/
abbrev Wt (c : Dev nD) : Valuation τ sig (Elt F) := StableHlo.after hostOps1 (Wx m c)

theorem Wx_v7_0 (c : Dev nD) : Wx m c (Proc.devRef .tc main_v7_0) = (dats m 0 c).arrAt 2 cfg0.N := by
  unfold Wx
  rw [Function.update_of_ne (StableHlo.devRef_ne_of_ne (by decide)), Function.update_self]
theorem Wx_v7_1 (c : Dev nD) : Wx m c (Proc.devRef .tc main_v7_1) = (dats m 0 c).arrAt 3 cfg0.N := by
  unfold Wx
  rw [Function.update_self]
theorem Wx_of_ne (c : Dev nD) (b : Ref sig .tc) (h0 : b ≠ main_v7_0) (h1 : b ≠ main_v7_1) :
    Wx m c (Proc.devRef .tc b) = V m c b := by
  unfold Wx
  rw [Function.update_of_ne (StableHlo.devRef_ne_of_ne h1), Function.update_of_ne (StableHlo.devRef_ne_of_ne h0)]

/-- Every unscoped buffer held at a valuation: the three arrays and the rest. -/
theorem held_uc_eq (c : Dev nD) (W : Valuation τ sig (Elt F)) :
    (StableHlo.held (c.tc : Thread nD τ) (Pipeline.ucRefs τ sig) W : sProp 𝕄)
      = iprop(((((c : Thread nD τ).loc main_v6) ↦{fullShare} W (Proc.devRef .tc main_v6)) ∗ (((c : Thread nD τ).loc main_v7_0) ↦{fullShare} W (Proc.devRef .tc main_v7_0))
          ∗ (((c : Thread nD τ).loc main_v7_1) ↦{fullShare} W (Proc.devRef .tc main_v7_1)))
          ∗ Pipeline.unscopedRest spec0 c (fun b => W (Proc.devRef .tc b))) := by
  rw [← Pipeline.unscopedBufs_held, Pipeline.unscopedBufs_split₀ cfgs 0 winFacts₀0.arr_unscoped c, arrBufs_eq]

/-- The bypassing buffers are untouched by the change of the accumulator arrays. -/
theorem rest_Wx (c : Dev nD) :
    (Pipeline.unscopedRest spec0 c (fun b => Wx m c (Proc.devRef .tc b)) : sProp 𝕄) = Pipeline.unscopedRest spec0 c (V m c) := by
  unfold Pipeline.unscopedRest
  exact bigSep_congr fun b hb => by
    have hb' := (Finset.mem_sdiff.mp hb).2
    dsimp only
    rw [Wx_of_ne m c b (fun h => hb' (Finset.mem_image.mpr ⟨2, Finset.mem_univ _, h.symm ▸ rfl⟩))
      (fun h => hb' (Finset.mem_image.mpr ⟨3, Finset.mem_univ _, h.symm ▸ rfl⟩))]

/-- The later host operations write none of the three arrays. -/
theorem hostOps1_keeps (b : Ref sig .tc) (hb : b = main_v6 ∨ b = main_v7_0 ∨ b = main_v7_1) :
    ∀ op ∈ (hostOps1 : List (HloOp τ sig (Elt F))), Proc.devRef .tc b ∉ op.writes := by
  intro op hop
  simp only [hostOps1, List.mem_cons, List.mem_nil_iff, or_false] at hop
  rcases hop with rfl | rfl | rfl | rfl | rfl | rfl | rfl
  all_goals rcases hb with rfl | rfl | rfl <;> simp only [StableHlo.nullary_writes, StableHlo.unary_writes, StableHlo.binary_writes, StableHlo.reshape_writes, Finset.mem_singleton] <;> exact StableHlo.devRef_ne_of_ne (by decide)

theorem Wt_keeps (c : Dev nD) (b : Ref sig .tc) (hb : b = main_v6 ∨ b = main_v7_0 ∨ b = main_v7_1) :
    Wt m c (Proc.devRef .tc b) = Wx m c (Proc.devRef .tc b) :=
  StableHlo.after_of_forall_not_mem _ _ (hostOps1_keeps b hb)

/-! ## The region's entry and exit -/

/-- At the entry the matrix of unit rows is split in halves between the two input windows. -/
theorem hsplit (c : Dev nD) : (Pipeline.arrBufs spec0 c (V m c) : sProp 𝕄) ⊢ (dats m 0 c).arrays ((dats m 0 c).arrAt · 0) := by
  rw [arrBufs_eq, arrays_eq]
  iintro ⟨H6, H70, H71⟩
  ihave H := (pointsTo_share (PosShare.mem_left_op_right fullShare)).1 $$ H6
  icases H with ⟨HL, HR⟩
  isplitl [HL]; · iexact HL
  isplitl [HR]; · iexact HR
  isplitl [H70]; · iexact H70
  iexact H71

/-- The input windows' array is never written back: it ends as it was found. -/
theorem arrAt_0 (c : Dev nD) : (dats m 0 c).arrAt 0 cfg0.N = V m c main_v6 := ((dats m 0 c).arrAt_in 0 rfl _).trans (A_eq m c 0)
theorem arrAt_1 (c : Dev nD) : (dats m 0 c).arrAt 1 cfg0.N = V m c main_v6 := ((dats m 0 c).arrAt_in 1 rfl _).trans (A_eq m c 1)

/-- What the region leaves — the arrays and the bypassing buffers — is every unscoped buffer at the exit contents. -/
theorem exit_held (c : Dev nD) :
    iprop((dats m 0 c).arrays ((dats m 0 c).arrAt · cfg0.N) ∗ (Pipeline.unscopedRest spec0 c (V m c) : sProp 𝕄))
      ⊢ StableHlo.held (c.tc : Thread nD τ) (Pipeline.ucRefs τ sig) (Wx m c) := by
  rw [held_uc_eq, rest_Wx, Wx_v7_0, Wx_v7_1, Wx_of_ne m c main_v6 (by decide) (by decide), arrays_eq, arrAt_0, arrAt_1]
  iintro ⟨⟨HL, HR, H70, H71⟩, HZ⟩
  isplitr [HZ]
  · isplitl [HL HR]
    · iapply (pointsTo_share (PosShare.mem_left_op_right fullShare)).2
      isplitl [HL]; · iexact HL
      iexact HR
    isplitl [H70]; · iexact H70
    iexact H71
  iexact HZ

/-- And back, at the end contents: the later host operations wrote none of the three arrays. -/
theorem end_held (c : Dev nD) :
    (StableHlo.held (c.tc : Thread nD τ) (Pipeline.ucRefs τ sig) (Wt m c) : sProp 𝕄)
      ⊢ iprop((dats m 0 c).arrays ((dats m 0 c).arrAt · cfg0.N) ∗ Pipeline.unscopedRest spec0 c (fun b => Wt m c (Proc.devRef .tc b))) := by
  rw [held_uc_eq, Wt_keeps m c main_v6 (.inl rfl), Wt_keeps m c main_v7_0 (.inr (.inl rfl)), Wt_keeps m c main_v7_1 (.inr (.inr rfl)),
    Wx_v7_0, Wx_v7_1, Wx_of_ne m c main_v6 (by decide) (by decide), arrays_eq, arrAt_0, arrAt_1]
  iintro ⟨⟨H6, H70, H71⟩, HZ⟩
  ihave H := (pointsTo_share (PosShare.mem_left_op_right fullShare)).1 $$ H6
  icases H with ⟨HL, HR⟩
  isplitr [HZ]
  · isplitl [HL]; · iexact HL
    isplitl [HR]; · iexact HR
    isplitl [H70]; · iexact H70
    iexact H71
  iexact HZ

theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option backward.isDefEq.respectTransparency.types false in
/-- The continuation: from the region's exit the later host operations run over every unscoped buffer. -/
theorem htail (c : Dev nD) (Q' : PUnit → sProp 𝕄) :
    iprop((iprop((dats m 0 c).arrays ((dats m 0 c).arrAt · cfg0.N) ∗ Pipeline.unscopedRest spec0 c (fun b => Wt m c (Proc.devRef .tc b))) -∗ Q' ⟨⟩)
        ∗ boundary (c.tc : Thread nD τ) ∗ (dats m 0 c).arrays ((dats m 0 c).arrAt · cfg0.N) ∗ (Pipeline.unscopedRest spec0 c (V m c) : sProp 𝕄))
      ⊢ wp frame (wpE (Pipeline.defs (pcfgs (F := F)) defs₀) (Variants.lift Variants.none) (c.tc : Thread nD τ) none) Set.univ
          (Pipeline.chain [StableHlo.seq hostOps1]) Q' := by
  rw [show (Pipeline.chain [StableHlo.seq (hostOps1 (F := F))] : Prog (TpuEff nD τ sig (Elt F) (Pipeline.Sig Λ₀ (Fin 1) fun p => (pcfgs (F := F) p).Adm) .tc) PUnit)
      = Pipeline.chain (([hostOps1] : List (List (HloOp τ sig (Elt F)))).map StableHlo.seq ++ []) from rfl]
  iintro ⟨Hk, Hb, Ha, HZ⟩
  ihave HH := (exit_held m c) $$ [Ha HZ]
  · isplitl [Ha]; · iexact Ha
    iexact HZ
  iapply (Pipeline.wp_seqs_then (pcfgs (F := F)) defs₀ Variants.none c (Pipeline.ucRefs τ sig) [] [hostOps1] sfx_sub sfx_fresh (Wx m c)) $$ [Hb HH]
  · isplitl [Hb]; · iexact Hb
    iexact HH
  iintro ⟨-, HH⟩
  rw [Pipeline.chain_nil, wp_pure]
  imodintro
  iapply Hk
  iapply (end_held m c)
  iexact HH

/-! ## The run -/

set_option backward.isDefEq.respectTransparency.types false in
/-- Every weakly fair execution of @main terminates, and every buffer that is no window's array ends at the contents
    the later host operations compute from the region's exit. -/
theorem run_main : θ_run defs (onTc (τ := τ) (main (F := F))) ⟨m, fun _ => 0, ρ⟩ (fun r => ∀ c : Dev nD,
    ∀ b ∈ Pipeline.restRefs sig spec0, r.2.mem ((c.tc : Thread nD τ).loc b) = Wt m c (Proc.devRef .tc b)) := by
  classical
  have hcell : Function.Injective (Pipeline.cellOf (nD := nD) (τ := τ) (Pipeline.pin (pcfgs (F := F)) admK)) := cellOf_inj
  exact Pipeline.θ_run_region_pf_tail (pcfgs (F := F)) admK (dats m) () hcell 0 winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells (Pipeline.pin (pcfgs (F := F)) admK) hcell) (Pipeline.launchToks (Pipeline.pin (pcfgs (F := F)) admK) hcell))
    (hu₀ := by
      iintro Hu; imodintro
      isplitl [Hu]; · iapply (show (ownU _ : sProp 𝕄) ⊢ BI.own (emb₁ (initOf (Pipeline.cells (Pipeline.pin (pcfgs (F := F)) admK) hcell) (Pipeline.launchToks (Pipeline.pin (pcfgs (F := F)) admK) hcell))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wt m c (Proc.devRef .tc b)))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      rw [Pipeline.unscopedRestP_none, Pipeline.unscopedRestP_none]
      exact htail m c Q')
    (QY := fun c s => ∀ b ∈ Pipeline.restRefsP sig Pipeline.Prefetch.none spec0, s.mem ((c.tc : Thread nD τ).loc b) = Wt m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wt m c (Proc.devRef .tc b)) s')
      isplitl [HU] <;> iassumption)
    (hQ := fun s h c b hb => (h c).2.2 b (Finset.mem_sdiff.mpr ⟨hb, fun hk => by
      obtain ⟨k, -, -⟩ := Finset.mem_image.mp hk
      exact k.elim0⟩))

end Cert.Kernel.Fr

end
-- ==== Proof.KBClaim.lean ====
/-
  The frame: the program runs to its end and its two argument arrays end as launched. No host operation, before or
  after the region, writes an argument array, and the region's windows do not stage them.
-/
import proofs.«117261_j20804821582530_1_alg».proof.Proof.KBLaunch

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays when the region is entered are the launch contents. -/
theorem V_main_arg0 (c : Dev nD) : V m c main_arg0 = m ((c : Thread nD τ).loc main_arg0) := by
  dsimp only [V, V0]
  simp only [hostOps0, hostOps0_1, hostOps0_2, List.flatten_cons, List.flatten_nil, List.append_nil, List.cons_append, List.nil_append]
  after_results
theorem V_main_arg1 (c : Dev nD) : V m c main_arg1 = m ((c : Thread nD τ).loc main_arg1) := by
  dsimp only [V, V0]
  simp only [hostOps0, hostOps0_1, hostOps0_2, List.flatten_cons, List.flatten_nil, List.append_nil, List.cons_append, List.nil_append]
  after_results

/-- The later host operations write no argument array. -/
theorem hostOps1_keeps_arg (b : Ref sig .tc) (hb : b = main_arg0 ∨ b = main_arg1) :
    ∀ op ∈ (hostOps1 : List (HloOp τ sig (Elt F))), Proc.devRef .tc b ∉ op.writes := by
  intro op hop
  simp only [hostOps1, List.mem_cons, List.mem_nil_iff, or_false] at hop
  rcases hop with rfl | rfl | rfl | rfl | rfl | rfl | rfl
  all_goals rcases hb with rfl | rfl <;> simp only [StableHlo.nullary_writes, StableHlo.unary_writes, StableHlo.binary_writes, StableHlo.reshape_writes, Finset.mem_singleton] <;> exact StableHlo.devRef_ne_of_ne (by decide)

theorem Wt_arg0 (c : Dev nD) : Wt m c (Proc.devRef .tc main_arg0) = m ((c : Thread nD τ).loc main_arg0) :=
  (StableHlo.after_of_forall_not_mem _ _ (hostOps1_keeps_arg main_arg0 (.inl rfl))).trans
    ((Wx_of_ne m c main_arg0 (by decide) (by decide)).trans (V_main_arg0 m c))
theorem Wt_arg1 (c : Dev nD) : Wt m c (Proc.devRef .tc main_arg1) = m ((c : Thread nD τ).loc main_arg1) :=
  (StableHlo.after_of_forall_not_mem _ _ (hostOps1_keeps_arg main_arg1 (.inr rfl))).trans
    ((Wx_of_ne m c main_arg1 (by decide) (by decide)).trans (V_main_arg1 m c))

/-- The run with the result buffer named and the argument arrays unchanged. -/
theorem run_result : θ_run defs (onTc (τ := τ) (main (F := F))) ⟨m, fun _ => 0, ρ⟩ (fun r => ∀ c : Dev nD,
      r.2.mem ((c.tc : Thread nD τ).loc main_v12) = Wt m c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c main_v12 (Pipeline.mem_restRefs_of main_v12 rfl (by decide)),
     (h c main_arg0 (Pipeline.mem_restRefs_of main_arg0 rfl (by decide))).trans (Wt_arg0 m c),
     (h c main_arg1 (Pipeline.mem_restRefs_of main_arg1 rfl (by decide))).trans (Wt_arg1 m c)⟩) (run_main m ρ)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.Kernel.Fr

end
-- ==== Proof.KIRuns.lean ====
/-
  What the runs of the kernel's body share. @main is three stretches of host operations (the two inputs stacked, each
  row's norm, the division by the clamped norm and the change of format), the region, and seven more host operations
  (each 1×1 total reshaped, divided by its number of pairs, and the two added). Here: the buffer contents when the
  region is entered, @main reduced to the region continued by the later operations, each window's block at a grid
  point, the condition under which the body resets its two accumulators (the first grid point only), and the
  staging memrefs the pipeline passes the body.
-/
import proofs.«117261_j20804821582530_1_alg».proof.Proof.Gen.KernelIdeal.Launch
import proofs.«117261_j20804821582530_1_alg».proof.Proof.Gen.KernelIdeal.Skeleton
import proofs.«117261_j20804821582530_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host operations before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later host operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch condition -/

/-- The body zeroes its two accumulators exactly when both grid coordinates are 0. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- That is the first point of the grid only. -/
theorem hcond0_0 : ∀ t : Fin cfg0.N, cond0_0 (grid0.coords t) ↔ t.val = 0 :=
  (by decide +kernel : ∀ t : Fin grid0.N, cond0_0 (grid0.coords t) ↔ t.val = 0)

/-! ## The staging memrefs at a point -/

/-- One staging buffer of each accumulator window, through which its contents are stated. -/
abbrev VO0_2 : View sig .tc .vmem S1x1 .f32 := (Memref.whole cc0_stg2_0 : Memref sig .tc .vmem S1x1 .f32).view
abbrev VO0_3 : View sig .tc .vmem S1x1 .f32 := (Memref.whole cc0_stg3_0 : Memref sig .tc .vmem S1x1 .f32).view
abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)

end Cert.KernelIdeal.Fr

end
-- ==== Proof.KIRunA.lean ====
/-
  The kernel's body at the first grid point, where it first zeroes its two 1×1 accumulators: run on whole staging
  memrefs holding the two input blocks, it ends with each accumulator's memref overwritten by the stores listed (the
  zero, then zero plus the tile's total) and the input blocks untouched.
-/
import proofs.«117261_j20804821582530_1_alg».proof.Proof.KIRuns

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in each accumulator at the first point (last first), with the proof that the body runs
    to its end from the input blocks `x0`, `x1` and accumulators holding anything. -/
noncomputable def kernelRun0_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S512x1024 .bf16) (x1 : Vec F S512x1024 .bf16) :
    Σ' (L2 : List (View.Piece (Elt F) S1x1 .f32)), { L3 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__ntxent_kernel i arg2 harg2 arg3 harg3 arg4 harg4 arg5 harg5) K } := by
  refine ⟨?_, ?_, fun E K => ?run⟩
  case run =>
    simp only [cc0__ntxent_kernel_eq_skeleton]; unfold cc0__ntxent_kernel_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Fr

end
-- ==== Proof.KIRunB.lean ====
/-
  The kernel's body at every later grid point: run on whole staging memrefs holding the two input blocks and the
  accumulators' running contents `xo2`, `xo3`, it ends with each accumulator's memref overwritten by the one
  store listed (the running value plus the tile's total) and the input blocks untouched.
-/
import proofs.«117261_j20804821582530_1_alg».proof.Proof.KIRunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The store the body leaves in each accumulator at a later point, with the proof that the body runs to its end
    from the input blocks `x0`, `x1` and the accumulators at `xo2`, `xo3`. -/
noncomputable def kernelRun0_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S512x1024 .bf16) (x1 : Vec F S512x1024 .bf16) (xo2 : Vec F S1x1 .f32) (xo3 : Vec F S1x1 .f32) :
    Σ' (L2 : List (View.Piece (Elt F) S1x1 .f32)), { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__ntxent_kernel i arg2 harg2 arg3 harg3 arg4 harg4 arg5 harg5) K } := by
  refine ⟨?_, ?_, fun E K => ?run⟩
  case run =>
    simp only [cc0__ntxent_kernel_eq_skeleton]; unfold cc0__ntxent_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Fr

end
-- ==== Proof.KIFrame.lean ====
/-
  What the two accumulators hold after each grid point, and the body's triple at every point. The first point
  zeroes each accumulator and adds its tile's total; every later point adds its tile's total to what the point
  before left, the accumulators' staging buffers being written back only after the last point. The two input
  windows read one array (the matrix of unit rows): each holds half of it.
-/
import proofs.«117261_j20804821582530_1_alg».proof.Proof.KIRunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulators -/

theorem cover0_A_2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S512x1024 .bf16) (x1 : Vec F S512x1024 .bf16) (y : S1x1.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x1.size (by sl_kernel_rfl) y
theorem cover0_A_3 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S512x1024 .bf16) (x1 : Vec F S512x1024 .bf16) (y : S1x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1.size (by sl_kernel_rfl) y
theorem cover0_B_2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S512x1024 .bf16) (x1 : Vec F S512x1024 .bf16) (xo2 xo3 : Vec F S1x1 .f32) (y : S1x1.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x1.size (by sl_kernel_rfl) y
theorem cover0_B_3 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S512x1024 .bf16) (x1 : Vec F S512x1024 .bf16) (xo2 xo3 : Vec F S1x1 .f32) (y : S1x1.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x1.size (by sl_kernel_rfl) y

/-- What the first point leaves in the accumulator of the positive pairs: its stores read back. -/
def out0_A_2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S512x1024 .bf16) (x1 : Vec F S512x1024 .bf16) : Vec F S1x1 .f32 :=
  VO0_2.read (Elt F) (VO0_2.writes (Elt F) VO0_2.junk (kernelRun0_A c i arg2 harg2 arg3 harg3 arg4 harg4 arg5 harg5 hc0 x0 x1).1)
/-- And in the accumulator of the other pairs. -/
def out0_A_3 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S512x1024 .bf16) (x1 : Vec F S512x1024 .bf16) : Vec F S1x1 .f32 :=
  VO0_3.read (Elt F) (VO0_3.writes (Elt F) VO0_3.junk (kernelRun0_A c i arg2 harg2 arg3 harg3 arg4 harg4 arg5 harg5 hc0 x0 x1).2.1)
/-- What a later point leaves in the accumulator of the positive pairs, over the running contents. -/
def out0_B_2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S512x1024 .bf16) (x1 : Vec F S512x1024 .bf16) (xo2 xo3 : Vec F S1x1 .f32) : Vec F S1x1 .f32 :=
  VO0_2.read (Elt F) (VO0_2.writes (Elt F) VO0_2.junk (kernelRun0_B c i arg2 harg2 arg3 harg3 arg4 harg4 arg5 harg5 hc0 x0 x1 xo2 xo3).1)
/-- And in the accumulator of the other pairs. -/
def out0_B_3 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S512x1024 .bf16) (x1 : Vec F S512x1024 .bf16) (xo2 xo3 : Vec F S1x1 .f32) : Vec F S1x1 .f32 :=
  VO0_3.read (Elt F) (VO0_3.writes (Elt F) VO0_3.junk (kernelRun0_B c i arg2 harg2 arg3 harg3 arg4 harg4 arg5 harg5 hc0 x0 x1 xo2 xo3).2.1)

/-! ## The accumulation -/

/-- What the two accumulators' staging buffers hold after the body at position `n`: the first point's contents at
    `0`, afterwards the later-point contents over what position `n - 1` left. -/
def outsAt0 (c : Dev nD) : (n : ℕ) → n < cfg0.N → Vec F S1x1 .f32 × Vec F S1x1 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr rfl) (iblk m c 0 ⟨0, hn⟩) (iblk m c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr rfl) (iblk m c 0 ⟨0, hn⟩) (iblk m c 1 ⟨0, hn⟩))
  | n + 1, hn =>
    (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => Nat.succ_ne_zero n ((hcond0_0 ⟨n + 1, hn⟩).mp h)) (iblk m c 0 ⟨n + 1, hn⟩) (iblk m c 1 ⟨n + 1, hn⟩)
        (outsAt0 c n (Nat.lt_of_succ_lt hn)).1 (outsAt0 c n (Nat.lt_of_succ_lt hn)).2,
     out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => Nat.succ_ne_zero n ((hcond0_0 ⟨n + 1, hn⟩).mp h)) (iblk m c 0 ⟨n + 1, hn⟩) (iblk m c 1 ⟨n + 1, hn⟩)
        (outsAt0 c n (Nat.lt_of_succ_lt hn)).1 (outsAt0 c n (Nat.lt_of_succ_lt hn)).2)

theorem outsAt0_A (c : Dev nD) (t : Fin cfg0.N) (h0 : t.val = 0) :
    outsAt0 m c t.val t.isLt =
      (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t),
       out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 m c t.val t.isLt =
      (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2,
       out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data on core `c`: the arrays as the region finds them; after the body each input's buffer at its block
    and the accumulators' at `outsAt0`; the two input windows, which read one array, each hold half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-- After the first point each accumulator's staging buffer holds what the body left at the point before: it is
    written back only after the last point. -/
theorem before0_2_B (c : Dev nD) (t : Fin cfg0.N) (h0 : ¬t.val = 0) (d) :
    (dats m 0 c).before 2 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 2 rfl t h0 (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val = 0) (d) :
    (dats m 0 c).before 3 t d = (outsAt0 m c (t.val - 1) (Nat.lt_of_le_of_lt (Nat.sub_le _ _) t.isLt)).2 := by
  have hN : t.val < 64 := lt_of_lt_of_eq t.isLt (show cfg0.N = 64 from N_0)
  rw [Dat.before_out_kept _ 3 rfl t h0 (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' memrefs hold their blocks; at the first point the accumulators hold anything
    and the first-point run applies, at a later one they hold what the point before left and the later-point run
    applies; the invariant passes through unread and nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val = 0
  · rw [outsAt0_A m c t h0]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    · unfold owns; iexists _; isplitr
      swap; · iexact H3
      ipureintro; exact View.read_writes_of_cover _ _ _ _ _ (cover0_A_3 c _ _ _ _ _ _ _ _ _ _ _ _)
  · rw [outsAt0_B m c t h0]
    dsimp only
    simp only [before0_2_B m c t h0, before0_3_B m c t h0]
    unfold out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    · unfold owns; iexists _; isplitr
      swap; · iexact H3
      ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KILaunch.lean ====
/-
  The launch of the kernel's region with its continuation. The two input windows read ONE array, so the array's
  points-to is split in halves between them at the region's entry and joined again at its exit; the two 1×1
  accumulator arrays are held outright. After the region the seven later host operations run over every unscoped
  buffer, the two accumulator arrays at what the last grid point wrote back. The run ends with the result buffer at
  those operations' value and the two argument arrays as launched.
-/
import proofs.«117261_j20804821582530_1_alg».proof.Proof.KIFrame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one pipeline's configuration prefetches no table: its one admissible table contents. -/
abbrev admK : (q : Fin 1) → (pcfgs (F := F) q).Adm := fun q => (cfgs q).toPCfg_adm

/-! ## The arrays, one by one -/

/-- The distinct buffers behind the windows' arrays: the matrix of unit rows and the two accumulators. -/
theorem arrBufs_eq (c : Dev nD) (Vb : (b : Ref sig .tc) → Buf (Elt F) ((c : Thread nD τ).loc b)) :
    (Pipeline.arrBufs spec0 c Vb : sProp 𝕄)
      = iprop((((c : Thread nD τ).loc main_v6) ↦{fullShare} Vb main_v6) ∗ (((c : Thread nD τ).loc main_v7_0) ↦{fullShare} Vb main_v7_0)
          ∗ (((c : Thread nD τ).loc main_v7_1) ↦{fullShare} Vb main_v7_1)) := by
  unfold Pipeline.arrBufs
  rw [bigSep_eq_bigSepL_of_eq [main_v6, main_v7_0, main_v7_1] (by decide) (by decide)]
  rfl

/-- The proof data's arrays: the matrix of unit rows in two halves, the accumulators outright. -/
theorem arrays_eq (c : Dev nD) (Fa : (w : Fin cfg0.W) → Buf (Elt F) ((cfg0.win w).arr.view.loc (c.tc : Thread nD τ))) :
    ((dats m 0 c).arrays Fa : sProp 𝕄)
      = iprop((((c : Thread nD τ).loc main_v6) ↦{fullShare.left} Fa 0) ∗ (((c : Thread nD τ).loc main_v6) ↦{fullShare.right} Fa 1)
          ∗ (((c : Thread nD τ).loc main_v7_0) ↦{fullShare} Fa 2) ∗ (((c : Thread nD τ).loc main_v7_1) ↦{fullShare} Fa 3)) := by
  unfold Dat.arrays
  rw [bigSep_W0, (arr_whole0 0).set_eq_univ, (arr_whole0 2).set_eq_univ, (arr_whole0 3).set_eq_univ]
  rfl

/-! ## The contents at the region's exit and at the program's end -/

/-- Core `c`'s buffers at the region's exit: as at its entry, the two accumulator arrays at what the pipeline wrote back. -/
abbrev Wx (c : Dev nD) : Valuation τ sig (Elt F) :=
  Function.update (Function.update (V0 m c) (Proc.devRef .tc main_v7_0) ((dats m 0 c).arrAt 2 cfg0.N))
    (Proc.devRef .tc main_v7_1) ((dats m 0 c).arrAt 3 cfg0.N)

/-- And at the program's end: after the seven later host operations. -/
abbrev Wt (c : Dev nD) : Valuation τ sig (Elt F) := StableHlo.after hostOps1 (Wx m c)

theorem Wx_v7_0 (c : Dev nD) : Wx m c (Proc.devRef .tc main_v7_0) = (dats m 0 c).arrAt 2 cfg0.N := by
  unfold Wx
  rw [Function.update_of_ne (StableHlo.devRef_ne_of_ne (by decide)), Function.update_self]
theorem Wx_v7_1 (c : Dev nD) : Wx m c (Proc.devRef .tc main_v7_1) = (dats m 0 c).arrAt 3 cfg0.N := by
  unfold Wx
  rw [Function.update_self]
theorem Wx_of_ne (c : Dev nD) (b : Ref sig .tc) (h0 : b ≠ main_v7_0) (h1 : b ≠ main_v7_1) :
    Wx m c (Proc.devRef .tc b) = V m c b := by
  unfold Wx
  rw [Function.update_of_ne (StableHlo.devRef_ne_of_ne h1), Function.update_of_ne (StableHlo.devRef_ne_of_ne h0)]

/-- Every unscoped buffer held at a valuation: the three arrays and the rest. -/
theorem held_uc_eq (c : Dev nD) (W : Valuation τ sig (Elt F)) :
    (StableHlo.held (c.tc : Thread nD τ) (Pipeline.ucRefs τ sig) W : sProp 𝕄)
      = iprop(((((c : Thread nD τ).loc main_v6) ↦{fullShare} W (Proc.devRef .tc main_v6)) ∗ (((c : Thread nD τ).loc main_v7_0) ↦{fullShare} W (Proc.devRef .tc main_v7_0))
          ∗ (((c : Thread nD τ).loc main_v7_1) ↦{fullShare} W (Proc.devRef .tc main_v7_1)))
          ∗ Pipeline.unscopedRest spec0 c (fun b => W (Proc.devRef .tc b))) := by
  rw [← Pipeline.unscopedBufs_held, Pipeline.unscopedBufs_split₀ cfgs 0 winFacts₀0.arr_unscoped c, arrBufs_eq]

/-- The bypassing buffers are untouched by the change of the accumulator arrays. -/
theorem rest_Wx (c : Dev nD) :
    (Pipeline.unscopedRest spec0 c (fun b => Wx m c (Proc.devRef .tc b)) : sProp 𝕄) = Pipeline.unscopedRest spec0 c (V m c) := by
  unfold Pipeline.unscopedRest
  exact bigSep_congr fun b hb => by
    have hb' := (Finset.mem_sdiff.mp hb).2
    dsimp only
    rw [Wx_of_ne m c b (fun h => hb' (Finset.mem_image.mpr ⟨2, Finset.mem_univ _, h.symm ▸ rfl⟩))
      (fun h => hb' (Finset.mem_image.mpr ⟨3, Finset.mem_univ _, h.symm ▸ rfl⟩))]

/-- The later host operations write none of the three arrays. -/
theorem hostOps1_keeps (b : Ref sig .tc) (hb : b = main_v6 ∨ b = main_v7_0 ∨ b = main_v7_1) :
    ∀ op ∈ (hostOps1 : List (HloOp τ sig (Elt F))), Proc.devRef .tc b ∉ op.writes := by
  intro op hop
  simp only [hostOps1, List.mem_cons, List.mem_nil_iff, or_false] at hop
  rcases hop with rfl | rfl | rfl | rfl | rfl | rfl | rfl
  all_goals rcases hb with rfl | rfl | rfl <;> simp only [StableHlo.nullary_writes, StableHlo.unary_writes, StableHlo.binary_writes, StableHlo.reshape_writes, Finset.mem_singleton] <;> exact StableHlo.devRef_ne_of_ne (by decide)

theorem Wt_keeps (c : Dev nD) (b : Ref sig .tc) (hb : b = main_v6 ∨ b = main_v7_0 ∨ b = main_v7_1) :
    Wt m c (Proc.devRef .tc b) = Wx m c (Proc.devRef .tc b) :=
  StableHlo.after_of_forall_not_mem _ _ (hostOps1_keeps b hb)

/-! ## The region's entry and exit -/

/-- At the entry the matrix of unit rows is split in halves between the two input windows. -/
theorem hsplit (c : Dev nD) : (Pipeline.arrBufs spec0 c (V m c) : sProp 𝕄) ⊢ (dats m 0 c).arrays ((dats m 0 c).arrAt · 0) := by
  rw [arrBufs_eq, arrays_eq]
  iintro ⟨H6, H70, H71⟩
  ihave H := (pointsTo_share (PosShare.mem_left_op_right fullShare)).1 $$ H6
  icases H with ⟨HL, HR⟩
  isplitl [HL]; · iexact HL
  isplitl [HR]; · iexact HR
  isplitl [H70]; · iexact H70
  iexact H71

/-- The input windows' array is never written back: it ends as it was found. -/
theorem arrAt_0 (c : Dev nD) : (dats m 0 c).arrAt 0 cfg0.N = V m c main_v6 := ((dats m 0 c).arrAt_in 0 rfl _).trans (A_eq m c 0)
theorem arrAt_1 (c : Dev nD) : (dats m 0 c).arrAt 1 cfg0.N = V m c main_v6 := ((dats m 0 c).arrAt_in 1 rfl _).trans (A_eq m c 1)

/-- What the region leaves — the arrays and the bypassing buffers — is every unscoped buffer at the exit contents. -/
theorem exit_held (c : Dev nD) :
    iprop((dats m 0 c).arrays ((dats m 0 c).arrAt · cfg0.N) ∗ (Pipeline.unscopedRest spec0 c (V m c) : sProp 𝕄))
      ⊢ StableHlo.held (c.tc : Thread nD τ) (Pipeline.ucRefs τ sig) (Wx m c) := by
  rw [held_uc_eq, rest_Wx, Wx_v7_0, Wx_v7_1, Wx_of_ne m c main_v6 (by decide) (by decide), arrays_eq, arrAt_0, arrAt_1]
  iintro ⟨⟨HL, HR, H70, H71⟩, HZ⟩
  isplitr [HZ]
  · isplitl [HL HR]
    · iapply (pointsTo_share (PosShare.mem_left_op_right fullShare)).2
      isplitl [HL]; · iexact HL
      iexact HR
    isplitl [H70]; · iexact H70
    iexact H71
  iexact HZ

/-- And back, at the end contents: the later host operations wrote none of the three arrays. -/
theorem end_held (c : Dev nD) :
    (StableHlo.held (c.tc : Thread nD τ) (Pipeline.ucRefs τ sig) (Wt m c) : sProp 𝕄)
      ⊢ iprop((dats m 0 c).arrays ((dats m 0 c).arrAt · cfg0.N) ∗ Pipeline.unscopedRest spec0 c (fun b => Wt m c (Proc.devRef .tc b))) := by
  rw [held_uc_eq, Wt_keeps m c main_v6 (.inl rfl), Wt_keeps m c main_v7_0 (.inr (.inl rfl)), Wt_keeps m c main_v7_1 (.inr (.inr rfl)),
    Wx_v7_0, Wx_v7_1, Wx_of_ne m c main_v6 (by decide) (by decide), arrays_eq, arrAt_0, arrAt_1]
  iintro ⟨⟨H6, H70, H71⟩, HZ⟩
  ihave H := (pointsTo_share (PosShare.mem_left_op_right fullShare)).1 $$ H6
  icases H with ⟨HL, HR⟩
  isplitr [HZ]
  · isplitl [HL]; · iexact HL
    isplitl [HR]; · iexact HR
    isplitl [H70]; · iexact H70
    iexact H71
  iexact HZ

theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option backward.isDefEq.respectTransparency.types false in
/-- The continuation: from the region's exit the later host operations run over every unscoped buffer. -/
theorem htail (c : Dev nD) (Q' : PUnit → sProp 𝕄) :
    iprop((iprop((dats m 0 c).arrays ((dats m 0 c).arrAt · cfg0.N) ∗ Pipeline.unscopedRest spec0 c (fun b => Wt m c (Proc.devRef .tc b))) -∗ Q' ⟨⟩)
        ∗ boundary (c.tc : Thread nD τ) ∗ (dats m 0 c).arrays ((dats m 0 c).arrAt · cfg0.N) ∗ (Pipeline.unscopedRest spec0 c (V m c) : sProp 𝕄))
      ⊢ wp frame (wpE (Pipeline.defs (pcfgs (F := F)) defs₀) (Variants.lift Variants.none) (c.tc : Thread nD τ) none) Set.univ
          (Pipeline.chain [StableHlo.seq hostOps1]) Q' := by
  rw [show (Pipeline.chain [StableHlo.seq (hostOps1 (F := F))] : Prog (TpuEff nD τ sig (Elt F) (Pipeline.Sig Λ₀ (Fin 1) fun p => (pcfgs (F := F) p).Adm) .tc) PUnit)
      = Pipeline.chain (([hostOps1] : List (List (HloOp τ sig (Elt F)))).map StableHlo.seq ++ []) from rfl]
  iintro ⟨Hk, Hb, Ha, HZ⟩
  ihave HH := (exit_held m c) $$ [Ha HZ]
  · isplitl [Ha]; · iexact Ha
    iexact HZ
  iapply (Pipeline.wp_seqs_then (pcfgs (F := F)) defs₀ Variants.none c (Pipeline.ucRefs τ sig) [] [hostOps1] sfx_sub sfx_fresh (Wx m c)) $$ [Hb HH]
  · isplitl [Hb]; · iexact Hb
    iexact HH
  iintro ⟨-, HH⟩
  rw [Pipeline.chain_nil, wp_pure]
  imodintro
  iapply Hk
  iapply (end_held m c)
  iexact HH

/-! ## The run -/

set_option backward.isDefEq.respectTransparency.types false in
/-- Every weakly fair execution of @main terminates, and every buffer that is no window's array ends at the contents
    the later host operations compute from the region's exit. -/
theorem run_main : θ_run defs (onTc (τ := τ) (main (F := F))) ⟨m, fun _ => 0, ρ⟩ (fun r => ∀ c : Dev nD,
    ∀ b ∈ Pipeline.restRefs sig spec0, r.2.mem ((c.tc : Thread nD τ).loc b) = Wt m c (Proc.devRef .tc b)) := by
  classical
  have hcell : Function.Injective (Pipeline.cellOf (nD := nD) (τ := τ) (Pipeline.pin (pcfgs (F := F)) admK)) := cellOf_inj
  exact Pipeline.θ_run_region_pf_tail (pcfgs (F := F)) admK (dats m) () hcell 0 winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells (Pipeline.pin (pcfgs (F := F)) admK) hcell) (Pipeline.launchToks (Pipeline.pin (pcfgs (F := F)) admK) hcell))
    (hu₀ := by
      iintro Hu; imodintro
      isplitl [Hu]; · iapply (show (ownU _ : sProp 𝕄) ⊢ BI.own (emb₁ (initOf (Pipeline.cells (Pipeline.pin (pcfgs (F := F)) admK) hcell) (Pipeline.launchToks (Pipeline.pin (pcfgs (F := F)) admK) hcell))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wt m c (Proc.devRef .tc b)))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      rw [Pipeline.unscopedRestP_none, Pipeline.unscopedRestP_none]
      exact htail m c Q')
    (QY := fun c s => ∀ b ∈ Pipeline.restRefsP sig Pipeline.Prefetch.none spec0, s.mem ((c.tc : Thread nD τ).loc b) = Wt m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wt m c (Proc.devRef .tc b)) s')
      isplitl [HU] <;> iassumption)
    (hQ := fun s h c b hb => (h c).2.2 b (Finset.mem_sdiff.mpr ⟨hb, fun hk => by
      obtain ⟨k, -, -⟩ := Finset.mem_image.mp hk
      exact k.elim0⟩))

end Cert.KernelIdeal.Fr

end
-- ==== Proof.KIClaim.lean ====
/-
  The frame: the program runs to its end and its two argument arrays end as launched. No host operation, before or
  after the region, writes an argument array, and the region's windows do not stage them.
-/
import proofs.«117261_j20804821582530_1_alg».proof.Proof.KILaunch

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays when the region is entered are the launch contents. -/
theorem V_main_arg0 (c : Dev nD) : V m c main_arg0 = m ((c : Thread nD τ).loc main_arg0) := by
  dsimp only [V, V0]
  simp only [hostOps0, hostOps0_1, hostOps0_2, List.flatten_cons, List.flatten_nil, List.append_nil, List.cons_append, List.nil_append]
  after_results
theorem V_main_arg1 (c : Dev nD) : V m c main_arg1 = m ((c : Thread nD τ).loc main_arg1) := by
  dsimp only [V, V0]
  simp only [hostOps0, hostOps0_1, hostOps0_2, List.flatten_cons, List.flatten_nil, List.append_nil, List.cons_append, List.nil_append]
  after_results

/-- The later host operations write no argument array. -/
theorem hostOps1_keeps_arg (b : Ref sig .tc) (hb : b = main_arg0 ∨ b = main_arg1) :
    ∀ op ∈ (hostOps1 : List (HloOp τ sig (Elt F))), Proc.devRef .tc b ∉ op.writes := by
  intro op hop
  simp only [hostOps1, List.mem_cons, List.mem_nil_iff, or_false] at hop
  rcases hop with rfl | rfl | rfl | rfl | rfl | rfl | rfl
  all_goals rcases hb with rfl | rfl <;> simp only [StableHlo.nullary_writes, StableHlo.unary_writes, StableHlo.binary_writes, StableHlo.reshape_writes, Finset.mem_singleton] <;> exact StableHlo.devRef_ne_of_ne (by decide)

theorem Wt_arg0 (c : Dev nD) : Wt m c (Proc.devRef .tc main_arg0) = m ((c : Thread nD τ).loc main_arg0) :=
  (StableHlo.after_of_forall_not_mem _ _ (hostOps1_keeps_arg main_arg0 (.inl rfl))).trans
    ((Wx_of_ne m c main_arg0 (by decide) (by decide)).trans (V_main_arg0 m c))
theorem Wt_arg1 (c : Dev nD) : Wt m c (Proc.devRef .tc main_arg1) = m ((c : Thread nD τ).loc main_arg1) :=
  (StableHlo.after_of_forall_not_mem _ _ (hostOps1_keeps_arg main_arg1 (.inr rfl))).trans
    ((Wx_of_ne m c main_arg1 (by decide) (by decide)).trans (V_main_arg1 m c))

/-- The run with the result buffer named and the argument arrays unchanged. -/
theorem run_result : θ_run defs (onTc (τ := τ) (main (F := F))) ⟨m, fun _ => 0, ρ⟩ (fun r => ∀ c : Dev nD,
      r.2.mem ((c.tc : Thread nD τ).loc main_v12) = Wt m c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c main_v12 (Pipeline.mem_restRefs_of main_v12 rfl (by decide)),
     (h c main_arg0 (Pipeline.mem_restRefs_of main_arg0 rfl (by decide))).trans (Wt_arg0 m c),
     (h c main_arg1 (Pipeline.mem_restRefs_of main_arg1 rfl (by decide))).trans (Wt_arg1 m c)⟩) (run_main m ρ)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.KernelIdeal.Fr

end
-- ==== Proof.Spec.lean ====
/-
  The loss both programs compute, written once over the extended reals as a function of the matrix `x` of
  4096 unit rows (the 2048 + 2048 input rows, each divided by its norm): for rows r and c the scaled similarity
  z = 2·⟨x_r, x_c⟩, a target bit t (1 when r and c lie in the same half of the rows and differ), the two
  clamped log-sigmoids, the binary cross-entropy above the diagonal and the constant 0 / 100 on and below it,
  summed with weight t (the positive pairs) and with weight 1 − t (the others), each total divided by its
  number of pairs. Float literals stay as their words: the same word on both sides is never evaluated.
-/
import Idealize.ShloMosaic.PureOps.Ideal
import Idealize.ShloMosaic.Lib.ValueIdx

noncomputable section

namespace Cert.PairLoss

open Idealize.ShloMosaic

/-- The shape of the matrix of unit rows. -/
abbrev SX : Shape := ⟨2, ![4096, 1024]⟩

/-- The extended real an f32 word denotes. -/
abbrev lit (b : BitVec 32) : EReal := Ideal.ofBits .f32 b

/-- The scaled similarity of rows `r` and `c`: their inner product times the word of 2.0. -/
def z (x : SX.Idx → EReal) (r c : Fin 4096) : EReal :=
  (∑ k : Fin 1024, x (ValueIdx.ix2 r k) * x (ValueIdx.ix2 c k)) * lit 0x40000000#32

/-- Rows `r` and `c` form a positive pair: the same half of the rows, and not the same row. -/
def Pair (r c : Fin 4096) : Prop := r.val / 2048 = c.val / 2048 ∧ r.val ≠ c.val

instance (r c : Fin 4096) : Decidable (Pair r c) := by unfold Pair; infer_instance

/-- The target bit as an extended real. -/
def tgt (r c : Fin 4096) : EReal := if Pair r c then 1 else 0

/-- log σ(z), clamped below at the word of −100. -/
def logP (z : EReal) : EReal :=
  max (lit 0x00000000#32 - Ideal.log (lit 0x3F800000#32 + Ideal.exp (lit 0x00000000#32 - z))) (lit 0xC2C80000#32)

/-- log (1 − σ(z)) = log σ(−z), clamped below at the word of −100. -/
def logQ (z : EReal) : EReal :=
  max (lit 0x00000000#32 - Ideal.log (lit 0x3F800000#32 + Ideal.exp z)) (lit 0xC2C80000#32)

/-- The binary cross-entropy of σ(z) against the target `t`. -/
def bce (t z : EReal) : EReal :=
  lit 0x00000000#32 - (t * logP z + (lit 0x3F800000#32 - t) * logQ z)

/-- The loss matrix's entry at (r, c): the cross-entropy strictly above the diagonal; on and below it 0 for a positive
    pair and the word of 100 otherwise. -/
def entry (x : SX.Idx → EReal) (r c : Fin 4096) : EReal :=
  if r.val < c.val then bce (tgt r c) (z x r c)
  else if Pair r c then lit 0x00000000#32 else lit 0x42C80000#32

/-- The entry weighted as a positive pair, and as one that is not. -/
def posTerm (x : SX.Idx → EReal) (r c : Fin 4096) : EReal := entry x r c * tgt r c
def negTerm (x : SX.Idx → EReal) (r c : Fin 4096) : EReal := entry x r c * (lit 0x3F800000#32 - tgt r c)

/-- The two totals over all 4096 × 4096 entries. -/
def posSum (x : SX.Idx → EReal) : EReal := ∑ r : Fin 4096, ∑ c : Fin 4096, posTerm x r c
def negSum (x : SX.Idx → EReal) : EReal := ∑ r : Fin 4096, ∑ c : Fin 4096, negTerm x r c

/-- The loss: each total divided by the word of its number of pairs (2048·2047 and 2²²). -/
def loss (x : SX.Idx → EReal) : EReal :=
  Ideal.div (posSum x) (lit 0x4A7FE000#32) + Ideal.div (negSum x) (lit 0x4A800000#32)

/-- Row `p` of the `b`-th band of 512 rows. -/
def row (b : Fin 8) (p : Fin 512) : Fin 4096 := ⟨512 * b.val + p.val, by omega⟩

/-- The part of each total that the 512 × 512 tile (bi, bj) contributes. -/
def tilePos (x : SX.Idx → EReal) (bi bj : Fin 8) : EReal :=
  ∑ p : Fin 512, ∑ q : Fin 512, posTerm x (row bi p) (row bj q)
def tileNeg (x : SX.Idx → EReal) (bi bj : Fin 8) : EReal :=
  ∑ p : Fin 512, ∑ q : Fin 512, negTerm x (row bi p) (row bj q)

end Cert.PairLoss

end
-- ==== Proof.KIBlocks.lean ====
/-
  The two input windows' blocks at a grid point, read at an index: point t = 8·bi + bj of the 8 × 8 grid hands the
  body rows 512·bi … of the matrix of unit rows through the first window and rows 512·bj … through the second.
-/
import proofs.«117261_j20804821582530_1_alg».proof.Proof.KIFrame
import proofs.«117261_j20804821582530_1_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Fr Cert.PairLoss

variable (m : (ℓ : Loc nD τ sig) → Buf (Elt Ideal) ℓ) (ρ : Dev nD → PrngReg)

/-- The matrix of unit rows as the region finds it. -/
abbrev xm (c : Dev nD) : SX.Idx → EReal := V (F := Ideal) m c main_v6

/-- The grid's coordinates and the two input windows' block indices at point `t`, decided over the grid. -/
theorem point_facts : ∀ t : Fin cfg0.N, (grid0.coords t 0).val = t.val / 8 ∧ (grid0.coords t 1).val = t.val % 8
    ∧ win0_0.index t (0 : Fin 2) = t.val / 8 ∧ win0_0.index t (1 : Fin 2) = 0
    ∧ win0_1.index t (0 : Fin 2) = t.val % 8 ∧ win0_1.index t (1 : Fin 2) = 0 :=
  (by decide +kernel : ∀ t : Fin grid0.N, _)

theorem hN : cfg0.N = 64 := N_0

/-- The row band and the column band of point `t`. -/
def bandI (t : Fin cfg0.N) : Fin 8 := ⟨t.val / 8, by have : t.val < 64 := lt_of_lt_of_eq t.isLt hN; omega⟩
def bandJ (t : Fin cfg0.N) : Fin 8 := ⟨t.val % 8, by omega⟩

theorem iblk0_apply (c : Dev nD) (t : Fin cfg0.N) (p : Fin 512) (k : Fin 1024) :
    iblk m c 0 t (ix2 p k) = xm m c (ix2 (row (bandI t) p) k) := by
  obtain ⟨-, -, e0, e1, -, -⟩ := point_facts t
  show V m c main_v6 (((cfg0.win 0).blk t).view.emb (ix2 p k)) = V m c main_v6 _
  refine congrArg _ (funext fun a => Fin.ext ?_)
  match a with
  | ⟨0, _⟩ => show win0_0.index t (0 : Fin 2) * 512 + 1 * p.val = 512 * (t.val / 8) + p.val; omega
  | ⟨1, _⟩ => show win0_0.index t (1 : Fin 2) * 1024 + 1 * k.val = k.val; omega

theorem iblk1_apply (c : Dev nD) (t : Fin cfg0.N) (q : Fin 512) (k : Fin 1024) :
    iblk m c 1 t (ix2 q k) = xm m c (ix2 (row (bandJ t) q) k) := by
  obtain ⟨-, -, -, -, e0, e1⟩ := point_facts t
  show V m c main_v6 (((cfg0.win 1).blk t).view.emb (ix2 q k)) = V m c main_v6 _
  refine congrArg _ (funext fun a => Fin.ext ?_)
  match a with
  | ⟨0, _⟩ => show win0_1.index t (0 : Fin 2) * 512 + 1 * q.val = 512 * (t.val % 8) + q.val; omega
  | ⟨1, _⟩ => show win0_1.index t (1 : Fin 2) * 1024 + 1 * k.val = k.val; omega

end Cert.KernelIdeal.Val

end
-- ==== Proof.KIOuts.lean ====
/-
  What each case of the body leaves in the two accumulators, as the body's own arithmetic: at a later grid point the
  running value plus the tile's total, at the first point the stored zero plus the tile's total.
-/
import proofs.«117261_j20804821582530_1_alg».proof.Proof.KIFrame
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- The accumulator of the positive pairs after the body at point `i`: `acc` plus the tile's weighted total. -/
abbrev posPay (i : grid0.Coords) (x0 x1 : Vec F S512x1024 .bf16) (acc : Vec F S1x1 .f32) : Vec F S1x1 .f32 :=
  k0_pay15 (k0_pay4 x0 x1) (k0_pay11 (k0_pay5 i) (k0_pay6 i) (k0_pay7 i) (k0_pay8 i) (k0_pay9 i) k0_pay10)
    (k0_pay12 (k0_pay5 i) (k0_pay6 i)) (k0_pay13 (k0_pay4 x0 x1)) acc
/-- The accumulator of the other pairs likewise. -/
abbrev negPay (i : grid0.Coords) (x0 x1 : Vec F S512x1024 .bf16) (acc : Vec F S1x1 .f32) : Vec F S1x1 .f32 :=
  k0_pay1 (k0_pay16 acc) (k0_pay17 (k0_pay4 x0 x1) (k0_pay11 (k0_pay5 i) (k0_pay6 i) (k0_pay7 i) (k0_pay8 i) (k0_pay9 i) k0_pay10)
    (k0_pay12 (k0_pay5 i) (k0_pay6 i)) (k0_pay13 (k0_pay4 x0 x1)))

theorem out_B_2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S512x1024 .bf16) (x1 : Vec F S512x1024 .bf16) (xo2 xo3 : Vec F S1x1 .f32) :
    out0_B_2 c i arg2 harg2 arg3 harg3 arg4 harg4 arg5 harg5 hc0 x0 x1 xo2 xo3 = posPay i x0 x1 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero hz]
  simp only [View.readAt_eq_ld, harg2.read_unread, harg3.read_unread, harg4.read_unread, View.ld_unit_zero (S := S512x1024) hz, View.ld_unit_zero (S := S1x1) hz]

theorem out_B_3 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S512x1024 .bf16) (x1 : Vec F S512x1024 .bf16) (xo2 xo3 : Vec F S1x1 .f32) :
    out0_B_3 c i arg2 harg2 arg3 harg3 arg4 harg4 arg5 harg5 hc0 x0 x1 xo2 xo3 = negPay i x0 x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero hz]
  simp only [View.readAt_eq_ld, harg2.read_unread, harg3.read_unread, harg5.read_unread, View.ld_unit_zero (S := S512x1024) hz, View.ld_unit_zero (S := S1x1) hz]

theorem out_A_2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S512x1024 .bf16) (x1 : Vec F S512x1024 .bf16) :
    out0_A_2 c i arg2 harg2 arg3 harg3 arg4 harg4 arg5 harg5 hc0 x0 x1 = posPay i x0 x1 k0_pay2 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x1) hz, View.readCov_unit_zero (S := S1x1) _ hz]
  simp only [View.readAt_eq_ld, harg2.read_unread, harg3.read_unread, View.ld_unit_zero (S := S512x1024) hz, View.ld_unit_zero (S := S1x1) hz]

theorem out_A_3 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S512x1024 .bf16) (x1 : Vec F S512x1024 .bf16) :
    out0_A_3 c i arg2 harg2 arg3 harg3 arg4 harg4 arg5 harg5 hc0 x0 x1 = negPay i x0 x1 k0_pay3 := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1) hz, View.readCov_unit_zero (S := S1x1) _ hz]
  simp only [View.readAt_eq_ld, harg2.read_unread, harg3.read_unread, View.ld_unit_zero (S := S512x1024) hz, View.ld_unit_zero (S := S1x1) hz]

end Cert.KernelIdeal.Fr

end
-- ==== Proof.TileWordsDiv.lean ====
/-
  The floor division by 2048 of the 32-bit word of a number below 4096, spelt as the truncated signed quotient less one
  when the signs of the dividend and of 2048 differ and the remainder is not zero: it is the word of the natural quotient.
-/
import Idealize.ShloMosaic.PureOps.Ideal

noncomputable section

namespace Cert.PairLoss.TileWords

open Idealize.ShloMosaic

/-- The sign of a signed word as a word: (w > 0) − (w < 0). -/
def sgnWord (w : BitVec 32) : BitVec 32 :=
  IntOp.subi ((IntOp.cmpi .sgt w 0#32).setWidth 32) ((IntOp.cmpi .slt w 0#32).setWidth 32)

/-- The sign of the word 2048, spelt over the scalar operations. -/
def sgn2048 : BitVec 32 :=
  Scalar.subi (Scalar.extui (Scalar.cmpi .sgt 2048#32 0#32)) (Scalar.extui (Scalar.cmpi .slt 2048#32 0#32))

/-- The floor division of a signed word by 2048: the truncated quotient, less one when the signs of the dividend and
    of the divisor differ and the remainder is not zero. -/
def fdivWord (w : BitVec 32) : BitVec 32 :=
  Scalar.select
    (IntOp.andi (IntOp.cmpi .ne (sgnWord w) sgn2048) (IntOp.cmpi .ne (IntOp.remsi .vector w 2048#32) 0#32))
    (IntOp.subi (IntOp.divsi .vector w 2048#32) 1#32)
    (IntOp.divsi .vector w 2048#32)

/-- The floor division by 2048 agrees with the natural quotient on each of the 4096 words, as one Boolean check over
    the list of the numbers below 4096. -/
theorem fdivWord_all :
    (List.range 4096).all (fun n => fdivWord (BitVec.ofNat 32 n) == BitVec.ofNat 32 (n / 2048)) = true := by
  decide +kernel

/-- On the word of a number below 4096 the floor division by 2048 is the word of the natural quotient. -/
theorem fdivWord_ofNat (n : ℕ) (h : n < 4096) : fdivWord (BitVec.ofNat 32 n) = BitVec.ofNat 32 (n / 2048) :=
  eq_of_beq (List.all_eq_true.mp fdivWord_all n (List.mem_range.mpr h))

end Cert.PairLoss.TileWords

end
-- ==== Proof.TileWords.lean ====
/-
  The 32-bit integer words of the pair loss's row and column numbers. A row number below 4096 is a nonnegative signed
  word; two such words are equal exactly when the numbers are, and the signed comparison of two of them is the
  comparison of the numbers; their floor division by 2048 is the word of the natural quotient (the imported module). So the target bit
  (same half of the rows, not the same row) is the bit of `Pair`, and its conversion to a float is `tgt`.
-/
import proofs.«117261_j20804821582530_1_alg».proof.Proof.Spec
import Idealize.ShloMosaic.PureOps.Ideal.Laws
import proofs.«117261_j20804821582530_1_alg».proof.Proof.TileWordsDiv

noncomputable section

namespace Cert.PairLoss.TileWords

open Idealize.ShloMosaic Idealize.ShloMosaic.ValueIdx

/-- The word of band `b` times 512 plus the word of `p` is the word of 512 · b + p. -/
theorem rowWord (b p : ℕ) : IntOp.addi (Scalar.muli (BitVec.ofNat 32 b) 512#32) (BitVec.ofNat 32 p) = BitVec.ofNat 32 (512 * b + p) := by
  show BitVec.ofNat 32 b * BitVec.ofNat 32 512 + BitVec.ofNat 32 p = _
  rw [Nat.mul_comm, BitVec.ofNat_add, BitVec.ofNat_mul]

/-- The words of two numbers below 4096 are equal exactly when the numbers are. -/
theorem ofNat_inj {a b : ℕ} (ha : a < 4096) (hb : b < 4096) : BitVec.ofNat 32 a = BitVec.ofNat 32 b ↔ a = b := by
  constructor
  · intro h
    have h2 := congrArg BitVec.toNat h
    rw [BitVec.toNat_ofNat, BitVec.toNat_ofNat] at h2
    omega
  · intro h; rw [h]

/-- The signed comparison of the words of two numbers below 4096 is the comparison of the numbers. -/
theorem slt_ofNat {a b : ℕ} (ha : a < 4096) (hb : b < 4096) : (BitVec.ofNat 32 a).slt (BitVec.ofNat 32 b) = decide (a < b) := by
  have ta : (BitVec.ofNat 32 a).toInt = (a : Int) := by
    rw [BitVec.toInt_eq_toNat_cond, BitVec.toNat_ofNat]
    have : a % 2 ^ 32 = a := Nat.mod_eq_of_lt (by omega)
    rw [this, if_pos (by omega)]
  have tb : (BitVec.ofNat 32 b).toInt = (b : Int) := by
    rw [BitVec.toInt_eq_toNat_cond, BitVec.toNat_ofNat]
    have : b % 2 ^ 32 = b := Nat.mod_eq_of_lt (by omega)
    rw [this, if_pos (by omega)]
  rw [BitVec.slt, ta, tb]
  exact decide_eq_decide.mpr Int.ofNat_lt

/-- The target bit of rows `r` and `c`: their quotients by 2048 agree and the rows differ. -/
theorem pairBit (r c : Fin 4096) :
    IntOp.andi (IntOp.cmpi .eq (BitVec.ofNat 32 (r.val / 2048)) (BitVec.ofNat 32 (c.val / 2048)))
        (IntOp.cmpi .ne (BitVec.ofNat 32 r.val) (BitVec.ofNat 32 c.val))
      = if Pair r c then 1#1 else 0#1 := by
  have hr := r.isLt
  have hc := c.isLt
  have hq : (BitVec.ofNat 32 (r.val / 2048) == BitVec.ofNat 32 (c.val / 2048)) = decide (r.val / 2048 = c.val / 2048) := by
    rw [Bool.eq_iff_iff, beq_iff_eq, decide_eq_true_iff]
    exact ofNat_inj (by omega) (by omega)
  have hn : (BitVec.ofNat 32 r.val != BitVec.ofNat 32 c.val) = decide (r.val ≠ c.val) := by
    rw [Bool.eq_iff_iff, bne_iff_ne, decide_eq_true_iff]
    exact not_congr (ofNat_inj hr hc)
  show BitVec.ofBool (BitVec.ofNat 32 (r.val / 2048) == BitVec.ofNat 32 (c.val / 2048))
      &&& BitVec.ofBool (BitVec.ofNat 32 r.val != BitVec.ofNat 32 c.val) = _
  rw [hq, hn]
  unfold Pair
  by_cases h1 : r.val / 2048 = c.val / 2048 <;> by_cases h2 : r.val ≠ c.val <;> simp [h1, h2]

/-- The strict-upper bit of rows `r` and `c`. -/
theorem upperBit (r c : Fin 4096) :
    IntOp.cmpi .slt (BitVec.ofNat 32 r.val) (BitVec.ofNat 32 c.val) = if r.val < c.val then 1#1 else 0#1 := by
  show BitVec.ofBool ((BitVec.ofNat 32 r.val).slt (BitVec.ofNat 32 c.val)) = _
  rw [slt_ofNat r.isLt c.isLt]
  by_cases h : r.val < c.val <;> simp [h]

/-- A select on a decided bit is the `if`. -/
theorem select_ite {α : Type} (P : Prop) [Decidable P] (a b : α) :
    Scalar.select (if P then 1#1 else 0#1) a b = if P then a else b := by
  by_cases h : P
  · rw [if_pos h, if_pos h]; exact select_one a b
  · rw [if_neg h, if_neg h]; exact select_zero a b

/-- The target bit widened to a word and read as a signed integer in the extended reals is `tgt`. -/
theorem sitofp_pairBit (r c : Fin 4096) :
    FloatOps.sitofp (F := Ideal) .f32 ((if Pair r c then 1#1 else 0#1 : BitVec 1).setWidth 32) = tgt r c := by
  unfold tgt
  by_cases h : Pair r c
  · rw [if_pos h, if_pos h]
    show (((BitVec.setWidth 32 1#1).toInt : ℝ) : EReal) = 1
    have : (BitVec.setWidth 32 1#1).toInt = 1 := by decide
    rw [this]; simp
  · rw [if_neg h, if_neg h]
    show (((BitVec.setWidth 32 0#1).toInt : ℝ) : EReal) = 0
    have : (BitVec.setWidth 32 0#1).toInt = 0 := by decide
    rw [this]; simp

/-- `tgt` is above the word of 0 exactly on the positive pairs. -/
theorem cmpf_tgt (r c : Fin 4096) :
    FloatOps.cmpf (F := Ideal) (φ := .f32) .ogt (tgt r c) (lit 0x00000000#32) = if Pair r c then 1#1 else 0#1 := by
  show BitVec.ofBool (decide (lit 0x00000000#32 < tgt r c)) = _
  unfold tgt lit
  rw [Ideal.ofBits_zero_f32]
  by_cases h : Pair r c
  · rw [if_pos h, if_pos h]; simp
  · rw [if_neg h, if_neg h]; simp

end Cert.PairLoss.TileWords

end
-- ==== Proof.TileIndex.lean ====
/-
  The kernel's integer side read at one entry (p, q) of the tile at grid point (bi, bj): the row and column index words
  are the words of 512·bi + p and 512·bj + q; the target, the conversion to a float of the bit "same half of the rows and
  not the same row", is `tgt` of the two rows; the strict-upper bit is the bit of "row number below column number".
-/
import proofs.«117261_j20804821582530_1_alg».proof.Proof.Gen.KernelIdeal.Skeleton
import proofs.«117261_j20804821582530_1_alg».proof.Proof.TileWords
import Idealize.ShloMosaic.Lib.ValueLayout

noncomputable section

namespace Cert.KernelIdeal.TileValue

open Cert.KernelIdeal Cert.KernelIdeal.Gen Idealize.ShloMosaic Idealize.ShloMosaic.ValueIdx
open Cert.PairLoss Cert.PairLoss.TileWords

/-- An `[a, 1]` column broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row index word at row `p` of band `b`: the word of 512·b + p. -/
theorem pay5_apply (i : grid0.Coords) (b : Fin 8) (hb : (i 0).val = b.val) (p : Fin 512) (u : Fin 1) :
    k0_pay5 i (ix2 p u) = BitVec.ofNat 32 (row b p).val := by
  unfold k0_pay5
  show IntOp.addi (Scalar.muli (BitVec.ofNat 32 (i 0).val) 512#32)
      (iota .tc S512x1 32 [0] iota_S512x1_d0_w32 (ix2 p u)) = _
  rw [iota_single_apply, hb]
  exact rowWord b.val p.val

/-- The column index word at column `q` of band `b`: the word of 512·b + q. -/
theorem pay6_apply (i : grid0.Coords) (b : Fin 8) (hb : (i 1).val = b.val) (q : Fin 512) (u : Fin 1) :
    k0_pay6 i (ix2 u q) = BitVec.ofNat 32 (row b q).val := by
  unfold k0_pay6
  show IntOp.addi (Scalar.muli (BitVec.ofNat 32 (i 1).val) 512#32)
      (iota .tc S1x512 32 [1] iota_S1x512_d1_w32 (ix2 u q)) = _
  rw [iota_single_apply, hb]
  exact rowWord b.val q.val

/-- The target at entry (p, q) of tile (bi, bj) is `tgt` of rows 512·bi + p and 512·bj + q. -/
theorem pay11_apply (i : grid0.Coords) (bi bj : Fin 8) (hbi : (i 0).val = bi.val) (hbj : (i 1).val = bj.val)
    (p q : Fin 512) :
    k0_pay11 (F := Ideal) (k0_pay5 i) (k0_pay6 i) (k0_pay7 i) (k0_pay8 i) (k0_pay9 i) k0_pay10 (ix2 p q)
      = tgt (row bi p) (row bj q) := by
  have e1 : ∀ v : IVec S512x1 32, broadcastTo S512x512 v broadcasts_S512x1_S512x512 (ix2 p q) = v (ix2 p (0 : Fin 1)) :=
    fun v => broadcastTo_a1_ab_apply v _ p q
  have e2 : ∀ v : IVec S1x512 32, broadcastTo S512x512 v broadcasts_S1x512_S512x512 (ix2 p q) = v (ix2 (0 : Fin 1) q) :=
    fun v => broadcastTo_1b_ab_apply v _ p q
  have hr := pay5_apply i bi hbi p 0
  have hc := pay6_apply i bj hbj q 0
  unfold k0_pay11
  show FloatOps.sitofp (F := Ideal) .f32 ((IntOp.andi
      (IntOp.cmpi .eq (broadcastTo S512x512 _ broadcasts_S512x1_S512x512 (ix2 p q))
        (broadcastTo S512x512 _ broadcasts_S1x512_S512x512 (ix2 p q)))
      (IntOp.cmpi .ne (broadcastTo S512x512 (k0_pay5 i) broadcasts_S512x1_S512x512 (ix2 p q))
        (broadcastTo S512x512 (k0_pay6 i) broadcasts_S1x512_S512x512 (ix2 p q)))).setWidth 32) = _
  rw [e1, e1, e2, e2]
  show FloatOps.sitofp (F := Ideal) .f32 ((IntOp.andi
      (IntOp.cmpi .eq (fdivWord (k0_pay5 i (ix2 p (0 : Fin 1)))) (fdivWord (k0_pay6 i (ix2 (0 : Fin 1) q))))
      (IntOp.cmpi .ne (k0_pay5 i (ix2 p (0 : Fin 1))) (k0_pay6 i (ix2 (0 : Fin 1) q)))).setWidth 32) = _
  rw [hr, hc, fdivWord_ofNat _ (row bi p).isLt, fdivWord_ofNat _ (row bj q).isLt, pairBit, sitofp_pairBit]

/-- The strict-upper bit at entry (p, q) of tile (bi, bj): row number below column number. -/
theorem pay12_apply (i : grid0.Coords) (bi bj : Fin 8) (hbi : (i 0).val = bi.val) (hbj : (i 1).val = bj.val)
    (p q : Fin 512) :
    k0_pay12 (k0_pay5 i) (k0_pay6 i) (ix2 p q) = if (row bi p).val < (row bj q).val then 1#1 else 0#1 := by
  have hr := pay5_apply i bi hbi p 0
  have hc := pay6_apply i bj hbj q 0
  unfold k0_pay12
  show IntOp.cmpi .slt (broadcastTo S512x512 (k0_pay5 i) broadcasts_S512x1_S512x512 (ix2 p q))
      (broadcastTo S512x512 (k0_pay6 i) broadcasts_S1x512_S512x512 (ix2 p q)) = _
  rw [broadcastTo_a1_ab_apply, broadcastTo_1b_ab_apply, hr, hc, upperBit]

end Cert.KernelIdeal.TileValue

end
-- ==== Proof.TileMatmul.lean ====
/-
  The kernel's similarity block read at one entry: the matrix product of the row block by the transposed column block,
  into a zero accumulator, is at (p, q) the inner product of row p of the first block with row q of the second; times
  the word of 2.0 it is the scaled similarity `z` of the two rows of the matrix of unit rows the blocks were cut from.
-/
import proofs.«117261_j20804821582530_1_alg».proof.Proof.Gen.KernelIdeal.Skeleton
import proofs.«117261_j20804821582530_1_alg».proof.Proof.Spec
import Idealize.ShloMosaic.Lib.ValueLayout
import Idealize.ShloMosaic.PureOps.Ideal.Laws

noncomputable section

namespace Cert.KernelIdeal.TileValue

open Cert.KernelIdeal Cert.KernelIdeal.Gen Idealize.ShloMosaic Idealize.ShloMosaic.ValueIdx

/-- The product's dimension numbers: the left block's axis 1 contracted with the right operand's axis 0. -/
abbrev D : DotDims S512x1024 S1024x512 S512x512 := dot_S512x1024_S1024x512_S512x512_1_0_0_1_n_n

/-- At output entry (p, q) and contraction coordinate c the left operand is read at (p, c). -/
theorem lhsIdx_eq (p q : Fin 512) (c : Fin 1024) :
    D.lhsIdx (ix2 p q) ((contrEquiv1 D 1024 rfl rfl).symm c) = ix2 p c := by
  have c2 := contrEquiv1_symm_val D 1024 rfl rfl c
  funext ax; apply Fin.ext
  match ax with
  | ⟨0, _⟩ => simp [DotDims.lhsIdx, D, dot_S512x1024_S1024x512_S512x512_1_0_0_1_n_n]; rfl
  | ⟨1, _⟩ => simp [DotDims.lhsIdx, D, dot_S512x1024_S1024x512_S512x512_1_0_0_1_n_n]; exact c2

/-- At output entry (p, q) and contraction coordinate c the right operand is read at (c, q). -/
theorem rhsIdx_eq (p q : Fin 512) (c : Fin 1024) :
    D.rhsIdx (ix2 p q) ((contrEquiv1 D 1024 rfl rfl).symm c) = ix2 c q := by
  have c2 := contrEquiv1_symm_val D 1024 rfl rfl c
  funext ax; apply Fin.ext
  match ax with
  | ⟨0, _⟩ => simp [DotDims.rhsIdx, D, dot_S512x1024_S1024x512_S512x512_1_0_0_1_n_n]; exact c2
  | ⟨1, _⟩ => simp [DotDims.rhsIdx, D, dot_S512x1024_S1024x512_S512x512_1_0_0_1_n_n]; rfl

/-- The similarity block at (p, q): the inner product of row p of `xi` and row q of `xj`, times the word of 2.0. -/
theorem pay4_inner (xi xj : Vec Ideal S512x1024 .bf16) (p q : Fin 512) :
    k0_pay4 (F := Ideal) xi xj (ix2 p q)
      = (∑ c : Fin 1024, xi (ix2 p c) * xj (ix2 q c)) * Ideal.ofBits .f32 0x40000000#32 := by
  unfold k0_pay4
  show FloatOps.matmul D none (shapeCast S512x1024 xi shapeCasts_S512x1024_S512x1024)
        (transpose S1024x512 [1, 0] (shapeCast S512x1024 xj shapeCasts_S512x1024_S512x1024) transposes_S512x1024_p1_0_S1024x512)
        (constant S512x512 .f32 0x00000000#32) (ix2 p q) * Ideal.ofBits .f32 0x40000000#32 = _
  rw [shapeCast_self, shapeCast_self, Ideal.matmul_constant_zero_apply,
    ← Equiv.sum_comp (contrEquiv1 D 1024 rfl rfl).symm]
  refine congrArg (· * Ideal.ofBits .f32 0x40000000#32) ?_
  refine Finset.sum_congr rfl fun c _ => ?_
  rw [lhsIdx_eq, rhsIdx_eq]
  exact congrArg (xi (ix2 p c) * ·) (transpose_ix2_apply xj transposes_S512x1024_p1_0_S1024x512 c q)

/-- When the two blocks are bands `bi` and `bj` of the matrix `x` of unit rows, the similarity block at (p, q) is the
    scaled similarity of rows 512·bi + p and 512·bj + q. -/
theorem pay4_apply (x : Cert.PairLoss.SX.Idx → EReal) (bi bj : Fin 8) (xi xj : Vec Ideal S512x1024 .bf16)
    (hxi : ∀ (p : Fin 512) (k : Fin 1024), xi (ix2 p k) = x (ix2 (Cert.PairLoss.row bi p) k))
    (hxj : ∀ (q : Fin 512) (k : Fin 1024), xj (ix2 q k) = x (ix2 (Cert.PairLoss.row bj q) k)) (p q : Fin 512) :
    k0_pay4 (F := Ideal) xi xj (ix2 p q) = Cert.PairLoss.z x (Cert.PairLoss.row bi p) (Cert.PairLoss.row bj q) := by
  rw [pay4_inner]
  unfold Cert.PairLoss.z
  refine congrArg (· * Ideal.ofBits .f32 0x40000000#32) ?_
  exact Finset.sum_congr rfl fun c _ => by rw [hxi p c, hxj q c]

end Cert.KernelIdeal.TileValue

end
-- ==== Proof.TileEntry.lean ====
/-
  The kernel's loss entry at one entry (p, q) of the tile at grid point (bi, bj), at the ideal values: it is the entry of
  the pair loss at rows 512·bi + p and 512·bj + q of the matrix of unit rows, and its two weightings are the positive and
  the other term.
-/
import proofs.«117261_j20804821582530_1_alg».proof.Proof.TileIndex
import proofs.«117261_j20804821582530_1_alg».proof.Proof.TileMatmul

noncomputable section

namespace Cert.KernelIdeal.TileValue

open Cert.KernelIdeal Cert.KernelIdeal.Gen Idealize.ShloMosaic Idealize.ShloMosaic.ValueIdx
open Cert.PairLoss Cert.PairLoss.TileWords

/-- The first clamped log-sigmoid's inner term at an entry: 0 − log (1 + exp (0 − z)). -/
theorem pay13_apply (v12 : FVec Ideal S512x512 .f32) (j : S512x512.Idx) :
    k0_pay13 (F := Ideal) v12 j
      = lit 0x00000000#32 - Ideal.log (lit 0x3F800000#32 + Ideal.exp (lit 0x00000000#32 - v12 j)) := rfl

/-- The loss entry at an index, over the four tile values it reads: the cross-entropy where the strict-upper bit is
    set, and otherwise 0 where the target is above 0 and 100 where it is not. -/
theorem pay14_apply (v12 v77 v88 : FVec Ideal S512x512 .f32) (v80 : IVec S512x512 1) (j : S512x512.Idx) :
    k0_pay14 (F := Ideal) v12 v77 v80 v88 j
      = Scalar.select (v80 j)
          (lit 0x00000000#32 - (v77 j * max (v88 j) (lit 0xC2C80000#32)
            + (lit 0x3F800000#32 - v77 j)
              * max (lit 0x00000000#32 - Ideal.log (lit 0x3F800000#32 + Ideal.exp (v12 j))) (lit 0xC2C80000#32)))
          (Scalar.select (FloatOps.cmpf (F := Ideal) (φ := .f32) .ogt (v77 j) (lit 0x00000000#32))
            (lit 0x00000000#32) (lit 0x42C80000#32)) := rfl

/-- The loss entry at (p, q) of tile (bi, bj) is the pair loss's entry at rows 512·bi + p and 512·bj + q. -/
theorem entry_apply (i : grid0.Coords) (bi bj : Fin 8) (hbi : (i 0).val = bi.val) (hbj : (i 1).val = bj.val)
    (x : SX.Idx → EReal) (xi xj : Vec Ideal S512x1024 .bf16)
    (hxi : ∀ (p : Fin 512) (k : Fin 1024), xi (ix2 p k) = x (ix2 (row bi p) k))
    (hxj : ∀ (q : Fin 512) (k : Fin 1024), xj (ix2 q k) = x (ix2 (row bj q) k)) (p q : Fin 512) :
    k0_pay14 (F := Ideal) (k0_pay4 (F := Ideal) xi xj) (k0_pay11 (F := Ideal) (k0_pay5 i) (k0_pay6 i) (k0_pay7 i) (k0_pay8 i) (k0_pay9 i) k0_pay10)
        (k0_pay12 (k0_pay5 i) (k0_pay6 i)) (k0_pay13 (F := Ideal) (k0_pay4 (F := Ideal) xi xj)) (ix2 p q)
      = entry x (row bi p) (row bj q) := by
  rw [pay14_apply, pay13_apply, pay4_apply x bi bj xi xj hxi hxj p q, pay11_apply i bi bj hbi hbj p q,
    pay12_apply i bi bj hbi hbj p q, cmpf_tgt, select_ite, select_ite]
  rfl

/-- The entry weighted by the target is the positive term. -/
theorem posTerm_apply (i : grid0.Coords) (bi bj : Fin 8) (hbi : (i 0).val = bi.val) (hbj : (i 1).val = bj.val)
    (x : SX.Idx → EReal) (xi xj : Vec Ideal S512x1024 .bf16)
    (hxi : ∀ (p : Fin 512) (k : Fin 1024), xi (ix2 p k) = x (ix2 (row bi p) k))
    (hxj : ∀ (q : Fin 512) (k : Fin 1024), xj (ix2 q k) = x (ix2 (row bj q) k)) (p q : Fin 512) :
    mulf (k0_pay14 (F := Ideal) (k0_pay4 (F := Ideal) xi xj) (k0_pay11 (F := Ideal) (k0_pay5 i) (k0_pay6 i) (k0_pay7 i) (k0_pay8 i) (k0_pay9 i) k0_pay10)
        (k0_pay12 (k0_pay5 i) (k0_pay6 i)) (k0_pay13 (F := Ideal) (k0_pay4 (F := Ideal) xi xj)))
        (k0_pay11 (F := Ideal) (k0_pay5 i) (k0_pay6 i) (k0_pay7 i) (k0_pay8 i) (k0_pay9 i) k0_pay10) (ix2 p q)
      = posTerm x (row bi p) (row bj q) := by
  rw [mulf_apply, entry_apply i bi bj hbi hbj x xi xj hxi hxj p q, pay11_apply i bi bj hbi hbj p q]
  rfl

/-- The entry weighted by one less the target is the other term. -/
theorem negTerm_apply (i : grid0.Coords) (bi bj : Fin 8) (hbi : (i 0).val = bi.val) (hbj : (i 1).val = bj.val)
    (x : SX.Idx → EReal) (xi xj : Vec Ideal S512x1024 .bf16)
    (hxi : ∀ (p : Fin 512) (k : Fin 1024), xi (ix2 p k) = x (ix2 (row bi p) k))
    (hxj : ∀ (q : Fin 512) (k : Fin 1024), xj (ix2 q k) = x (ix2 (row bj q) k)) (p q : Fin 512) :
    mulf (k0_pay14 (F := Ideal) (k0_pay4 (F := Ideal) xi xj) (k0_pay11 (F := Ideal) (k0_pay5 i) (k0_pay6 i) (k0_pay7 i) (k0_pay8 i) (k0_pay9 i) k0_pay10)
        (k0_pay12 (k0_pay5 i) (k0_pay6 i)) (k0_pay13 (F := Ideal) (k0_pay4 (F := Ideal) xi xj)))
        (subf (broadcast S512x512 (Scalar.ofBits (F := Ideal) .f32 0x3F800000#32)) (k0_pay11 (F := Ideal) (k0_pay5 i) (k0_pay6 i) (k0_pay7 i) (k0_pay8 i) (k0_pay9 i) k0_pay10)) (ix2 p q)
      = negTerm x (row bi p) (row bj q) := by
  rw [mulf_apply, subf_apply, entry_apply i bi bj hbi hbj x xi xj hxi hxj p q, pay11_apply i bi bj hbi hbj p q]
  rfl

end Cert.KernelIdeal.TileValue

end
-- ==== Proof.LibBlockSum.lean ====
/-
  A sum of `a * b` terms taken in `a` consecutive blocks of `b` terms, in any commutative additive monoid (the extended
  reals included: only commutativity and associativity of `+` are used, so infinite terms are allowed).
-/
import Mathlib.Algebra.BigOperators.Fin

namespace Cert.BlockSum

/-- The sum over `Fin (a * b)` is the sum over the `a` blocks of the sums inside each block: term `k = b * i + j`
    is term `j` of block `i`. -/
theorem sum_blocks {M : Type*} [AddCommMonoid M] (a b : ℕ) (f : ℕ → M) :
    ∑ k : Fin (a * b), f k.val = ∑ i : Fin a, ∑ j : Fin b, f (b * i.val + j.val) := by
  rw [← Fintype.sum_prod_type' (f := fun (i : Fin a) (j : Fin b) => f (b * i.val + j.val))]
  refine (Fintype.sum_equiv finProdFinEquiv _ _ (fun p => ?_)).symm
  simp [finProdFinEquiv, add_comm]

end Cert.BlockSum
-- ==== Proof.LibIdxSum.lean ====
/-
  Sums over the index sets of small-rank arrays written as iterated sums over their coordinates, and the regrouping of
  a sum over 16,777,216 = 2 · 16 · 4096 · 128 consecutive terms by (half, lane, block of the half, row of the block).
  Everything here holds in any commutative additive monoid: only commutativity and associativity of `+` are used.
-/
import proofs.«117261_j20804821582530_1_alg».proof.Proof.LibBlockSum
import Idealize.ShloMosaic.Lib.ValueIdx

namespace Cert.IdxSum

open Idealize.ShloMosaic Idealize.ShloMosaic.ValueIdx

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The 16,777,216 consecutive terms of a sum, regrouped: term `128 · (4096 · (16 c + i) + r) + l` is lane `l` of row
    `r` of block `i` of half `c`, and the lanes are summed outside the blocks and rows of a half. -/
theorem regroup {M : Type*} [AddCommMonoid M] (L : ℕ → M) :
    ∑ k : Fin 16777216, L k.val
      = ∑ c : Fin 2, ∑ l : Fin 128, ∑ i : Fin 16, ∑ r : Fin 4096,
          L (128 * (4096 * (16 * c.val + i.val) + r.val) + l.val) := by
  have h1 : ∑ k : Fin 16777216, L k.val = ∑ row : Fin 131072, ∑ l : Fin 128, L (128 * row.val + l.val) :=
    Cert.BlockSum.sum_blocks 131072 128 L
  have h2 : ∑ row : Fin 131072, ∑ l : Fin 128, L (128 * row.val + l.val)
      = ∑ b : Fin 32, ∑ r : Fin 4096, ∑ l : Fin 128, L (128 * (4096 * b.val + r.val) + l.val) :=
    Cert.BlockSum.sum_blocks 32 4096 (fun row => ∑ l : Fin 128, L (128 * row + l.val))
  have h3 : ∑ b : Fin 32, ∑ r : Fin 4096, ∑ l : Fin 128, L (128 * (4096 * b.val + r.val) + l.val)
      = ∑ c : Fin 2, ∑ i : Fin 16, ∑ r : Fin 4096, ∑ l : Fin 128,
          L (128 * (4096 * (16 * c.val + i.val) + r.val) + l.val) :=
    Cert.BlockSum.sum_blocks 2 16 (fun b => ∑ r : Fin 4096, ∑ l : Fin 128, L (128 * (4096 * b + r.val) + l.val))
  rw [h1, h2, h3]
  refine Finset.sum_congr rfl fun c _ => ?_
  calc ∑ i : Fin 16, ∑ r : Fin 4096, ∑ l : Fin 128, L (128 * (4096 * (16 * c.val + i.val) + r.val) + l.val)
      = ∑ i : Fin 16, ∑ l : Fin 128, ∑ r : Fin 4096, L (128 * (4096 * (16 * c.val + i.val) + r.val) + l.val) :=
        Finset.sum_congr rfl fun i _ => Finset.sum_comm
    _ = ∑ l : Fin 128, ∑ i : Fin 16, ∑ r : Fin 4096, L (128 * (4096 * (16 * c.val + i.val) + r.val) + l.val) :=
        Finset.sum_comm

end Cert.IdxSum
-- ==== Proof.TileValue.lean ====
/-
  What the kernel's body stores at one grid point (bi, bj), at the ideal values: each of the two totals over the
  512 × 512 tile, added to its 1 × 1 accumulator, is the accumulator plus the tile's part of the corresponding total
  of the pair loss; and the two accumulators start from the word of 0.
-/
import proofs.«117261_j20804821582530_1_alg».proof.Proof.TileEntry
import proofs.«117261_j20804821582530_1_alg».proof.Proof.LibIdxSum

noncomputable section

namespace Cert.KernelIdeal.TileValue

open Cert.KernelIdeal Cert.KernelIdeal.Gen Idealize.ShloMosaic Idealize.ShloMosaic.ValueIdx
open Cert.PairLoss Cert.PairLoss.TileWords

/-- The total of a 512 × 512 tile as the kernel takes it — cast to 1 × 512 × 512 and summed over its last two axes
    into one element — is the double sum over the tile's entries. -/
theorem tileTotal_apply (w : FVec Ideal S512x512 .f32) (hφ : FKind.Formats .f32)
    (hacc : (0x00000000#32 : BitVec 32) = FKind.add.neutral .f32 hφ) (j : S1.Idx) :
    multiReduction (F := Ideal) .add [1, 2] S1 (shapeCast S1x512x512 w shapeCasts_S512x512_S1x512x512)
        0x00000000#32 reduces_S1x512x512_S1 hφ hacc j
      = ∑ p : Fin 512, ∑ q : Fin 512, w (ix2 p q) := by
  refine (Ideal.multiReduction_add_total _ _ _ (fun b => ?_) hφ hacc j).trans ?_
  · match b with
    | ⟨0, _⟩ => rfl
  · refine (Cert.IdxSum.sum_idx3 _).trans ?_
    rw [Fin.sum_univ_one]
    refine Finset.sum_congr rfl fun p _ => Finset.sum_congr rfl fun q _ => ?_
    exact shapeCast_ab_1ab_apply w shapeCasts_S512x512_S1x512x512 0 p q

/-- The one index of a 1 × 1 vector. -/
theorem idx11 (j : S1x1.Idx) : j = ix2 (0 : Fin 1) (0 : Fin 1) := by
  obtain ⟨a, b, rfl⟩ : ∃ (a : Fin 1) (b : Fin 1), j = ix2 a b := ⟨j 0, j 1, eq_ix2 j⟩
  obtain rfl : a = 0 := Subsingleton.elim _ _
  obtain rfl : b = 0 := Subsingleton.elim _ _
  rfl

/-- The one index of a one-element vector. -/
theorem idx1 (k : S1.Idx) : k = ix1 (0 : Fin 1) := by
  obtain ⟨a, rfl⟩ : ∃ (a : Fin 1), k = ix1 a := ⟨k 0, eq_ix1 k⟩
  obtain rfl : a = 0 := Subsingleton.elim _ _
  rfl

/-- Adding to a 1 × 1 accumulator the one element of a one-element vector, taken out through a 1 × 1 × 1 cast and
    broadcast: at the one index, the accumulator's element plus the vector's. -/
theorem acc_add_apply (acc : Vec Ideal S1x1 .f32) (t : FVec Ideal S1 .f32) (j : S1x1.Idx) :
    addf (shapeCast S1x1 acc shapeCasts_S1x1_S1x1)
        (broadcast S1x1 (extractAt ![0, 0, 0] (shapeCast S1x1x1 t shapeCasts_S1_S1x1x1) inpos_S1x1x1_p0_0_0)) j
      = acc (ix2 (0 : Fin 1) (0 : Fin 1)) + t (ix1 (0 : Fin 1)) := by
  rw [addf_apply, shapeCast_self, broadcast_apply, idx11 j]
  refine congrArg (acc (ix2 (0 : Fin 1) (0 : Fin 1)) + ·) ?_
  unfold extractAt shapeCast
  exact congrArg t (idx1 _)

/-- The positive accumulator's new value as the operations the body applies, over any four tile values. -/
theorem pay15_eq (v12 v77 v88 : FVec Ideal S512x512 .f32) (v80 : IVec S512x512 1) (acc : Vec Ideal S1x1 .f32) :
    k0_pay15 (F := Ideal) v12 v77 v80 v88 acc
      = addf (shapeCast S1x1 acc shapeCasts_S1x1_S1x1)
          (broadcast S1x1 (extractAt ![0, 0, 0] (shapeCast S1x1x1
            (multiReduction (F := Ideal) .add [1, 2] S1
              (shapeCast S1x512x512 (mulf (k0_pay14 (F := Ideal) v12 v77 v80 v88) v77) shapeCasts_S512x512_S1x512x512)
              0x00000000#32 reduces_S1x512x512_S1 (.inl rfl) rfl)
            shapeCasts_S1_S1x1x1) inpos_S1x1x1_p0_0_0)) := rfl

/-- The other accumulator's new value as the operations the body applies, over any four tile values. -/
theorem pay1_eq (v12 v77 v88 : FVec Ideal S512x512 .f32) (v80 : IVec S512x512 1) (acc : Vec Ideal S1x1 .f32) :
    k0_pay1 (F := Ideal) (k0_pay16 acc) (k0_pay17 (F := Ideal) v12 v77 v80 v88)
      = addf (shapeCast S1x1 acc shapeCasts_S1x1_S1x1)
          (broadcast S1x1 (extractAt ![0, 0, 0] (shapeCast S1x1x1
            (multiReduction (F := Ideal) .add [1, 2] S1
              (shapeCast S1x512x512 (mulf (k0_pay14 (F := Ideal) v12 v77 v80 v88)
                (subf (broadcast S512x512 (Scalar.ofBits (F := Ideal) .f32 0x3F800000#32)) v77))
                shapeCasts_S512x512_S1x512x512)
              0x00000000#32 reduces_S1x512x512_S1 (.inl rfl) rfl)
            shapeCasts_S1_S1x1x1) inpos_S1x1x1_p0_0_0)) := rfl

/-- The positive accumulator after the grid point (bi, bj): its value before plus the tile's part of the positive total. -/
theorem tile_pos (i : grid0.Coords) (bi bj : Fin 8) (hbi : (i 0).val = bi.val) (hbj : (i 1).val = bj.val)
    (x : SX.Idx → EReal) (xi xj : Vec Ideal S512x1024 .bf16)
    (hxi : ∀ (p : Fin 512) (k : Fin 1024), xi (ix2 p k) = x (ix2 (row bi p) k))
    (hxj : ∀ (q : Fin 512) (k : Fin 1024), xj (ix2 q k) = x (ix2 (row bj q) k)) (acc : Vec Ideal S1x1 .f32) :
    k0_pay15 (F := Ideal) (k0_pay4 (F := Ideal) xi xj) (k0_pay11 (F := Ideal) (k0_pay5 i) (k0_pay6 i) (k0_pay7 i) (k0_pay8 i) (k0_pay9 i) k0_pay10)
        (k0_pay12 (k0_pay5 i) (k0_pay6 i)) (k0_pay13 (F := Ideal) (k0_pay4 (F := Ideal) xi xj)) acc
      = fun _ => acc (ix2 0 0) + tilePos x bi bj := by
  rw [pay15_eq]
  funext j
  refine (acc_add_apply acc _ j).trans ?_
  refine congrArg (acc (ix2 (0 : Fin 1) (0 : Fin 1)) + ·) ?_
  refine (tileTotal_apply _ _ _ _).trans ?_
  unfold tilePos
  exact Finset.sum_congr rfl fun p _ => Finset.sum_congr rfl fun q _ => posTerm_apply i bi bj hbi hbj x xi xj hxi hxj p q

/-- The other accumulator after the grid point (bi, bj): its value before plus the tile's part of the other total. -/
theorem tile_neg (i : grid0.Coords) (bi bj : Fin 8) (hbi : (i 0).val = bi.val) (hbj : (i 1).val = bj.val)
    (x : SX.Idx → EReal) (xi xj : Vec Ideal S512x1024 .bf16)
    (hxi : ∀ (p : Fin 512) (k : Fin 1024), xi (ix2 p k) = x (ix2 (row bi p) k))
    (hxj : ∀ (q : Fin 512) (k : Fin 1024), xj (ix2 q k) = x (ix2 (row bj q) k)) (acc : Vec Ideal S1x1 .f32) :
    k0_pay1 (F := Ideal) (k0_pay16 acc) (k0_pay17 (F := Ideal) (k0_pay4 (F := Ideal) xi xj) (k0_pay11 (F := Ideal) (k0_pay5 i) (k0_pay6 i) (k0_pay7 i) (k0_pay8 i) (k0_pay9 i) k0_pay10)
        (k0_pay12 (k0_pay5 i) (k0_pay6 i)) (k0_pay13 (F := Ideal) (k0_pay4 (F := Ideal) xi xj)))
      = fun _ => acc (ix2 0 0) + tileNeg x bi bj := by
  rw [pay1_eq]
  funext j
  refine (acc_add_apply acc _ j).trans ?_
  refine congrArg (acc (ix2 (0 : Fin 1) (0 : Fin 1)) + ·) ?_
  refine (tileTotal_apply _ _ _ _).trans ?_
  unfold tileNeg
  exact Finset.sum_congr rfl fun p _ => Finset.sum_congr rfl fun q _ => negTerm_apply i bi bj hbi hbj x xi xj hxi hxj p q

/-- The two accumulators start from the word of 0. -/
theorem zero2 : (k0_pay2 (F := Ideal)) = fun _ => lit 0x00000000#32 := rfl
theorem zero3 : (k0_pay3 (F := Ideal)) = fun _ => lit 0x00000000#32 := rfl

end Cert.KernelIdeal.TileValue

end
-- ==== Proof.TileSum.lean ====
/-
  The two totals of the pair loss over all 4096 × 4096 entries, regrouped by the 8 × 8 tiles of 512 × 512 entries:
  a row index below 4096 is 512 · b + p for one band b below 8 and one p below 512, so the sum over the rows is the
  sum over the bands of the sums inside each band, and the same for the columns; the two inner band sums commute.
  Only commutativity and associativity of + are used, so infinite terms are allowed.
-/
import proofs.«117261_j20804821582530_1_alg».proof.Proof.Spec
import proofs.«117261_j20804821582530_1_alg».proof.Proof.LibBlockSum

noncomputable section

namespace Cert.PairLoss.TileSum

open Idealize.ShloMosaic

/-- A sum over the 4096 rows is the sum over the 8 bands of the sums over the 512 rows of each band. -/
theorem sum_rows {M : Type*} [AddCommMonoid M] (f : Fin 4096 → M) :
    ∑ r : Fin 4096, f r = ∑ b : Fin 8, ∑ p : Fin 512, f (row b p) := by
  let g : ℕ → M := fun n => if h : n < 4096 then f ⟨n, h⟩ else 0
  have hg : ∀ (n : ℕ) (h : n < 4096), g n = f ⟨n, h⟩ := fun n h => dif_pos h
  have h1 : ∑ r : Fin 4096, f r = ∑ k : Fin (8 * 512), g k.val :=
    Finset.sum_congr rfl fun r _ => (hg r.val r.isLt).symm
  rw [h1, Cert.BlockSum.sum_blocks 8 512 g]
  refine Finset.sum_congr rfl fun b _ => Finset.sum_congr rfl fun p _ => ?_
  exact hg (512 * b.val + p.val) (row b p).isLt

/-- A double sum over 4096 × 4096 entries is the sum over the 8 × 8 tiles of the double sums inside each tile. -/
theorem sum_tiles {M : Type*} [AddCommMonoid M] (f : Fin 4096 → Fin 4096 → M) :
    ∑ bi : Fin 8, ∑ bj : Fin 8, ∑ p : Fin 512, ∑ q : Fin 512, f (row bi p) (row bj q)
      = ∑ r : Fin 4096, ∑ c : Fin 4096, f r c := by
  rw [sum_rows fun r => ∑ c : Fin 4096, f r c]
  refine Finset.sum_congr rfl fun bi _ => ?_
  rw [Finset.sum_comm]
  refine Finset.sum_congr rfl fun p _ => ?_
  exact (sum_rows fun c => f (row bi p) c).symm

/-- The positive pairs' total is the sum of the 64 tiles' parts. -/
theorem sum_tilePos (x : SX.Idx → EReal) : ∑ bi : Fin 8, ∑ bj : Fin 8, tilePos x bi bj = posSum x :=
  sum_tiles fun r c => posTerm x r c

/-- The other pairs' total is the sum of the 64 tiles' parts. -/
theorem sum_tileNeg (x : SX.Idx → EReal) : ∑ bi : Fin 8, ∑ bj : Fin 8, tileNeg x bi bj = negSum x :=
  sum_tiles fun r c => negTerm x r c

/-- A sum over the 64 grid points in row-major order is the double sum over the 8 × 8 bands. -/
theorem sum_grid {M : Type*} [AddCommMonoid M] (T : Fin 8 → Fin 8 → M) :
    ∑ t : Fin 64, T ⟨t.val / 8, by omega⟩ ⟨t.val % 8, by omega⟩ = ∑ bi : Fin 8, ∑ bj : Fin 8, T bi bj := by
  let g : ℕ → M := fun n => if h : n < 64 then T ⟨n / 8, by omega⟩ ⟨n % 8, by omega⟩ else 0
  have hg : ∀ (n : ℕ) (h : n < 64), g n = T ⟨n / 8, by omega⟩ ⟨n % 8, by omega⟩ := fun n h => dif_pos h
  have h1 : ∑ t : Fin 64, T ⟨t.val / 8, by omega⟩ ⟨t.val % 8, by omega⟩ = ∑ k : Fin (8 * 8), g k.val :=
    Finset.sum_congr rfl fun t _ => (hg t.val t.isLt).symm
  rw [h1, Cert.BlockSum.sum_blocks 8 8 g]
  refine Finset.sum_congr rfl fun bi _ => Finset.sum_congr rfl fun bj _ => ?_
  have hlt : 8 * bi.val + bj.val < 64 := by omega
  rw [hg _ hlt]
  congr 1 <;> exact Fin.ext (by simp only []; omega)

/-- The positive pairs' total is the sum of the tiles' parts over the 64 grid points in row-major order. -/
theorem sum_grid_tilePos (x : SX.Idx → EReal) :
    ∑ t : Fin 64, tilePos x ⟨t.val / 8, by omega⟩ ⟨t.val % 8, by omega⟩ = posSum x :=
  (sum_grid fun bi bj => tilePos x bi bj).trans (sum_tilePos x)

/-- The other pairs' total is the sum of the tiles' parts over the 64 grid points in row-major order. -/
theorem sum_grid_tileNeg (x : SX.Idx → EReal) :
    ∑ t : Fin 64, tileNeg x ⟨t.val / 8, by omega⟩ ⟨t.val % 8, by omega⟩ = negSum x :=
  (sum_grid fun bi bj => tileNeg x bi bj).trans (sum_tileNeg x)

end Cert.PairLoss.TileSum

end
-- ==== Proof.KIValue.lean ====
/-
  The value of the kernel's program at the extended reals. After grid point n each accumulator holds the word of zero
  plus the totals of tiles 0 … n in grid order; the pipeline writes the accumulators back once, after the last point,
  so the two 1×1 result arrays end at zero plus the sum of all 64 tiles, which is the sum over all 4096 × 4096
  entries; the later host operations divide each by its number of pairs and add the quotients.
-/
import proofs.«117261_j20804821582530_1_alg».proof.Proof.KIBlocks
import proofs.«117261_j20804821582530_1_alg».proof.Proof.KIOuts
import proofs.«117261_j20804821582530_1_alg».proof.Proof.KIClaim
import proofs.«117261_j20804821582530_1_alg».proof.Proof.TileValue
import proofs.«117261_j20804821582530_1_alg».proof.Proof.TileSum
import Idealize.ShloMosaic.Lib.StableHlo.Run

set_option maxRecDepth 16384

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Fr Cert.PairLoss

variable (m : (ℓ : Loc nD τ sig) → Buf (Elt Ideal) ℓ) (ρ : Dev nD → PrngReg)

open Cert.KernelIdeal.TileValue

/-- Tile number `n` of the grid, in row-major order, weighted as positive pairs; zero past the grid. -/
def tileP (x : SX.Idx → EReal) (n : ℕ) : EReal := if h : n < 64 then tilePos x ⟨n / 8, by omega⟩ ⟨n % 8, by omega⟩ else 0
def tileN (x : SX.Idx → EReal) (n : ℕ) : EReal := if h : n < 64 then tileNeg x ⟨n / 8, by omega⟩ ⟨n % 8, by omega⟩ else 0

/-- The running totals after point `n`: the word of zero plus tile 0, then plus each later tile. -/
def accP (x : SX.Idx → EReal) : ℕ → EReal
  | 0 => lit 0x00000000#32 + tileP x 0
  | n + 1 => accP x n + tileP x (n + 1)
def accN (x : SX.Idx → EReal) : ℕ → EReal
  | 0 => lit 0x00000000#32 + tileN x 0
  | n + 1 => accN x n + tileN x (n + 1)

theorem tileP_of_lt (x : SX.Idx → EReal) (t : Fin cfg0.N) : tileP x t.val = tilePos x (bandI t) (bandJ t) := by
  have : t.val < 64 := lt_of_lt_of_eq t.isLt hN
  unfold tileP; rw [dif_pos this]; rfl
theorem tileN_of_lt (x : SX.Idx → EReal) (t : Fin cfg0.N) : tileN x t.val = tileNeg x (bandI t) (bandJ t) := by
  have : t.val < 64 := lt_of_lt_of_eq t.isLt hN
  unfold tileN; rw [dif_pos this]; rfl

/-- The body's two stores at point `t`, from accumulators `a2`, `a3`: each plus its tile's total. -/
theorem pos_at (c : Dev nD) (t : Fin cfg0.N) (a2 : Vec Ideal S1x1 .f32) :
    posPay (F := Ideal) (grid0.coords t) (iblk m c 0 t) (iblk m c 1 t) a2 = fun _ => a2 (ix2 0 0) + tileP (xm m c) t.val := by
  rw [tileP_of_lt]
  exact tile_pos (grid0.coords t) (bandI t) (bandJ t) (point_facts t).1 (point_facts t).2.1 (xm m c) (iblk m c 0 t) (iblk m c 1 t)
    (iblk0_apply m c t) (iblk1_apply m c t) a2
theorem neg_at (c : Dev nD) (t : Fin cfg0.N) (a3 : Vec Ideal S1x1 .f32) :
    negPay (F := Ideal) (grid0.coords t) (iblk m c 0 t) (iblk m c 1 t) a3 = fun _ => a3 (ix2 0 0) + tileN (xm m c) t.val := by
  rw [tileN_of_lt]
  exact tile_neg (grid0.coords t) (bandI t) (bandJ t) (point_facts t).1 (point_facts t).2.1 (xm m c) (iblk m c 0 t) (iblk m c 1 t)
    (iblk0_apply m c t) (iblk1_apply m c t) a3

/-- What the accumulators hold after point `n`: the running totals. -/
theorem outsAt_eq (c : Dev nD) : ∀ (n : ℕ) (h : n < cfg0.N),
    outsAt0 m c n h = ((fun _ => accP (xm m c) n : Vec Ideal S1x1 .f32), (fun _ => accN (xm m c) n : Vec Ideal S1x1 .f32))
  | 0, h => by
    rw [outsAt0_A m c ⟨0, h⟩ rfl, out_A_2, out_A_3, pos_at m c ⟨0, h⟩, neg_at m c ⟨0, h⟩, zero2, zero3]
    rfl
  | n + 1, h => by
    rw [outsAt0_B m c ⟨n + 1, h⟩ (Nat.succ_ne_zero n), out_B_2, out_B_3, pos_at m c ⟨n + 1, h⟩, neg_at m c ⟨n + 1, h⟩]
    show ((fun _ => (outsAt0 m c n _).1 (ix2 0 0) + _), (fun _ => (outsAt0 m c n _).2 (ix2 0 0) + _)) = _
    rw [outsAt_eq c n]
    rfl

/-- The running total after the last point is zero plus the sum over all entries. -/
theorem accP_sum (x : SX.Idx → EReal) (n : ℕ) : accP x n = lit 0x00000000#32 + ∑ k ∈ Finset.range (n + 1), tileP x k := by
  induction n with
  | zero =>
    show lit 0x00000000#32 + tileP x 0 = lit 0x00000000#32 + ∑ k ∈ Finset.range 1, tileP x k
    rw [Finset.sum_range_one]
  | succ n ih => rw [accP, ih, Finset.sum_range_succ _ (n + 1), add_assoc]
theorem accN_sum (x : SX.Idx → EReal) (n : ℕ) : accN x n = lit 0x00000000#32 + ∑ k ∈ Finset.range (n + 1), tileN x k := by
  induction n with
  | zero =>
    show lit 0x00000000#32 + tileN x 0 = lit 0x00000000#32 + ∑ k ∈ Finset.range 1, tileN x k
    rw [Finset.sum_range_one]
  | succ n ih => rw [accN, ih, Finset.sum_range_succ _ (n + 1), add_assoc]

theorem accP_last (x : SX.Idx → EReal) : accP x 63 = lit 0x00000000#32 + posSum x := by
  rw [accP_sum]
  show lit 0x00000000#32 + ∑ k ∈ Finset.range 64, tileP x k = _
  rw [← Fin.sum_univ_eq_sum_range (fun k => tileP x k) 64, ← Cert.PairLoss.TileSum.sum_grid_tilePos x]
  refine congrArg (lit 0x00000000#32 + ·) (Finset.sum_congr rfl fun t _ => ?_)
  show tileP x t.val = _
  unfold tileP; rw [dif_pos t.isLt]
theorem accN_last (x : SX.Idx → EReal) : accN x 63 = lit 0x00000000#32 + negSum x := by
  rw [accN_sum]
  show lit 0x00000000#32 + ∑ k ∈ Finset.range 64, tileN x k = _
  rw [← Fin.sum_univ_eq_sum_range (fun k => tileN x k) 64, ← Cert.PairLoss.TileSum.sum_grid_tileNeg x]
  refine congrArg (lit 0x00000000#32 + ·) (Finset.sum_congr rfl fun t _ => ?_)
  show tileN x t.val = _
  unfold tileN; rw [dif_pos t.isLt]

/-! ## The two result arrays after the run -/

/-- The last grid point. -/
abbrev tLast : Fin cfg0.N := ⟨63, by rw [hN]; decide⟩

abbrev resultP (c : Dev nD) : Buf (Elt Ideal) ((c : Thread nD τ).loc main_v7_0) := fun _ => accP (xm m c) 63
abbrev resultN (c : Dev nD) : Buf (Elt Ideal) ((c : Thread nD τ).loc main_v7_1) := fun _ => accN (xm m c) 63

theorem flushed2_eq (c : Dev nD) (t : Fin cfg0.N) (hf : (cfg0.win 2).flush t = true) :
    (dats m 0 c).flushed 2 t = ((cfg0.win 2).blk t).view.read (Elt Ideal) (resultP m c) := by
  have h63 : t.val = 63 := by have := (flush0_2 t).mp hf; have : t.val < 64 := lt_of_lt_of_eq t.isLt hN; omega
  obtain rfl : t = tLast := Fin.ext h63
  show (cfg0.win 2).cut (grid0.coords tLast) ((dats m 0 c).after 2 tLast) = _
  rw [after0_2, outsAt_eq]
  funext j
  rfl
theorem flushed3_eq (c : Dev nD) (t : Fin cfg0.N) (hf : (cfg0.win 3).flush t = true) :
    (dats m 0 c).flushed 3 t = ((cfg0.win 3).blk t).view.read (Elt Ideal) (resultN m c) := by
  have h63 : t.val = 63 := by have := (flush0_3 t).mp hf; have : t.val < 64 := lt_of_lt_of_eq t.isLt hN; omega
  obtain rfl : t = tLast := Fin.ext h63
  show (cfg0.win 3).cut (grid0.coords tLast) ((dats m 0 c).after 3 tLast) = _
  rw [after0_3, outsAt_eq]
  funext j
  rfl

theorem final2 (c : Dev nD) : (dats m 0 c).arrAt 2 cfg0.N = resultP m c :=
  (dats m 0 c).arrAt_eq_of_cover 2 (resultP m c) (flushed2_eq m c) fun i =>
    ⟨tLast, (flush0_2 tLast).mpr rfl, by
      show i ∈ ((View.whole main_v7_0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩
theorem final3 (c : Dev nD) : (dats m 0 c).arrAt 3 cfg0.N = resultN m c :=
  (dats m 0 c).arrAt_eq_of_cover 3 (resultN m c) (flushed3_eq m c) fun i =>
    ⟨tLast, (flush0_3 tLast).mpr rfl, by
      show i ∈ ((View.whole main_v7_1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-! ## The result -/

/-- The later host operations at the result buffer: each total reshaped to a scalar, divided by its number of pairs,
    and the two quotients added. -/
theorem Wt_v12 (c : Dev nD) :
    Wt m c (Proc.devRef .tc main_v12)
      = addf (Host.divf (F := Ideal) (shapeCast S_ (Wx m c (Proc.devRef .tc main_v7_0)) shapeCasts_S1x1_S_) (constant (F := Ideal) S_ .f32 0x4A7FE000#32))
          (Host.divf (F := Ideal) (shapeCast S_ (Wx m c (Proc.devRef .tc main_v7_1)) shapeCasts_S1x1_S_) (constant (F := Ideal) S_ .f32 0x4A800000#32)) := by
  show StableHlo.after hostOps1 (Wx m c) (Proc.devRef .tc main_v12) = _
  after_results
  rfl

theorem lit_zero_add (a : EReal) : lit 0x00000000#32 + a = a := by
  show Ideal.ofBits .f32 0x00000000#32 + a = a
  rw [Ideal.ofBits_zero_f32, zero_add]

/-- The kernel's result is the loss of the matrix of unit rows. -/
theorem result_eq (c : Dev nD) : Wt m c (Proc.devRef .tc main_v12) = fun _ => loss (xm m c) := by
  rw [Wt_v12, Wx_v7_0, Wx_v7_1, final2, final3]
  funext j
  show Ideal.div (accP (xm m c) 63) (lit 0x4A7FE000#32) + Ideal.div (accN (xm m c) 63) (lit 0x4A800000#32) = _
  rw [accP_last, accN_last, lit_zero_add, lit_zero_add]
  rfl

end Cert.KernelIdeal.Val

end
-- ==== Proof.RefTerm.lean ====
/-
  The reference's result as a chain of whole-array definitions over the extended reals: each stage is the
  operation the reference applies, in its own order, to the stages before it. The matrix of unit rows, the
  scaled similarities, the group of each row, the target matrix, the strictly-upper mask, the two clamped
  log-sigmoids through softplus, the loss matrix, and the two weighted means added.
-/
import proofs.«117261_j20804821582530_1_alg».proof.Proof.Gen.ReferenceIdeal
import Idealize.ShloMosaic.PureOps.Ideal

noncomputable section

namespace Cert.ReferenceIdeal.RefTerm

open Idealize.ShloMosaic Cert.ReferenceIdeal Cert.ReferenceIdeal.Gen

/-- The two halves stacked: 2048 rows of the first argument above 2048 rows of the second. -/
def stacked (a0 a1 : FVec Ideal S2048x1024 .f32) : FVec Ideal S4096x1024 .f32 :=
  concatenate S4096x1024 0 [⟨S2048x1024, a0⟩, ⟨S2048x1024, a1⟩] concatenates_S2048x1024_S2048x1024_S4096x1024_d0

/-- The Euclidean norm of each row, as a column: the square root of the row sum of squares. -/
def rowNorm (v : FVec Ideal S4096x1024 .f32) : FVec Ideal S4096x1 .f32 :=
  Host.sqrt (F := Ideal) (broadcastInDim S4096x1 ![0] bcast_S4096_S4096x1_0
    (Host.reduceAdd (F := Ideal) (mulf v v) (constant (F := Ideal) S_ .f32 0x00000000#32) reducesTo_S4096x1024_S4096_d1 h_S_))

/-- The divisor of each entry: the row's norm, at least the word of 1e-8, spread along the row. -/
def rowDiv (v : FVec Ideal S4096x1024 .f32) : FVec Ideal S4096x1024 .f32 :=
  broadcastInDim S4096x1024 ![0, 1] bcast_S4096x1_S4096x1024_0_1
    (maximumf (rowNorm v) (broadcastInDim S4096x1 ![] bcast_S_S4096x1 (constant (F := Ideal) S_ .f32 0x322BCC77#32)))

/-- The matrix of unit rows: the stacked halves, each row divided by its (clamped) norm. -/
def unitRows (a0 a1 : FVec Ideal S2048x1024 .f32) : FVec Ideal S4096x1024 .f32 :=
  Host.divf (F := Ideal) (stacked a0 a1) (rowDiv (stacked a0 a1))

/-- The scaled similarities: the Gram matrix of the rows, divided by the word of 0.5. -/
def scaled (x : FVec Ideal S4096x1024 .f32) : FVec Ideal S4096x4096 .f32 :=
  Host.divf (F := Ideal)
    (Host.dotGeneral (F := Ideal) dot_S4096x1024_S1024x4096_S4096x4096_1_0_0_1_n_n none x
      (transpose S1024x4096 [1, 0] x transposes_S4096x1024_S1024x4096_1_0))
    (broadcastInDim S4096x4096 ![] bcast_S_S4096x4096 (constant (F := Ideal) S_ .f32 0x3F000000#32))

/-- The row numbers 0 … 4095. -/
def rowIx : IVec S4096 32 := iotaInDim S4096 32 0

/-- The divisor 2048 as the floor division sees it. -/
def halfC : IVec S_ 32 := id (constantI S_ 32 2048#32)

/-- The truncated quotient of each row number by 2048. -/
def quot : IVec S4096 32 := Host.divsi rowIx (broadcastInDim S4096 ![] bcast_S_S4096 halfC)

/-- Where the floor differs from the truncation: the signs differ and the remainder is not zero. -/
def adjust : IVec S4096 1 :=
  andi (cmpi .ne (signi rowIx) (broadcastInDim S4096 ![] bcast_S_S4096 (signi halfC)))
    (cmpi .ne (Host.remsi rowIx (broadcastInDim S4096 ![] bcast_S_S4096 halfC))
      (broadcastInDim S4096 ![] bcast_S_S4096 (constantI S_ 32 0#32)))

/-- The group of each row: the floor of its number over 2048. -/
def group : IVec S4096 32 :=
  select adjust (subi quot (broadcastInDim S4096 ![] bcast_S_S4096 (constantI S_ 32 1#32))) quot

/-- A vector spread down the columns, and along the rows, of the square. -/
def asCol (v : IVec S4096 32) : IVec S4096x4096 32 :=
  broadcastInDim S4096x4096 ![0, 1] bcast_S4096x1_S4096x4096_0_1 (broadcastInDim S4096x1 ![0] bcast_S4096_S4096x1_0 v)
def asRow (v : IVec S4096 32) : IVec S4096x4096 32 :=
  broadcastInDim S4096x4096 ![0, 1] bcast_S1x4096_S4096x4096_0_1 (broadcastInDim S1x4096 ![1] bcast_S4096_S1x4096_1 v)

/-- The target bit of each pair: the same group and not the same row. -/
def targetBit : IVec S4096x4096 1 :=
  andi (cmpi .eq (asCol group) (asRow group)) (cmpi .ne (asCol rowIx) (asRow rowIx))

/-- The target matrix: the bit as a float. -/
def target : FVec Ideal S4096x4096 .f32 := uitofp (F := Ideal) .f32 targetBit

/-- The strictly-upper mask: the row number below the column number. -/
def upper : IVec S4096x4096 1 := cmpi .slt (asCol rowIx) (asRow rowIx)

/-- The zero matrix the softplus compares and shifts by. -/
def zeros : FVec Ideal S4096x4096 .f32 :=
  broadcastInDim S4096x4096 ![] bcast_S_S4096x4096 (constant (F := Ideal) S_ .f32 0x00000000#32)

/-- softplus u = max u 0 + log1p (exp (−|u − 0|)), with the not-a-number branch u + 0 where u − 0 differs from itself. -/
def softplus (u : FVec Ideal S4096x4096 .f32) : FVec Ideal S4096x4096 .f32 :=
  select (cmpf .une (subf u zeros) (subf u zeros)) (addf u zeros)
    (addf (maximumf u zeros)
      (Host.log1p (F := Ideal) (Host.exp (F := Ideal) (Host.negf (F := Ideal) (Host.absf (F := Ideal) (subf u zeros))))))

/-- log σ(u) = −softplus (−u). -/
def logSigmoid (u : FVec Ideal S4096x4096 .f32) : FVec Ideal S4096x4096 .f32 :=
  Host.negf (F := Ideal) (softplus (Host.negf (F := Ideal) u))

/-- A scalar word spread over the square. -/
def fill (b : BitVec 32) : FVec Ideal S4096x4096 .f32 :=
  broadcastInDim S4096x4096 ![] bcast_S_S4096x4096 (constant (F := Ideal) S_ .f32 b)

/-- log σ(z) and log σ(−z), each clamped below at the word of −100. -/
def logP (x : FVec Ideal S4096x1024 .f32) : FVec Ideal S4096x4096 .f32 :=
  maximumf (logSigmoid (scaled x)) (fill 0xC2C80000#32)
def logQ (x : FVec Ideal S4096x1024 .f32) : FVec Ideal S4096x4096 .f32 :=
  maximumf (logSigmoid (Host.negf (F := Ideal) (scaled x))) (fill 0xC2C80000#32)

/-- The binary cross-entropy matrix: −(t·logP + (1 − t)·logQ). -/
def bce (x : FVec Ideal S4096x1024 .f32) : FVec Ideal S4096x4096 .f32 :=
  Host.negf (F := Ideal)
    (addf (mulf target (logP x)) (mulf (subf (fill 0x3F800000#32) target) (logQ x)))

/-- The value on and below the diagonal: 0 for a positive pair, the word of 100 otherwise. -/
def lower : FVec Ideal S4096x4096 .f32 :=
  select (cmpf .ogt target (fill 0x00000000#32))
    (broadcastInDim S4096x4096 ![] bcast_S_S4096x4096 (constant (F := Ideal) S_ .f32 0x00000000#32))
    (broadcastInDim S4096x4096 ![] bcast_S_S4096x4096 (constant (F := Ideal) S_ .f32 0x42C80000#32))

/-- The loss matrix: the cross-entropy strictly above the diagonal, the constant elsewhere. -/
def lossMat (x : FVec Ideal S4096x1024 .f32) : FVec Ideal S4096x4096 .f32 :=
  select upper (bce x) (id lower)

/-- The total over the positive pairs and over the others. -/
def posTotal (x : FVec Ideal S4096x1024 .f32) : FVec Ideal S_ .f32 :=
  Host.reduceAdd (F := Ideal) (mulf (lossMat x) target) (constant (F := Ideal) S_ .f32 0x00000000#32) reducesTo_S4096x4096_S_d0_1 h_S_
def negTotal (x : FVec Ideal S4096x1024 .f32) : FVec Ideal S_ .f32 :=
  Host.reduceAdd (F := Ideal) (mulf (lossMat x) (subf (fill 0x3F800000#32) target)) (constant (F := Ideal) S_ .f32 0x00000000#32)
    reducesTo_S4096x4096_S_d0_1 h_S_

/-- The loss: each total over the word of its number of pairs, added. -/
def out (x : FVec Ideal S4096x1024 .f32) : FVec Ideal S_ .f32 :=
  addf (Host.divf (F := Ideal) (posTotal x) (constant (F := Ideal) S_ .f32 0x4A7FE000#32))
    (Host.divf (F := Ideal) (negTotal x) (constant (F := Ideal) S_ .f32 0x4A800000#32))

end Cert.ReferenceIdeal.RefTerm

end
-- ==== Proof.KIPrefix.lean ====
/-
  The matrix the region reads is the reference's matrix of unit rows: the kernel's program stacks the two inputs,
  divides each row by its norm clamped below at the 1e-8 word, exactly as the reference does, and its change of float
  format is the identity on the extended reals.
-/
import proofs.«117261_j20804821582530_1_alg».proof.Proof.KIBlocks
import proofs.«117261_j20804821582530_1_alg».proof.Proof.RefTerm
import Idealize.ShloMosaic.Lib.StableHlo.Run

set_option maxRecDepth 16384

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Fr Cert.PairLoss

variable (m : (ℓ : Loc nD τ sig) → Buf (Elt Ideal) ℓ) (ρ : Dev nD → PrngReg)

theorem xm_eq (c : Dev nD) :
    xm m c = Cert.ReferenceIdeal.RefTerm.unitRows (m ((c : Thread nD τ).loc main_arg0)) (m ((c : Thread nD τ).loc main_arg1)) := by
  show V (F := Ideal) m c main_v6 = _
  dsimp only [V, V0]
  simp only [hostOps0, hostOps0_1, hostOps0_2, List.flatten_cons, List.flatten_nil, List.append_nil, List.cons_append, List.nil_append]
  after_results
  rfl

end Cert.KernelIdeal.Val

end
-- ==== Proof.RefRun1.lean ====
/- The reference program's @main as the list of its 122 host operations, in order, each call of a module-local
  function replaced by the callee's operations over that call's buffers; cut into eight consecutive stages
  (the unit rows, the scaled similarities, the row groups, the target and the upper mask, the two clamped
  log-sigmoids, the loss matrix, the two means). @main is the straight line of that list, every operation
  touches TensorCore buffers only, and none leaves a result undetermined.
-/
import proofs.«117261_j20804821582530_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 11 of 122. -/
abbrev opsA : List (HloOp τ sig (Elt F)) :=
  [
    binary main_arg0 main_arg1 main_v0 ((fun a b => concatenate S4096x1024 0 [⟨S2048x1024, a⟩, ⟨S2048x1024, b⟩] concatenates_S2048x1024_S2048x1024_S4096x1024_d0) : (⟨S2048x1024, .f32⟩ : BufTy).Contents (Elt F) → (⟨S2048x1024, .f32⟩ : BufTy).Contents (Elt F) → (⟨S4096x1024, .f32⟩ : BufTy).Contents (Elt F)),
    TRef.binary (.of main_v0 : StableHlo.TRef sig ⟨S4096x1024, .f32⟩) (.of main_v0 : StableHlo.TRef sig ⟨S4096x1024, .f32⟩) main_call0.v0 mulf,
    TRef.nullary main_call0.cst (constant S_ .f32 0x00000000#32),
    TRef.binary main_call0.v0 main_call0.cst main_call0.v1 (fun x v => Host.reduceAdd x v reducesTo_S4096x1024_S4096_d1 h_S_),
    TRef.unary main_call0.v1 main_call0.v2 (broadcastInDim S4096x1 ![0] bcast_S4096_S4096x1_0),
    TRef.unary main_call0.v2 main_call0.v3 Host.sqrt,
    nullary main_cst (constant S_ .f32 0x322BCC77#32),
    unary main_cst main_v2 (broadcastInDim S4096x1 ![] bcast_S_S4096x1 : (⟨S_, .f32⟩ : BufTy).Contents (Elt F) → (⟨S4096x1, .f32⟩ : BufTy).Contents (Elt F)),
    binary main_v1 main_v2 main_v3 (maximumf : (⟨S4096x1, .f32⟩ : BufTy).Contents (Elt F) → (⟨S4096x1, .f32⟩ : BufTy).Contents (Elt F) → (⟨S4096x1, .f32⟩ : BufTy).Contents (Elt F)),
    unary main_v3 main_v4 (broadcastInDim S4096x1024 ![0, 1] bcast_S4096x1_S4096x1024_0_1 : (⟨S4096x1, .f32⟩ : BufTy).Contents (Elt F) → (⟨S4096x1024, .f32⟩ : BufTy).Contents (Elt F)),
    binary main_v0 main_v4 main_v5 (Host.divf : (⟨S4096x1024, .f32⟩ : BufTy).Contents (Elt F) → (⟨S4096x1024, .f32⟩ : BufTy).Contents (Elt F) → (⟨S4096x1024, .f32⟩ : BufTy).Contents (Elt F)) ]

/-- Operations 12 … 16 of 122. -/
abbrev opsB : List (HloOp τ sig (Elt F)) :=
  [
    unary main_v5 main_v6 ((transpose S1024x4096 [1, 0] · transposes_S4096x1024_S1024x4096_1_0) : (⟨S4096x1024, .f32⟩ : BufTy).Contents (Elt F) → (⟨S1024x4096, .f32⟩ : BufTy).Contents (Elt F)),
    binary main_v5 main_v6 main_v7 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    nullary main_cst_0 (constant S_ .f32 0x3F000000#32),
    unary main_cst_0 main_v8 (broadcastInDim S4096x4096 ![] bcast_S_S4096x4096 : (⟨S_, .f32⟩ : BufTy).Contents (Elt F) → (⟨S4096x4096, .f32⟩ : BufTy).Contents (Elt F)),
    binary main_v7 main_v8 main_v9 (Host.divf : (⟨S4096x4096, .f32⟩ : BufTy).Contents (Elt F) → (⟨S4096x4096, .f32⟩ : BufTy).Contents (Elt F) → (⟨S4096x4096, .f32⟩ : BufTy).Contents (Elt F)) ]

/-- Operations 17 … 35 of 122. -/
abbrev opsC : List (HloOp τ sig (Elt F)) :=
  [
    nullary main_v10 (iotaInDim S4096 32 0),
    nullary main_c (constantI S_ 32 2048#32),
    TRef.unary (.of main_c : StableHlo.TRef sig ⟨S_, .i32⟩) main_call1.v0 id,
    TRef.unary main_call1.v0 main_call1.v1 (broadcastInDim S4096 ![] bcast_S_S4096),
    TRef.binary (.of main_v10 : StableHlo.TRef sig ⟨S4096, .i32⟩) main_call1.v1 main_call1.v2 Host.divsi,
    TRef.unary (.of main_v10 : StableHlo.TRef sig ⟨S4096, .i32⟩) main_call1.v3 signi,
    TRef.unary main_call1.v0 main_call1.v4 signi,
    TRef.unary main_call1.v4 main_call1.v5 (broadcastInDim S4096 ![] bcast_S_S4096),
    TRef.binary main_call1.v3 main_call1.v5 main_call1.v6 (cmpi .ne),
    TRef.unary main_call1.v0 main_call1.v7 (broadcastInDim S4096 ![] bcast_S_S4096),
    TRef.binary (.of main_v10 : StableHlo.TRef sig ⟨S4096, .i32⟩) main_call1.v7 main_call1.v8 Host.remsi,
    TRef.nullary main_call1.c (constantI S_ 32 0#32),
    TRef.unary main_call1.c main_call1.v9 (broadcastInDim S4096 ![] bcast_S_S4096),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S4096 ![] bcast_S_S4096),
    TRef.binary main_call1.v2 main_call1.v12 main_call1.v13 subi,
    TRef.ternary main_call1.v11 main_call1.v13 main_call1.v2 main_call1.call0.v0 select ]

/-- Operations 36 … 52 of 122. -/
abbrev opsD : List (HloOp τ sig (Elt F)) :=
  [
    unary main_v11 main_v12 (broadcastInDim S4096x1 ![0] bcast_S4096_S4096x1_0 : (⟨S4096, .i32⟩ : BufTy).Contents (Elt F) → (⟨S4096x1, .i32⟩ : BufTy).Contents (Elt F)),
    unary main_v11 main_v13 (broadcastInDim S1x4096 ![1] bcast_S4096_S1x4096_1 : (⟨S4096, .i32⟩ : BufTy).Contents (Elt F) → (⟨S1x4096, .i32⟩ : BufTy).Contents (Elt F)),
    unary main_v12 main_v14 (broadcastInDim S4096x4096 ![0, 1] bcast_S4096x1_S4096x4096_0_1 : (⟨S4096x1, .i32⟩ : BufTy).Contents (Elt F) → (⟨S4096x4096, .i32⟩ : BufTy).Contents (Elt F)),
    unary main_v13 main_v15 (broadcastInDim S4096x4096 ![0, 1] bcast_S1x4096_S4096x4096_0_1 : (⟨S1x4096, .i32⟩ : BufTy).Contents (Elt F) → (⟨S4096x4096, .i32⟩ : BufTy).Contents (Elt F)),
    binary main_v14 main_v15 main_v16 (cmpi .eq : (⟨S4096x4096, .i32⟩ : BufTy).Contents (Elt F) → (⟨S4096x4096, .i32⟩ : BufTy).Contents (Elt F) → (⟨S4096x4096, .i1⟩ : BufTy).Contents (Elt F)),
    unary main_v10 main_v17 (broadcastInDim S4096x1 ![0] bcast_S4096_S4096x1_0 : (⟨S4096, .i32⟩ : BufTy).Contents (Elt F) → (⟨S4096x1, .i32⟩ : BufTy).Contents (Elt F)),
    unary main_v10 main_v18 (broadcastInDim S1x4096 ![1] bcast_S4096_S1x4096_1 : (⟨S4096, .i32⟩ : BufTy).Contents (Elt F) → (⟨S1x4096, .i32⟩ : BufTy).Contents (Elt F)),
    unary main_v17 main_v19 (broadcastInDim S4096x4096 ![0, 1] bcast_S4096x1_S4096x4096_0_1 : (⟨S4096x1, .i32⟩ : BufTy).Contents (Elt F) → (⟨S4096x4096, .i32⟩ : BufTy).Contents (Elt F)),
    unary main_v18 main_v20 (broadcastInDim S4096x4096 ![0, 1] bcast_S1x4096_S4096x4096_0_1 : (⟨S1x4096, .i32⟩ : BufTy).Contents (Elt F) → (⟨S4096x4096, .i32⟩ : BufTy).Contents (Elt F)),
    binary main_v19 main_v20 main_v21 (cmpi .ne : (⟨S4096x4096, .i32⟩ : BufTy).Contents (Elt F) → (⟨S4096x4096, .i32⟩ : BufTy).Contents (Elt F) → (⟨S4096x4096, .i1⟩ : BufTy).Contents (Elt F)),
    binary main_v16 main_v21 main_v22 (andi : (⟨S4096x4096, .i1⟩ : BufTy).Contents (Elt F) → (⟨S4096x4096, .i1⟩ : BufTy).Contents (Elt F) → (⟨S4096x4096, .i1⟩ : BufTy).Contents (Elt F)),
    unary main_v22 main_v23 (uitofp .f32 : (⟨S4096x4096, .i1⟩ : BufTy).Contents (Elt F) → (⟨S4096x4096, .f32⟩ : BufTy).Contents (Elt F)),
    unary main_v10 main_v24 (broadcastInDim S4096x1 ![0] bcast_S4096_S4096x1_0 : (⟨S4096, .i32⟩ : BufTy).Contents (Elt F) → (⟨S4096x1, .i32⟩ : BufTy).Contents (Elt F)),
    unary main_v10 main_v25 (broadcastInDim S1x4096 ![1] bcast_S4096_S1x4096_1 : (⟨S4096, .i32⟩ : BufTy).Contents (Elt F) → (⟨S1x4096, .i32⟩ : BufTy).Contents (Elt F)),
    unary main_v24 main_v26 (broadcastInDim S4096x4096 ![0, 1] bcast_S4096x1_S4096x4096_0_1 : (⟨S4096x1, .i32⟩ : BufTy).Contents (Elt F) → (⟨S4096x4096, .i32⟩ : BufTy).Contents (Elt F)),
    unary main_v25 main_v27 (broadcastInDim S4096x4096 ![0, 1] bcast_S1x4096_S4096x4096_0_1 : (⟨S1x4096, .i32⟩ : BufTy).Contents (Elt F) → (⟨S4096x4096, .i32⟩ : BufTy).Contents (Elt F)),
    binary main_v26 main_v27 main_v28 (cmpi .slt : (⟨S4096x4096, .i32⟩ : BufTy).Contents (Elt F) → (⟨S4096x4096, .i32⟩ : BufTy).Contents (Elt F) → (⟨S4096x4096, .i1⟩ : BufTy).Contents (Elt F)) ]

/-- Operations 53 … 71 of 122. -/
abbrev opsE : List (HloOp τ sig (Elt F)) :=
  [
    TRef.unary (.of main_v9 : StableHlo.TRef sig ⟨S4096x4096, .f32⟩) main_call2.v0 Host.negf,
    TRef.nullary main_call2.call0.cst (constant S_ .f32 0x00000000#32),
    TRef.unary main_call2.call0.cst main_call2.call0.v0 (broadcastInDim S4096x4096 ![] bcast_S_S4096x4096),
    TRef.binary main_call2.v0 main_call2.call0.v0 main_call2.call0.v1 maximumf,
    TRef.unary main_call2.call0.cst main_call2.call0.v2 (broadcastInDim S4096x4096 ![] bcast_S_S4096x4096),
    TRef.binary main_call2.v0 main_call2.call0.v2 main_call2.call0.v3 subf,
    TRef.binary main_call2.call0.v3 main_call2.call0.v3 main_call2.call0.v4 (cmpf .une),
    TRef.unary main_call2.call0.cst main_call2.call0.v5 (broadcastInDim S4096x4096 ![] bcast_S_S4096x4096),
    TRef.binary main_call2.v0 main_call2.call0.v5 main_call2.call0.v6 addf,
    TRef.unary main_call2.call0.v3 main_call2.call0.v7 Host.absf,
    TRef.unary main_call2.call0.v7 main_call2.call0.v8 Host.negf,
    TRef.unary main_call2.call0.v8 main_call2.call0.v9 Host.exp,
    TRef.unary main_call2.call0.v9 main_call2.call0.v10 Host.log1p,
    TRef.binary main_call2.call0.v1 main_call2.call0.v10 main_call2.call0.v11 addf,
    TRef.ternary main_call2.call0.v4 main_call2.call0.v6 main_call2.call0.v11 main_call2.call0.v12 select,
    TRef.unary main_call2.call0.v12 main_call2.v2 Host.negf,
    nullary main_cst_1 (constant S_ .f32 0xC2C80000#32),
    unary main_cst_1 main_v30 (broadcastInDim S4096x4096 ![] bcast_S_S4096x4096 : (⟨S_, .f32⟩ : BufTy).Contents (Elt F) → (⟨S4096x4096, .f32⟩ : BufTy).Contents (Elt F)),
    binary main_v29 main_v30 main_v31 (maximumf : (⟨S4096x4096, .f32⟩ : BufTy).Contents (Elt F) → (⟨S4096x4096, .f32⟩ : BufTy).Contents (Elt F) → (⟨S4096x4096, .f32⟩ : BufTy).Contents (Elt F)) ]

/-- Operations 72 … 91 of 122. -/
abbrev opsF : List (HloOp τ sig (Elt F)) :=
  [
    unary main_v9 main_v32 (Host.negf : (⟨S4096x4096, .f32⟩ : BufTy).Contents (Elt F) → (⟨S4096x4096, .f32⟩ : BufTy).Contents (Elt F)),
    TRef.unary (.of main_v32 : StableHlo.TRef sig ⟨S4096x4096, .f32⟩) main_call3.v0 Host.negf,
    TRef.nullary main_call3.call0.cst (constant S_ .f32 0x00000000#32),
    TRef.unary main_call3.call0.cst main_call3.call0.v0 (broadcastInDim S4096x4096 ![] bcast_S_S4096x4096),
    TRef.binary main_call3.v0 main_call3.call0.v0 main_call3.call0.v1 maximumf,
    TRef.unary main_call3.call0.cst main_call3.call0.v2 (broadcastInDim S4096x4096 ![] bcast_S_S4096x4096),
    TRef.binary main_call3.v0 main_call3.call0.v2 main_call3.call0.v3 subf,
    TRef.binary main_call3.call0.v3 main_call3.call0.v3 main_call3.call0.v4 (cmpf .une),
    TRef.unary main_call3.call0.cst main_call3.call0.v5 (broadcastInDim S4096x4096 ![] bcast_S_S4096x4096),
    TRef.binary main_call3.v0 main_call3.call0.v5 main_call3.call0.v6 addf,
    TRef.unary main_call3.call0.v3 main_call3.call0.v7 Host.absf,
    TRef.unary main_call3.call0.v7 main_call3.call0.v8 Host.negf,
    TRef.unary main_call3.call0.v8 main_call3.call0.v9 Host.exp,
    TRef.unary main_call3.call0.v9 main_call3.call0.v10 Host.log1p,
    TRef.binary main_call3.call0.v1 main_call3.call0.v10 main_call3.call0.v11 addf,
    TRef.ternary main_call3.call0.v4 main_call3.call0.v6 main_call3.call0.v11 main_call3.call0.v12 select,
    TRef.unary main_call3.call0.v12 main_call3.v2 Host.negf,
    nullary main_cst_2 (constant S_ .f32 0xC2C80000#32),
    unary main_cst_2 main_v34 (broadcastInDim S4096x4096 ![] bcast_S_S4096x4096 : (⟨S_, .f32⟩ : BufTy).Contents (Elt F) → (⟨S4096x4096, .f32⟩ : BufTy).Contents (Elt F)),
    binary main_v33 main_v34 main_v35 (maximumf : (⟨S4096x4096, .f32⟩ : BufTy).Contents (Elt F) → (⟨S4096x4096, .f32⟩ : BufTy).Contents (Elt F) → (⟨S4096x4096, .f32⟩ : BufTy).Contents (Elt F)) ]

/-- Operations 92 … 108 of 122. -/
abbrev opsG : List (HloOp τ sig (Elt F)) :=
  [
    binary main_v23 main_v31 main_v36 (mulf : (⟨S4096x4096, .f32⟩ : BufTy).Contents (Elt F) → (⟨S4096x4096, .f32⟩ : BufTy).Contents (Elt F) → (⟨S4096x4096, .f32⟩ : BufTy).Contents (Elt F)),
    nullary main_cst_3 (constant S_ .f32 0x3F800000#32),
    unary main_cst_3 main_v37 (broadcastInDim S4096x4096 ![] bcast_S_S4096x4096 : (⟨S_, .f32⟩ : BufTy).Contents (Elt F) → (⟨S4096x4096, .f32⟩ : BufTy).Contents (Elt F)),
    binary main_v37 main_v23 main_v38 (subf : (⟨S4096x4096, .f32⟩ : BufTy).Contents (Elt F) → (⟨S4096x4096, .f32⟩ : BufTy).Contents (Elt F) → (⟨S4096x4096, .f32⟩ : BufTy).Contents (Elt F)),
    binary main_v38 main_v35 main_v39 (mulf : (⟨S4096x4096, .f32⟩ : BufTy).Contents (Elt F) → (⟨S4096x4096, .f32⟩ : BufTy).Contents (Elt F) → (⟨S4096x4096, .f32⟩ : BufTy).Contents (Elt F)),
    binary main_v36 main_v39 main_v40 (addf : (⟨S4096x4096, .f32⟩ : BufTy).Contents (Elt F) → (⟨S4096x4096, .f32⟩ : BufTy).Contents (Elt F) → (⟨S4096x4096, .f32⟩ : BufTy).Contents (Elt F)),
    unary main_v40 main_v41 (Host.negf : (⟨S4096x4096, .f32⟩ : BufTy).Contents (Elt F) → (⟨S4096x4096, .f32⟩ : BufTy).Contents (Elt F)),
    nullary main_cst_4 (constant S_ .f32 0x00000000#32),
    unary main_cst_4 main_v42 (broadcastInDim S4096x4096 ![] bcast_S_S4096x4096 : (⟨S_, .f32⟩ : BufTy).Contents (Elt F) → (⟨S4096x4096, .f32⟩ : BufTy).Contents (Elt F)),
    binary main_v23 main_v42 main_v43 (cmpf .ogt : (⟨S4096x4096, .f32⟩ : BufTy).Contents (Elt F) → (⟨S4096x4096, .f32⟩ : BufTy).Contents (Elt F) → (⟨S4096x4096, .i1⟩ : BufTy).Contents (Elt F)),
    nullary main_cst_5 (constant S_ .f32 0x00000000#32),
    nullary main_cst_6 (constant S_ .f32 0x42C80000#32),
    TRef.unary (.of main_cst_5 : StableHlo.TRef sig ⟨S_, .f32⟩) main_call4.v0 (broadcastInDim S4096x4096 ![] bcast_S_S4096x4096),
    TRef.unary (.of main_cst_6 : StableHlo.TRef sig ⟨S_, .f32⟩) main_call4.v1 (broadcastInDim S4096x4096 ![] bcast_S_S4096x4096),
    TRef.ternary (.of main_v43 : StableHlo.TRef sig ⟨S4096x4096, .i1⟩) main_call4.v0 main_call4.v1 main_call4.v2 select,
    TRef.unary (.of main_v44 : StableHlo.TRef sig ⟨S4096x4096, .f32⟩) main_call5.v0 id,
    TRef.ternary (.of main_v28 : StableHlo.TRef sig ⟨S4096x4096, .i1⟩) (.of main_v41 : StableHlo.TRef sig ⟨S4096x4096, .f32⟩) main_call5.v0 main_call5.v1 select ]

/-- Operations 109 … 122 of 122. -/
abbrev opsH : List (HloOp τ sig (Elt F)) :=
  [
    binary main_v45 main_v23 main_v46 (mulf : (⟨S4096x4096, .f32⟩ : BufTy).Contents (Elt F) → (⟨S4096x4096, .f32⟩ : BufTy).Contents (Elt F) → (⟨S4096x4096, .f32⟩ : BufTy).Contents (Elt F)),
    nullary main_cst_7 (constant S_ .f32 0x00000000#32),
    binary main_v46 main_cst_7 main_v47 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_8 (constant S_ .f32 0x3F800000#32),
    unary main_cst_8 main_v48 (broadcastInDim S4096x4096 ![] bcast_S_S4096x4096 : (⟨S_, .f32⟩ : BufTy).Contents (Elt F) → (⟨S4096x4096, .f32⟩ : BufTy).Contents (Elt F)),
    binary main_v48 main_v23 main_v49 (subf : (⟨S4096x4096, .f32⟩ : BufTy).Contents (Elt F) → (⟨S4096x4096, .f32⟩ : BufTy).Contents (Elt F) → (⟨S4096x4096, .f32⟩ : BufTy).Contents (Elt F)),
    binary main_v45 main_v49 main_v50 (mulf : (⟨S4096x4096, .f32⟩ : BufTy).Contents (Elt F) → (⟨S4096x4096, .f32⟩ : BufTy).Contents (Elt F) → (⟨S4096x4096, .f32⟩ : BufTy).Contents (Elt F)),
    nullary main_cst_9 (constant S_ .f32 0x00000000#32),
    binary main_v50 main_cst_9 main_v51 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_10 (constant S_ .f32 0x4A7FE000#32),
    binary main_v47 main_cst_10 main_v52 (Host.divf : (⟨S_, .f32⟩ : BufTy).Contents (Elt F) → (⟨S_, .f32⟩ : BufTy).Contents (Elt F) → (⟨S_, .f32⟩ : BufTy).Contents (Elt F)),
    nullary main_cst_11 (constant S_ .f32 0x4A800000#32),
    binary main_v51 main_cst_11 main_v53 (Host.divf : (⟨S_, .f32⟩ : BufTy).Contents (Elt F) → (⟨S_, .f32⟩ : BufTy).Contents (Elt F) → (⟨S_, .f32⟩ : BufTy).Contents (Elt F)),
    binary main_v52 main_v53 main_v54 (addf : (⟨S_, .f32⟩ : BufTy).Contents (Elt F) → (⟨S_, .f32⟩ : BufTy).Contents (Elt F) → (⟨S_, .f32⟩ : BufTy).Contents (Elt F)) ]

/-- @main's 122 operations, in order. -/
abbrev ops : List (HloOp τ sig (Elt F)) :=
  opsA ++ (opsB ++ (opsC ++ (opsD ++ (opsE ++ (opsF ++ (opsG ++ opsH))))))

set_option maxRecDepth 8192 in
set_option maxHeartbeats 4000000 in
/-- @main is that straight line: the functions' definitions unfolded at their calls, both sides are one chain of
    steps once sequencing is reassociated. -/
theorem main_eq (c : Dev nD) : main (F := F) c = seq ops := by
  simp only [main, main_part0, main_part1, fn_norm.body, fn_where.body, fn_floor_divide.body, fn_softplus.body, fn_log_sigmoid.body, fn_where_0.body, fn_where_1.body,
    ops, opsA, opsB, opsC, opsD, opsE, opsF, opsG, opsH,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
set_option maxRecDepth 8192 in
theorem opsB_sub : (opsB : List (HloOp τ sig (Elt F))).Forall fun op => op.bufs ⊆ tcRefs τ sig :=
  ⟨unary_bufs_sub .., binary_bufs_sub .., nullary_bufs_sub .., unary_bufs_sub .., binary_bufs_sub ..⟩
set_option maxRecDepth 8192 in
theorem opsC_sub : (opsC : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
set_option maxRecDepth 8192 in
theorem opsD_sub : (opsD : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., unary_bufs_sub .., binary_bufs_sub .., binary_bufs_sub .., unary_bufs_sub .., unary_bufs_sub .., unary_bufs_sub .., unary_bufs_sub .., unary_bufs_sub .., binary_bufs_sub ..⟩
set_option maxRecDepth 8192 in
theorem opsE_sub : (opsE : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., unary_bufs_sub .., binary_bufs_sub ..⟩
set_option maxRecDepth 8192 in
theorem opsF_sub : (opsF : List (HloOp τ sig (Elt F))).Forall fun op => op.bufs ⊆ tcRefs τ sig :=
  ⟨unary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., unary_bufs_sub .., binary_bufs_sub ..⟩
set_option maxRecDepth 8192 in
theorem opsG_sub : (opsG : List (HloOp τ sig (Elt F))).Forall fun op => op.bufs ⊆ tcRefs τ sig :=
  ⟨binary_bufs_sub .., nullary_bufs_sub .., unary_bufs_sub .., binary_bufs_sub .., binary_bufs_sub .., binary_bufs_sub .., unary_bufs_sub .., nullary_bufs_sub .., unary_bufs_sub .., binary_bufs_sub .., nullary_bufs_sub .., nullary_bufs_sub .., unary_bufs_sub .., unary_bufs_sub .., ternary_bufs_sub .., unary_bufs_sub .., ternary_bufs_sub ..⟩
set_option maxRecDepth 8192 in
theorem opsH_sub : (opsH : List (HloOp τ sig (Elt F))).Forall fun op => op.bufs ⊆ tcRefs τ sig :=
  ⟨binary_bufs_sub .., nullary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp opsA_sub op h,
      List.forall_iff_forall_mem.mp opsB_sub op h,
      List.forall_iff_forall_mem.mp opsC_sub op h,
      List.forall_iff_forall_mem.mp opsD_sub op h,
      List.forall_iff_forall_mem.mp opsE_sub op h,
      List.forall_iff_forall_mem.mp opsF_sub op h,
      List.forall_iff_forall_mem.mp opsG_sub op h,
      List.forall_iff_forall_mem.mp opsH_sub op h]

set_option maxRecDepth 8192 in
theorem opsA_fresh : ∀ op ∈ (opsA : List (HloOp τ sig (Elt F))), op.fresh = ∅ := by
  intro _ h; (repeat (cases h with | head => rfl | tail _ h => ?_)); exact nomatch h
set_option maxRecDepth 8192 in
theorem opsB_fresh : ∀ op ∈ (opsB : List (HloOp τ sig (Elt F))), op.fresh = ∅ := by
  intro _ h; (repeat (cases h with | head => rfl | tail _ h => ?_)); exact nomatch h
set_option maxRecDepth 8192 in
theorem opsC_fresh : ∀ op ∈ (opsC : List (HloOp τ sig (Elt F))), op.fresh = ∅ := by
  intro _ h; (repeat (cases h with | head => rfl | tail _ h => ?_)); exact nomatch h
set_option maxRecDepth 8192 in
theorem opsD_fresh : ∀ op ∈ (opsD : List (HloOp τ sig (Elt F))), op.fresh = ∅ := by
  intro _ h; (repeat (cases h with | head => rfl | tail _ h => ?_)); exact nomatch h
set_option maxRecDepth 8192 in
theorem opsE_fresh : ∀ op ∈ (opsE : List (HloOp τ sig (Elt F))), op.fresh = ∅ := by
  intro _ h; (repeat (cases h with | head => rfl | tail _ h => ?_)); exact nomatch h
set_option maxRecDepth 8192 in
theorem opsF_fresh : ∀ op ∈ (opsF : List (HloOp τ sig (Elt F))), op.fresh = ∅ := by
  intro _ h; (repeat (cases h with | head => rfl | tail _ h => ?_)); exact nomatch h
set_option maxRecDepth 8192 in
theorem opsG_fresh : ∀ op ∈ (opsG : List (HloOp τ sig (Elt F))), op.fresh = ∅ := by
  intro _ h; (repeat (cases h with | head => rfl | tail _ h => ?_)); exact nomatch h
set_option maxRecDepth 8192 in
theorem opsH_fresh : ∀ op ∈ (opsH : List (HloOp τ sig (Elt F))), op.fresh = ∅ := by
  intro _ h; (repeat (cases h with | head => rfl | tail _ h => ?_)); exact nomatch h

/-- No operation of the list leaves a result undetermined. -/
theorem ops_fresh : ∀ op ∈ (ops : List (HloOp τ sig (Elt F))), op.fresh = ∅ := by
  intro op h
  simp only [ops, List.mem_append] at h
  rcases h with h | h | h | h | h | h | h | h
  exacts [opsA_fresh op h, opsB_fresh op h, opsC_fresh op h, opsD_fresh op h, opsE_fresh op h, opsF_fresh op h, opsG_fresh op h, opsH_fresh op h]

/-- The fold over two lists in a row is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

end Cert.ReferenceIdeal.RefRun

end
-- ==== Proof.RefRun2.lean ====
/- The buffer contents after each stage of the reference's list of operations, read at the buffers later stages use:
  each is the whole-array term of the arguments that the stage's operations compose, and a buffer a stage does
  not write keeps what it held.
-/
import proofs.«117261_j20804821582530_1_alg».proof.Proof.RefRun1
import proofs.«117261_j20804821582530_1_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Stage A: operations 1 … 11 -/

/-- The buffer contents after stage A. -/
def valA (V0 : Valuation τ sig (Elt F)) : Valuation τ sig (Elt F) := after opsA V0
/-- The buffers stage A writes. -/
abbrev opsA_W : List (Ref sig .tc) := [main_v0, main_call0_v0, main_call0_cst, main_call0_v1, main_call0_v2, main_v1, main_cst, main_v2, main_v3, main_v4, main_v5]
set_option maxRecDepth 8192 in
theorem opsA_writes : (opsA : List (HloOp τ sig (Elt F))).Forall fun op => op.writes ⊆ (opsA_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stage A does not write keeps its contents through it. -/
theorem valA_keep (V0 : Valuation τ sig (Elt F)) (r : Ref sig .tc) (h : r ∉ opsA_W) :
    valA V0 (Proc.devRef .tc r) = V0 (Proc.devRef .tc r) :=
  after_of_writes_sub opsA _ opsA_writes h
theorem valA_main_arg0 (V0 : Valuation τ sig (Elt F)) : valA V0 (no_index (Proc.devRef .tc main_arg0)) = V0 (Proc.devRef .tc main_arg0) :=
  valA_keep V0 main_arg0 (by decide)
theorem valA_main_arg1 (V0 : Valuation τ sig (Elt F)) : valA V0 (no_index (Proc.devRef .tc main_arg1)) = V0 (Proc.devRef .tc main_arg1) :=
  valA_keep V0 main_arg1 (by decide)
set_option maxRecDepth 8192 in
set_option maxHeartbeats 2000000 in
theorem valA_main_v5 (V0 : Valuation τ sig (Elt Ideal)) : valA V0 (no_index (Proc.devRef .tc main_v5)) = RefTerm.unitRows (V0 (Proc.devRef .tc main_arg0)) (V0 (Proc.devRef .tc main_arg1)) := by
  unfold valA
  simp only [opsA]
  after_results_simp
  rfl

/-! ## Stage B: operations 12 … 16 -/

/-- The buffer contents after stage B. -/
def valB (V0 : Valuation τ sig (Elt F)) : Valuation τ sig (Elt F) := after opsB (valA V0)
/-- The buffers stage B writes. -/
abbrev opsB_W : List (Ref sig .tc) := [main_v6, main_v7, main_cst_0, main_v8, main_v9]
set_option maxRecDepth 8192 in
theorem opsB_writes : (opsB : List (HloOp τ sig (Elt F))).Forall fun op => op.writes ⊆ (opsB_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stage B does not write keeps its contents through it. -/
theorem valB_keep (V0 : Valuation τ sig (Elt F)) (r : Ref sig .tc) (h : r ∉ opsB_W) :
    valB V0 (Proc.devRef .tc r) = (valA V0) (Proc.devRef .tc r) :=
  after_of_writes_sub opsB _ opsB_writes h
theorem valB_main_arg0 (V0 : Valuation τ sig (Elt F)) : valB V0 (no_index (Proc.devRef .tc main_arg0)) = V0 (Proc.devRef .tc main_arg0) :=
  (valB_keep V0 main_arg0 (by decide)).trans (valA_main_arg0 V0)
theorem valB_main_arg1 (V0 : Valuation τ sig (Elt F)) : valB V0 (no_index (Proc.devRef .tc main_arg1)) = V0 (Proc.devRef .tc main_arg1) :=
  (valB_keep V0 main_arg1 (by decide)).trans (valA_main_arg1 V0)
set_option maxRecDepth 8192 in
set_option maxHeartbeats 2000000 in
theorem valB_main_v9 (V0 : Valuation τ sig (Elt Ideal)) : valB V0 (no_index (Proc.devRef .tc main_v9)) = RefTerm.scaled (RefTerm.unitRows (V0 (Proc.devRef .tc main_arg0)) (V0 (Proc.devRef .tc main_arg1))) := by
  unfold valB
  simp only [opsB]
  after_results_simp
  simp only [valA_main_v5] <;> rfl

/-! ## Stage C: operations 17 … 35 -/

/-- The buffer contents after stage C. -/
def valC (V0 : Valuation τ sig (Elt F)) : Valuation τ sig (Elt F) := after opsC (valB V0)
/-- The buffers stage C writes. -/
abbrev opsC_W : List (Ref sig .tc) := [main_v10, main_c, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v11]
set_option maxRecDepth 8192 in
theorem opsC_writes : (opsC : List (HloOp τ sig (Elt F))).Forall fun op => op.writes ⊆ (opsC_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stage C does not write keeps its contents through it. -/
theorem valC_keep (V0 : Valuation τ sig (Elt F)) (r : Ref sig .tc) (h : r ∉ opsC_W) :
    valC V0 (Proc.devRef .tc r) = (valB V0) (Proc.devRef .tc r) :=
  after_of_writes_sub opsC _ opsC_writes h
theorem valC_main_arg0 (V0 : Valuation τ sig (Elt F)) : valC V0 (no_index (Proc.devRef .tc main_arg0)) = V0 (Proc.devRef .tc main_arg0) :=
  (valC_keep V0 main_arg0 (by decide)).trans (valB_main_arg0 V0)
theorem valC_main_arg1 (V0 : Valuation τ sig (Elt F)) : valC V0 (no_index (Proc.devRef .tc main_arg1)) = V0 (Proc.devRef .tc main_arg1) :=
  (valC_keep V0 main_arg1 (by decide)).trans (valB_main_arg1 V0)
theorem valC_main_v9 (V0 : Valuation τ sig (Elt Ideal)) : valC V0 (no_index (Proc.devRef .tc main_v9)) = RefTerm.scaled (RefTerm.unitRows (V0 (Proc.devRef .tc main_arg0)) (V0 (Proc.devRef .tc main_arg1))) :=
  (valC_keep V0 main_v9 (by decide)).trans (valB_main_v9 V0)
set_option maxRecDepth 8192 in
set_option maxHeartbeats 2000000 in
theorem valC_main_v10 (V0 : Valuation τ sig (Elt Ideal)) : valC V0 (no_index (Proc.devRef .tc main_v10)) = RefTerm.rowIx := by
  unfold valC
  simp only [opsC]
  after_results_simp
  rfl
set_option maxRecDepth 8192 in
set_option maxHeartbeats 2000000 in
theorem valC_main_v11 (V0 : Valuation τ sig (Elt Ideal)) : valC V0 (no_index (Proc.devRef .tc main_v11)) = RefTerm.group := by
  unfold valC
  simp only [opsC]
  after_results_simp
  rfl

/-! ## Stage D: operations 36 … 52 -/

/-- The buffer contents after stage D. -/
def valD (V0 : Valuation τ sig (Elt F)) : Valuation τ sig (Elt F) := after opsD (valC V0)
/-- The buffers stage D writes. -/
abbrev opsD_W : List (Ref sig .tc) := [main_v12, main_v13, main_v14, main_v15, main_v16, main_v17, main_v18, main_v19, main_v20, main_v21, main_v22, main_v23, main_v24, main_v25, main_v26, main_v27, main_v28]
set_option maxRecDepth 8192 in
theorem opsD_writes : (opsD : List (HloOp τ sig (Elt F))).Forall fun op => op.writes ⊆ (opsD_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stage D does not write keeps its contents through it. -/
theorem valD_keep (V0 : Valuation τ sig (Elt F)) (r : Ref sig .tc) (h : r ∉ opsD_W) :
    valD V0 (Proc.devRef .tc r) = (valC V0) (Proc.devRef .tc r) :=
  after_of_writes_sub opsD _ opsD_writes h
theorem valD_main_arg0 (V0 : Valuation τ sig (Elt F)) : valD V0 (no_index (Proc.devRef .tc main_arg0)) = V0 (Proc.devRef .tc main_arg0) :=
  (valD_keep V0 main_arg0 (by decide)).trans (valC_main_arg0 V0)
theorem valD_main_arg1 (V0 : Valuation τ sig (Elt F)) : valD V0 (no_index (Proc.devRef .tc main_arg1)) = V0 (Proc.devRef .tc main_arg1) :=
  (valD_keep V0 main_arg1 (by decide)).trans (valC_main_arg1 V0)
theorem valD_main_v9 (V0 : Valuation τ sig (Elt Ideal)) : valD V0 (no_index (Proc.devRef .tc main_v9)) = RefTerm.scaled (RefTerm.unitRows (V0 (Proc.devRef .tc main_arg0)) (V0 (Proc.devRef .tc main_arg1))) :=
  (valD_keep V0 main_v9 (by decide)).trans (valC_main_v9 V0)
set_option maxRecDepth 8192 in
set_option maxHeartbeats 2000000 in
theorem valD_main_v23 (V0 : Valuation τ sig (Elt Ideal)) : valD V0 (no_index (Proc.devRef .tc main_v23)) = RefTerm.target := by
  unfold valD
  simp only [opsD]
  after_results_simp
  simp only [valC_main_v10, valC_main_v11] <;> rfl
set_option maxRecDepth 8192 in
set_option maxHeartbeats 2000000 in
theorem valD_main_v28 (V0 : Valuation τ sig (Elt Ideal)) : valD V0 (no_index (Proc.devRef .tc main_v28)) = RefTerm.upper := by
  unfold valD
  simp only [opsD]
  after_results_simp
  simp only [valC_main_v10, valC_main_v11] <;> rfl

/-! ## Stage E: operations 53 … 71 -/

/-- The buffer contents after stage E. -/
def valE (V0 : Valuation τ sig (Elt F)) : Valuation τ sig (Elt F) := after opsE (valD V0)
/-- The buffers stage E writes. -/
abbrev opsE_W : List (Ref sig .tc) := [main_call2_v0, main_call2_call0_cst, main_call2_call0_v0, main_call2_call0_v1, main_call2_call0_v2, main_call2_call0_v3, main_call2_call0_v4, main_call2_call0_v5, main_call2_call0_v6, main_call2_call0_v7, main_call2_call0_v8, main_call2_call0_v9, main_call2_call0_v10, main_call2_call0_v11, main_call2_v1, main_v29, main_cst_1, main_v30, main_v31]
set_option maxRecDepth 8192 in
theorem opsE_writes : (opsE : List (HloOp τ sig (Elt F))).Forall fun op => op.writes ⊆ (opsE_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stage E does not write keeps its contents through it. -/
theorem valE_keep (V0 : Valuation τ sig (Elt F)) (r : Ref sig .tc) (h : r ∉ opsE_W) :
    valE V0 (Proc.devRef .tc r) = (valD V0) (Proc.devRef .tc r) :=
  after_of_writes_sub opsE _ opsE_writes h
theorem valE_main_arg0 (V0 : Valuation τ sig (Elt F)) : valE V0 (no_index (Proc.devRef .tc main_arg0)) = V0 (Proc.devRef .tc main_arg0) :=
  (valE_keep V0 main_arg0 (by decide)).trans (valD_main_arg0 V0)
theorem valE_main_arg1 (V0 : Valuation τ sig (Elt F)) : valE V0 (no_index (Proc.devRef .tc main_arg1)) = V0 (Proc.devRef .tc main_arg1) :=
  (valE_keep V0 main_arg1 (by decide)).trans (valD_main_arg1 V0)
theorem valE_main_v9 (V0 : Valuation τ sig (Elt Ideal)) : valE V0 (no_index (Proc.devRef .tc main_v9)) = RefTerm.scaled (RefTerm.unitRows (V0 (Proc.devRef .tc main_arg0)) (V0 (Proc.devRef .tc main_arg1))) :=
  (valE_keep V0 main_v9 (by decide)).trans (valD_main_v9 V0)
theorem valE_main_v23 (V0 : Valuation τ sig (Elt Ideal)) : valE V0 (no_index (Proc.devRef .tc main_v23)) = RefTerm.target :=
  (valE_keep V0 main_v23 (by decide)).trans (valD_main_v23 V0)
theorem valE_main_v28 (V0 : Valuation τ sig (Elt Ideal)) : valE V0 (no_index (Proc.devRef .tc main_v28)) = RefTerm.upper :=
  (valE_keep V0 main_v28 (by decide)).trans (valD_main_v28 V0)
set_option maxRecDepth 8192 in
set_option maxHeartbeats 2000000 in
theorem valE_main_v31 (V0 : Valuation τ sig (Elt Ideal)) : valE V0 (no_index (Proc.devRef .tc main_v31)) = RefTerm.logP (RefTerm.unitRows (V0 (Proc.devRef .tc main_arg0)) (V0 (Proc.devRef .tc main_arg1))) := by
  unfold valE
  simp only [opsE]
  after_results_simp
  simp only [valD_main_v9] <;> rfl

/-! ## Stage F: operations 72 … 91 -/

/-- The buffer contents after stage F. -/
def valF (V0 : Valuation τ sig (Elt F)) : Valuation τ sig (Elt F) := after opsF (valE V0)
/-- The buffers stage F writes. -/
abbrev opsF_W : List (Ref sig .tc) := [main_v32, main_call3_v0, main_call3_call0_cst, main_call3_call0_v0, main_call3_call0_v1, main_call3_call0_v2, main_call3_call0_v3, main_call3_call0_v4, main_call3_call0_v5, main_call3_call0_v6, main_call3_call0_v7, main_call3_call0_v8, main_call3_call0_v9, main_call3_call0_v10, main_call3_call0_v11, main_call3_v1, main_v33, main_cst_2, main_v34, main_v35]
set_option maxRecDepth 8192 in
theorem opsF_writes : (opsF : List (HloOp τ sig (Elt F))).Forall fun op => op.writes ⊆ (opsF_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stage F does not write keeps its contents through it. -/
theorem valF_keep (V0 : Valuation τ sig (Elt F)) (r : Ref sig .tc) (h : r ∉ opsF_W) :
    valF V0 (Proc.devRef .tc r) = (valE V0) (Proc.devRef .tc r) :=
  after_of_writes_sub opsF _ opsF_writes h
theorem valF_main_arg0 (V0 : Valuation τ sig (Elt F)) : valF V0 (no_index (Proc.devRef .tc main_arg0)) = V0 (Proc.devRef .tc main_arg0) :=
  (valF_keep V0 main_arg0 (by decide)).trans (valE_main_arg0 V0)
theorem valF_main_arg1 (V0 : Valuation τ sig (Elt F)) : valF V0 (no_index (Proc.devRef .tc main_arg1)) = V0 (Proc.devRef .tc main_arg1) :=
  (valF_keep V0 main_arg1 (by decide)).trans (valE_main_arg1 V0)
theorem valF_main_v23 (V0 : Valuation τ sig (Elt Ideal)) : valF V0 (no_index (Proc.devRef .tc main_v23)) = RefTerm.target :=
  (valF_keep V0 main_v23 (by decide)).trans (valE_main_v23 V0)
theorem valF_main_v28 (V0 : Valuation τ sig (Elt Ideal)) : valF V0 (no_index (Proc.devRef .tc main_v28)) = RefTerm.upper :=
  (valF_keep V0 main_v28 (by decide)).trans (valE_main_v28 V0)
theorem valF_main_v31 (V0 : Valuation τ sig (Elt Ideal)) : valF V0 (no_index (Proc.devRef .tc main_v31)) = RefTerm.logP (RefTerm.unitRows (V0 (Proc.devRef .tc main_arg0)) (V0 (Proc.devRef .tc main_arg1))) :=
  (valF_keep V0 main_v31 (by decide)).trans (valE_main_v31 V0)
set_option maxRecDepth 8192 in
set_option maxHeartbeats 2000000 in
theorem valF_main_v35 (V0 : Valuation τ sig (Elt Ideal)) : valF V0 (no_index (Proc.devRef .tc main_v35)) = RefTerm.logQ (RefTerm.unitRows (V0 (Proc.devRef .tc main_arg0)) (V0 (Proc.devRef .tc main_arg1))) := by
  unfold valF
  simp only [opsF]
  after_results_simp
  simp only [valE_main_v9] <;> rfl

/-! ## Stage G: operations 92 … 108 -/

/-- The buffer contents after stage G. -/
def valG (V0 : Valuation τ sig (Elt F)) : Valuation τ sig (Elt F) := after opsG (valF V0)
/-- The buffers stage G writes. -/
abbrev opsG_W : List (Ref sig .tc) := [main_v36, main_cst_3, main_v37, main_v38, main_v39, main_v40, main_v41, main_cst_4, main_v42, main_v43, main_cst_5, main_cst_6, main_call4_v0, main_call4_v1, main_v44, main_call5_v0, main_v45]
set_option maxRecDepth 8192 in
theorem opsG_writes : (opsG : List (HloOp τ sig (Elt F))).Forall fun op => op.writes ⊆ (opsG_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stage G does not write keeps its contents through it. -/
theorem valG_keep (V0 : Valuation τ sig (Elt F)) (r : Ref sig .tc) (h : r ∉ opsG_W) :
    valG V0 (Proc.devRef .tc r) = (valF V0) (Proc.devRef .tc r) :=
  after_of_writes_sub opsG _ opsG_writes h
theorem valG_main_arg0 (V0 : Valuation τ sig (Elt F)) : valG V0 (no_index (Proc.devRef .tc main_arg0)) = V0 (Proc.devRef .tc main_arg0) :=
  (valG_keep V0 main_arg0 (by decide)).trans (valF_main_arg0 V0)
theorem valG_main_arg1 (V0 : Valuation τ sig (Elt F)) : valG V0 (no_index (Proc.devRef .tc main_arg1)) = V0 (Proc.devRef .tc main_arg1) :=
  (valG_keep V0 main_arg1 (by decide)).trans (valF_main_arg1 V0)
theorem valG_main_v23 (V0 : Valuation τ sig (Elt Ideal)) : valG V0 (no_index (Proc.devRef .tc main_v23)) = RefTerm.target :=
  (valG_keep V0 main_v23 (by decide)).trans (valF_main_v23 V0)
set_option maxRecDepth 8192 in
set_option maxHeartbeats 2000000 in
theorem valG_main_v45 (V0 : Valuation τ sig (Elt Ideal)) : valG V0 (no_index (Proc.devRef .tc main_v45)) = RefTerm.lossMat (RefTerm.unitRows (V0 (Proc.devRef .tc main_arg0)) (V0 (Proc.devRef .tc main_arg1))) := by
  unfold valG
  simp only [opsG]
  after_results_simp
  simp only [valF_main_v23, valF_main_v31, valF_main_v35, valF_main_v28] <;> rfl

/-! ## Stage H: operations 109 … 122 -/

/-- The buffer contents after stage H. -/
def valH (V0 : Valuation τ sig (Elt F)) : Valuation τ sig (Elt F) := after opsH (valG V0)
/-- The buffers stage H writes. -/
abbrev opsH_W : List (Ref sig .tc) := [main_v46, main_cst_7, main_v47, main_cst_8, main_v48, main_v49, main_v50, main_cst_9, main_v51, main_cst_10, main_v52, main_cst_11, main_v53, main_v54]
set_option maxRecDepth 8192 in
theorem opsH_writes : (opsH : List (HloOp τ sig (Elt F))).Forall fun op => op.writes ⊆ (opsH_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stage H does not write keeps its contents through it. -/
theorem valH_keep (V0 : Valuation τ sig (Elt F)) (r : Ref sig .tc) (h : r ∉ opsH_W) :
    valH V0 (Proc.devRef .tc r) = (valG V0) (Proc.devRef .tc r) :=
  after_of_writes_sub opsH _ opsH_writes h
theorem valH_main_arg0 (V0 : Valuation τ sig (Elt F)) : valH V0 (no_index (Proc.devRef .tc main_arg0)) = V0 (Proc.devRef .tc main_arg0) :=
  (valH_keep V0 main_arg0 (by decide)).trans (valG_main_arg0 V0)
theorem valH_main_arg1 (V0 : Valuation τ sig (Elt F)) : valH V0 (no_index (Proc.devRef .tc main_arg1)) = V0 (Proc.devRef .tc main_arg1) :=
  (valH_keep V0 main_arg1 (by decide)).trans (valG_main_arg1 V0)
set_option maxRecDepth 8192 in
set_option maxHeartbeats 2000000 in
theorem valH_main_v54 (V0 : Valuation τ sig (Elt Ideal)) : valH V0 (no_index (Proc.devRef .tc main_v54)) = RefTerm.out (RefTerm.unitRows (V0 (Proc.devRef .tc main_arg0)) (V0 (Proc.devRef .tc main_arg1))) := by
  unfold valH
  simp only [opsH]
  after_results_simp
  simp only [valG_main_v45, valG_main_v23] <;> rfl

/-- The fold over the whole list is the last stage's contents. -/
theorem after_ops (V0 : Valuation τ sig (Elt F)) : after ops V0 = valH V0 := by
  simp only [ops, after_app]
  rfl

end Cert.ReferenceIdeal.RefRun

end
-- ==== Proof.RefRun.lean ====
/-
  The reference's run: from any memory with zero counters every weakly fair execution of @main terminates with the
  result buffer at the loss of the matrix of unit rows of the two arguments — the composed term of the 122
  operations, stage by stage — and the arguments unchanged.
-/
import proofs.«117261_j20804821582530_1_alg».proof.Proof.RefRun2

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 8192 in
/-- On every device, from any memory with zero counters: every weakly fair execution of @main terminates with the
    result at the loss of the unit rows of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v54) = RefTerm.out (RefTerm.unitRows (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v54).trans (by rw [after_ops]; exact valH_main_v54 (launchContents m c)),
      (h c main_arg0).trans (by rw [after_ops]; exact valH_main_arg0 (launchContents m c)),
      (h c main_arg1).trans (by rw [after_ops]; exact valH_main_arg1 (launchContents m c))⟩)
    (run_seq scopedRefs_eq scopedSems_eq defs main (fun _ => ops) main_eq (fun _ => ops_sub) m ρ (fun _ => ops_fresh))

end Cert.ReferenceIdeal.RefRun

end
-- ==== Proof.RefIndex.lean ====
/-
  The reference's integer side read at an index. The row numbers are the words of 0 … 4095; jax's floor division
  of a row number by 2048 (truncated quotient, corrected where the signs differ and the remainder is not zero) is
  the word of the natural quotient; so the target bit at (r, c) says that r and c lie in the same half and differ,
  and the signed comparison of the two row numbers says r < c. As floats the bits are 1 and 0.
-/
import proofs.«117261_j20804821582530_1_alg».proof.Proof.RefTerm
import proofs.«117261_j20804821582530_1_alg».proof.Proof.Spec
import Idealize.ShloMosaic.Lib.ValueLayout
import Idealize.ShloMosaic.Lib.IdealHost

noncomputable section

namespace Cert.ReferenceIdeal.RefValue

open Idealize.ShloMosaic Idealize.ShloMosaic.ValueIdx Cert.ReferenceIdeal Cert.ReferenceIdeal.Gen
open Cert.PairLoss (Pair tgt)

/-! ## Words -/

/-- The sign of a word as the reference computes it. -/
def sgn (x : BitVec 32) : BitVec 32 := if x = 0 then 0 else if x.msb then -1 else 1

/-- jax's floor division on one word: the truncated quotient, less one where the signs differ and the remainder is
    not zero. -/
def fdiv (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)

/-- On every row number the floor division by 2048 gives the word of the natural quotient: a finite check. -/
theorem fdiv_all :
    (List.range 4096).all (fun n => fdiv (BitVec.ofNat 32 n) 2048#32 == BitVec.ofNat 32 (n / 2048)) = true := by
  decide +kernel

theorem fdiv_word (n : Nat) (h : n < 4096) : fdiv (BitVec.ofNat 32 n) 2048#32 = BitVec.ofNat 32 (n / 2048) :=
  eq_of_beq (List.all_eq_true.mp fdiv_all n (List.mem_range.mpr h))

/-- A small natural is read back from its word. -/
theorem toNat_ofNat_small (a : Nat) (ha : a < 4096) : (BitVec.ofNat 32 a).toNat = a := by
  rw [BitVec.toNat_ofNat]; omega

/-- Words of small naturals are equal exactly when the naturals are. -/
theorem ofNat_beq (a b : Nat) (ha : a < 4096) (hb : b < 4096) :
    (BitVec.ofNat 32 a == BitVec.ofNat 32 b) = decide (a = b) := by
  by_cases h : a = b
  · subst h; simp
  · have hne : BitVec.ofNat 32 a ≠ BitVec.ofNat 32 b := fun e => h (by
      have := congrArg BitVec.toNat e
      rwa [toNat_ofNat_small a ha, toNat_ofNat_small b hb] at this)
    simp [hne, h]

/-- The signed order on words of small naturals is the order of the naturals. -/
theorem ofNat_slt (a b : Nat) (ha : a < 4096) (hb : b < 4096) :
    (BitVec.ofNat 32 a).slt (BitVec.ofNat 32 b) = decide (a < b) := by
  rw [BitVec.slt_eq_decide, BitVec.toInt_eq_toNat_of_lt (by rw [toNat_ofNat_small a ha]; omega),
    BitVec.toInt_eq_toNat_of_lt (by rw [toNat_ofNat_small b hb]; omega), toNat_ofNat_small a ha, toNat_ofNat_small b hb]
  exact decide_eq_decide.mpr Int.ofNat_lt

/-! ## The reference's integer arrays at an index -/

theorem rowIx_apply (r : Fin 4096) : RefTerm.rowIx (ix1 r) = BitVec.ofNat 32 r.val := rfl

theorem group_apply (r : Fin 4096) : RefTerm.group (ix1 r) = BitVec.ofNat 32 (r.val / 2048) := by
  have h : RefTerm.group (ix1 r) = fdiv (BitVec.ofNat 32 r.val) 2048#32 := rfl
  rw [h, fdiv_word r.val r.isLt]

/-- A vector spread down the columns reads its row's entry. -/
theorem asCol_apply (v : IVec S4096 32) (r c : Fin 4096) : RefTerm.asCol v (ix2 r c) = v (ix1 r) := by
  unfold RefTerm.asCol
  rw [broadcastInDim_apply _ _ _ (ix2 r c) (ix2 r (0 : Fin 1)) (fun a => match a with | ⟨0, _⟩ => rfl | ⟨1, _⟩ => rfl)]
  exact broadcastInDim_apply _ _ _ (ix2 r (0 : Fin 1)) (ix1 r) (fun a => match a with | ⟨0, _⟩ => rfl)

/-- A vector spread along the rows reads its column's entry. -/
theorem asRow_apply (v : IVec S4096 32) (r c : Fin 4096) : RefTerm.asRow v (ix2 r c) = v (ix1 c) := by
  unfold RefTerm.asRow
  rw [broadcastInDim_apply _ _ _ (ix2 r c) (ix2 (0 : Fin 1) c) (fun a => match a with | ⟨0, _⟩ => rfl | ⟨1, _⟩ => rfl)]
  exact broadcastInDim_apply _ _ _ (ix2 (0 : Fin 1) c) (ix1 c) (fun a => match a with | ⟨0, _⟩ => rfl)

/-- The target bit at (r, c): set exactly for a positive pair. -/
theorem targetBit_apply (r c : Fin 4096) : RefTerm.targetBit (ix2 r c) = if Pair r c then 1#1 else 0#1 := by
  have h : RefTerm.targetBit (ix2 r c)
      = IntOp.andi (IntOp.cmpi .eq (RefTerm.asCol RefTerm.group (ix2 r c)) (RefTerm.asRow RefTerm.group (ix2 r c)))
          (IntOp.cmpi .ne (RefTerm.asCol RefTerm.rowIx (ix2 r c)) (RefTerm.asRow RefTerm.rowIx (ix2 r c))) := rfl
  rw [h, asCol_apply, asRow_apply, asCol_apply, asRow_apply, group_apply, group_apply, rowIx_apply, rowIx_apply]
  have hr := r.isLt
  have hc := c.isLt
  show BitVec.ofBool (BitVec.ofNat 32 (r.val / 2048) == BitVec.ofNat 32 (c.val / 2048))
      &&& BitVec.ofBool (BitVec.ofNat 32 r.val != BitVec.ofNat 32 c.val) = _
  rw [ofNat_beq _ _ (by omega) (by omega), bne, ofNat_beq _ _ hr hc]
  unfold Pair
  by_cases h1 : r.val / 2048 = c.val / 2048 <;> by_cases h2 : r.val = c.val <;> simp [h1, h2]

/-- The target matrix at (r, c) is the loss's target. -/
theorem target_apply (r c : Fin 4096) : RefTerm.target (ix2 r c) = tgt r c := by
  have h : RefTerm.target (ix2 r c) = (((RefTerm.targetBit (ix2 r c)).toNat : ℝ) : EReal) := rfl
  rw [h, targetBit_apply]
  unfold tgt
  by_cases hp : Pair r c
  · rw [if_pos hp, if_pos hp]; norm_num
  · rw [if_neg hp, if_neg hp]; norm_num

/-- The strictly-upper mask at (r, c): set exactly when r < c. -/
theorem upper_apply (r c : Fin 4096) : RefTerm.upper (ix2 r c) = if r.val < c.val then 1#1 else 0#1 := by
  have h : RefTerm.upper (ix2 r c)
      = IntOp.cmpi .slt (RefTerm.asCol RefTerm.rowIx (ix2 r c)) (RefTerm.asRow RefTerm.rowIx (ix2 r c)) := rfl
  rw [h, asCol_apply, asRow_apply, rowIx_apply, rowIx_apply]
  show BitVec.ofBool ((BitVec.ofNat 32 r.val).slt (BitVec.ofNat 32 c.val)) = _
  rw [ofNat_slt _ _ r.isLt c.isLt]
  by_cases h1 : r.val < c.val <;> simp [h1]

end Cert.ReferenceIdeal.RefValue

end
-- ==== Proof.LitWords.lean ====
/-
  The float words whose VALUE the mathematics uses, as the extended reals they denote: the words of 0, 1, 2
  and 1/2, and the fact that dividing by the word of 1/2 is multiplying by the word of 2.
-/
import proofs.«117261_j20804821582530_1_alg».proof.Proof.Spec
import Idealize.ShloMosaic.PureOps.Ideal.Laws

noncomputable section

namespace Cert.PairLoss.Lit

open Idealize.ShloMosaic

/-- The word of +0.0 denotes 0. -/
theorem lit_zero : lit 0x00000000#32 = 0 := Ideal.ofBits_zero_f32

/-- The word of 1.0 denotes 1. -/
theorem lit_one : lit 0x3F800000#32 = 1 := by
  simp [Ideal.ofBits, Ideal.ieee, -EReal.coe_mul]; norm_num

/-- The word of 2.0 denotes the real 2. -/
theorem lit_two : lit 0x40000000#32 = ((2 : ℝ) : EReal) := by
  simp [Ideal.ofBits, Ideal.ieee, -EReal.coe_mul]; norm_num

/-- The word of 0.5 denotes the real 1/2. -/
theorem lit_half : lit 0x3F000000#32 = ((1 / 2 : ℝ) : EReal) := by
  simp [Ideal.ofBits, Ideal.ieee, -EReal.coe_mul]; norm_num

/-- Dividing by the word of 1/2 is multiplying by the word of 2, at every extended real. -/
theorem div_half (a : EReal) : Ideal.div a (lit 0x3F000000#32) = a * lit 0x40000000#32 := by
  rw [lit_half, lit_two, Ideal.div_coe (by norm_num)]
  norm_num

end Cert.PairLoss.Lit

end
-- ==== Proof.LogSig.lean ====
/-
  The log-sigmoid as jax computes it equals its direct form, at every extended real.

  jax writes log σ(u) as −softplus(−u), and softplus v as max v 0 + log1p (exp (−|v|)) (guarded by a
  self-comparison that never fires on a linear order). Over the reals log (1 + eᵛ) = max v 0 + log (1 + e^{−|v|});
  at the two infinities both sides are read off the operations' values there. Hence the two clamped log-sigmoids
  of the reference are the loss's `logP` and `logQ`.
-/
import proofs.«117261_j20804821582530_1_alg».proof.Proof.LitWords

noncomputable section

namespace Cert.PairLoss.LogSig

open Idealize.ShloMosaic
open Cert.PairLoss.Lit

/-- Over the reals: log (1 + eʳ) = max r 0 + log (1 + e^{−|r|}). -/
theorem real_softplus (r : ℝ) : max r 0 + Real.log (1 + Real.exp (-|r|)) = Real.log (1 + Real.exp r) := by
  rcases le_total 0 r with h | h
  · rw [max_eq_left h, abs_of_nonneg h]
    have h1 : (1 + Real.exp r) = Real.exp r * (1 + Real.exp (-r)) := by
      rw [mul_add, mul_one, ← Real.exp_add, add_neg_cancel, Real.exp_zero]; ring
    rw [h1, Real.log_mul (Real.exp_pos r).ne' (by positivity), Real.log_exp]
  · rw [max_eq_right h, abs_of_nonpos h, neg_neg, zero_add]

/-- The softplus identity at every extended real (|v| spelt max v (−v)). -/
theorem softplus_eq (v : EReal) :
    max v 0 + Ideal.log1p (Ideal.exp (-(max v (-v)))) = Ideal.log (1 + Ideal.exp v) := by
  have hlog1 : Ideal.log 1 = 0 := by
    rw [← EReal.coe_one, Ideal.log_coe, if_neg (by norm_num), Real.log_one, EReal.coe_zero]
  induction v using EReal.rec with
  | bot => simp [Ideal.log1p]
  | top =>
    simp only [Ideal.log1p, EReal.neg_top, max_eq_left bot_le, EReal.neg_top, Ideal.exp_bot, Ideal.exp_top, add_zero,
      hlog1, max_eq_left le_top, EReal.add_top_of_ne_bot (x := 1) (by decide), Ideal.log_top]
  | coe r =>
    have hpos : ∀ t : ℝ, ¬ (1 + Real.exp t ≤ 0) := fun t => not_le.mpr (by positivity)
    have hmax : ∀ a b : ℝ, max (a : EReal) (b : EReal) = ((max a b : ℝ) : EReal) :=
      fun a b => (EReal.coe_strictMono.monotone.map_max).symm
    have habs : max (r : EReal) (-(r : EReal)) = ((|r| : ℝ) : EReal) := by
      rw [← EReal.coe_neg, hmax, ← abs_eq_max_neg]
    rw [habs, ← EReal.coe_neg, Ideal.exp_coe, Ideal.exp_coe, Ideal.log1p, ← EReal.coe_one, ← EReal.coe_add,
      ← EReal.coe_add, Ideal.log_coe, Ideal.log_coe, if_neg (hpos _), if_neg (hpos _), ← EReal.coe_zero,
      hmax, ← EReal.coe_add, real_softplus]

/-- A value never differs from itself on a linear order. -/
theorem cmp_une_self (a : EReal) : Ideal.cmp .une a a = 0#1 := by simp [Ideal.cmp]

/-- The reference's softplus on one entry: the guarded form, with the word of zero subtracted and added. -/
def refSoftplus (v : EReal) : EReal :=
  Scalar.select (Ideal.cmp .une (v - lit 0x00000000#32) (v - lit 0x00000000#32)) (v + lit 0x00000000#32)
    (max v (lit 0x00000000#32)
      + Ideal.log1p (Ideal.exp (-(max (v - lit 0x00000000#32) (-(v - lit 0x00000000#32))))))

/-- The reference's log-sigmoid on one entry: −softplus (−z). -/
def refLogSigmoid (z : EReal) : EReal := -(refSoftplus (-z))

/-- The guard never fires and the shifts by zero vanish: the reference's softplus is log (1 + eᵛ). -/
theorem refSoftplus_eq (v : EReal) : refSoftplus v = Ideal.log (1 + Ideal.exp v) := by
  unfold refSoftplus
  rw [cmp_une_self, ValueIdx.select_zero, lit_zero, sub_zero, softplus_eq]

/-- The reference's log-sigmoid is the direct form 0 − log (1 + e^{0 − z}), the zero and the one as their words. -/
theorem refLogSigmoid_eq (z : EReal) :
    refLogSigmoid z = lit 0x00000000#32 - Ideal.log (lit 0x3F800000#32 + Ideal.exp (lit 0x00000000#32 - z)) := by
  unfold refLogSigmoid
  rw [refSoftplus_eq, lit_zero, lit_one, zero_sub, zero_sub]

/-- Clamped at the word of −100, the reference's log σ(z) is the loss's `logP`. -/
theorem refLogP (z : EReal) : max (refLogSigmoid z) (lit 0xC2C80000#32) = Cert.PairLoss.logP z := by
  rw [refLogSigmoid_eq]; rfl

/-- Clamped at the word of −100, the reference's log σ(−z) is the loss's `logQ`. -/
theorem refLogQ (z : EReal) : max (refLogSigmoid (-z)) (lit 0xC2C80000#32) = Cert.PairLoss.logQ z := by
  rw [refLogSigmoid_eq, show lit 0x00000000#32 - -z = z by rw [lit_zero, zero_sub, neg_neg]]; rfl

end Cert.PairLoss.LogSig

end
-- ==== Proof.RefValue.lean ====
/-
  The reference's value is the loss. Read at an index, the scaled Gram matrix is the scaled similarity z, the two
  clamped log-sigmoids are logP and logQ of it, the cross-entropy matrix and the constant below the diagonal make
  the loss matrix's entry, and the two host sums over the whole square are the double sums of the weighted entries;
  the two quotients by the pair counts and their sum are the same operations on both sides.
-/
import proofs.«117261_j20804821582530_1_alg».proof.Proof.RefIndex
import proofs.«117261_j20804821582530_1_alg».proof.Proof.LogSig
import Idealize.ShloMosaic.Lib.StackMember

noncomputable section

namespace Cert.ReferenceIdeal.RefValue

open Idealize.ShloMosaic Idealize.ShloMosaic.ValueIdx Cert.ReferenceIdeal Cert.ReferenceIdeal.Gen
open Cert.PairLoss (lit Pair tgt)
open Cert.PairLoss.Lit Cert.PairLoss.LogSig

/-! ## The similarities -/

/-- The reference's contraction is the plain product of a 4096 × 1024 by a 1024 × 4096 matrix. -/
theorem dot_eq_plain :
    dot_S4096x1024_S1024x4096_S4096x4096_1_0_0_1_n_n = DotDims.plain 4096 1024 4096 := rfl

/-- The scaled Gram matrix at (r, c) is the scaled similarity of rows r and c. -/
theorem scaled_apply (x : FVec Ideal S4096x1024 .f32) (r c : Fin 4096) :
    RefTerm.scaled x (ix2 r c) = Cert.PairLoss.z x r c := by
  have h : RefTerm.scaled x (ix2 r c)
      = Ideal.div (Host.dotGeneral (F := Ideal) (DotDims.plain 4096 1024 4096) none x
          (transpose S1024x4096 [1, 0] x transposes_S4096x1024_S1024x4096_1_0) (ix2 r c)) (lit 0x3F000000#32) := rfl
  rw [h, div_half, StackMember.dotGeneral_plain_apply]
  unfold Cert.PairLoss.z
  refine congrArg (· * lit 0x40000000#32) (Finset.sum_congr rfl fun k _ => ?_)
  rw [transpose_ix2_apply]

/-! ## The pointwise stages at an index -/

theorem logSigmoid_apply (u : FVec Ideal S4096x4096 .f32) (j : S4096x4096.Idx) :
    RefTerm.logSigmoid u j = refLogSigmoid (u j) := rfl

theorem logP_apply (x : FVec Ideal S4096x1024 .f32) (r c : Fin 4096) :
    RefTerm.logP x (ix2 r c) = Cert.PairLoss.logP (Cert.PairLoss.z x r c) := by
  have h : RefTerm.logP x (ix2 r c) = max (refLogSigmoid (RefTerm.scaled x (ix2 r c))) (lit 0xC2C80000#32) := rfl
  rw [h, scaled_apply, refLogP]

theorem logQ_apply (x : FVec Ideal S4096x1024 .f32) (r c : Fin 4096) :
    RefTerm.logQ x (ix2 r c) = Cert.PairLoss.logQ (Cert.PairLoss.z x r c) := by
  have h : RefTerm.logQ x (ix2 r c) = max (refLogSigmoid (-(RefTerm.scaled x (ix2 r c)))) (lit 0xC2C80000#32) := rfl
  rw [h, scaled_apply, refLogQ]

/-- The cross-entropy matrix at (r, c). -/
theorem bce_apply (x : FVec Ideal S4096x1024 .f32) (r c : Fin 4096) :
    RefTerm.bce x (ix2 r c) = Cert.PairLoss.bce (tgt r c) (Cert.PairLoss.z x r c) := by
  have h : RefTerm.bce x (ix2 r c)
      = -(RefTerm.target (ix2 r c) * RefTerm.logP x (ix2 r c)
          + (lit 0x3F800000#32 - RefTerm.target (ix2 r c)) * RefTerm.logQ x (ix2 r c)) := rfl
  rw [h, target_apply, logP_apply, logQ_apply]
  unfold Cert.PairLoss.bce
  rw [lit_zero, zero_sub]

/-- The constant on and below the diagonal at (r, c). -/
theorem lower_apply (r c : Fin 4096) :
    RefTerm.lower (ix2 r c) = if Pair r c then lit 0x00000000#32 else lit 0x42C80000#32 := by
  have h : RefTerm.lower (ix2 r c)
      = Scalar.select (Ideal.cmp .ogt (RefTerm.target (ix2 r c)) (lit 0x00000000#32))
          (lit 0x00000000#32) (lit 0x42C80000#32) := rfl
  rw [h, target_apply, lit_zero]
  unfold tgt
  by_cases hp : Pair r c
  · rw [if_pos hp, if_pos hp]
    have : Ideal.cmp .ogt (1 : EReal) 0 = 1#1 := by simp [Ideal.cmp]
    rw [this, select_one]
  · rw [if_neg hp, if_neg hp]
    have : Ideal.cmp .ogt (0 : EReal) 0 = 0#1 := by simp [Ideal.cmp]
    rw [this, select_zero]

/-- The loss matrix at (r, c) is the loss's entry. -/
theorem lossMat_apply (x : FVec Ideal S4096x1024 .f32) (r c : Fin 4096) :
    RefTerm.lossMat x (ix2 r c) = Cert.PairLoss.entry x r c := by
  have h : RefTerm.lossMat x (ix2 r c)
      = Scalar.select (RefTerm.upper (ix2 r c)) (RefTerm.bce x (ix2 r c)) (RefTerm.lower (ix2 r c)) := rfl
  rw [h, upper_apply, bce_apply, lower_apply]
  unfold Cert.PairLoss.entry
  by_cases hlt : r.val < c.val
  · rw [if_pos hlt, if_pos hlt, select_one]
  · rw [if_neg hlt, if_neg hlt, select_zero]

/-! ## The two totals -/

/-- A host sum over the whole square, from the word of zero, is the double sum over rows and columns. -/
theorem total_eq (f : FVec Ideal S4096x4096 .f32) (j : S_.Idx) :
    Host.reduceAdd (F := Ideal) f (constant (F := Ideal) S_ .f32 0x00000000#32) reducesTo_S4096x4096_S_d0_1 h_S_ j
      = ∑ r : Fin 4096, ∑ c : Fin 4096, f (ix2 r c) := by
  rw [hostReduceAdd_apply, Ideal.hostReduceAdd_total _ (fun b => b.elim0)]
  show lit 0x00000000#32 + _ = _
  rw [lit_zero, zero_add, sum_idx2]

theorem posTotal_apply (x : FVec Ideal S4096x1024 .f32) (j : S_.Idx) :
    RefTerm.posTotal x j = Cert.PairLoss.posSum x := by
  unfold RefTerm.posTotal
  rw [total_eq]
  unfold Cert.PairLoss.posSum Cert.PairLoss.posTerm
  refine Finset.sum_congr rfl fun r _ => Finset.sum_congr rfl fun c _ => ?_
  show RefTerm.lossMat x (ix2 r c) * RefTerm.target (ix2 r c) = _
  rw [lossMat_apply, target_apply]

theorem negTotal_apply (x : FVec Ideal S4096x1024 .f32) (j : S_.Idx) :
    RefTerm.negTotal x j = Cert.PairLoss.negSum x := by
  unfold RefTerm.negTotal
  rw [total_eq]
  unfold Cert.PairLoss.negSum Cert.PairLoss.negTerm
  refine Finset.sum_congr rfl fun r _ => Finset.sum_congr rfl fun c _ => ?_
  show RefTerm.lossMat x (ix2 r c) * (lit 0x3F800000#32 - RefTerm.target (ix2 r c)) = _
  rw [lossMat_apply, target_apply]

/-! ## The result -/

/-- The reference's result, on the matrix of unit rows, is the loss at its one index. -/
theorem out_eq (x : FVec Ideal Cert.ReferenceIdeal.S4096x1024 .f32) :
    Cert.ReferenceIdeal.RefTerm.out x = fun _ => Cert.PairLoss.loss x := by
  funext j
  have h : RefTerm.out x j
      = Ideal.div (RefTerm.posTotal x j) (lit 0x4A7FE000#32) + Ideal.div (RefTerm.negTotal x j) (lit 0x4A800000#32) := rfl
  rw [h, posTotal_apply, negTotal_apply]
  rfl

end Cert.ReferenceIdeal.RefValue

end
-- ==== Proof.lean ====
/-
  The kernel computes a contrastive pair loss over the 4096 rows obtained by stacking its two inputs: every row is
  divided by its norm, the 4096 × 4096 matrix of scaled inner products is formed 512 × 512 tile by tile on an 8 × 8
  grid, and on each tile the clamped binary cross-entropy of the sigmoid of the entry against the pair target is summed
  into two running 1×1 totals (the positive pairs, the others), which the program finally divides by their numbers of
  pairs and adds. The reference forms the whole matrix at once and sums it whole.
  The three frames: the kernel's program, at the word level and at the extended reals, runs its region under the
  pipeline with the two input windows sharing the one array of unit rows (each holds half of it), and its argument
  arrays are never written; the reference is a straight line of host operations.
  The value claim: at the extended reals both results are the same function of the unit rows — each accumulator ends at
  the sum of its 64 tile totals, which is the sum over all entries; the reference's stable log-sigmoid
  max(−z, 0) + log(1 + exp(−|z|)) negated is the kernel's −log(1 + exp(−z)) at every extended real; the division by the
  temperature one half is the product with two; the integer row and column numbers and their halves agree word for word.
-/
import proofs.«117261_j20804821582530_1_alg».proof.Defs
import proofs.«117261_j20804821582530_1_alg».proof.Proof.Gen.Kernel
import proofs.«117261_j20804821582530_1_alg».proof.Proof.Gen.KernelIdeal
import proofs.«117261_j20804821582530_1_alg».proof.Proof.Gen.ReferenceIdeal
import proofs.«117261_j20804821582530_1_alg».proof.Proof.Gen.Pre_finite_inputs
import proofs.«117261_j20804821582530_1_alg».proof.Proof.KBClaim
import proofs.«117261_j20804821582530_1_alg».proof.Proof.KIClaim
import proofs.«117261_j20804821582530_1_alg».proof.Proof.KIValue
import proofs.«117261_j20804821582530_1_alg».proof.Proof.KIPrefix
import proofs.«117261_j20804821582530_1_alg».proof.Proof.RefRun
import proofs.«117261_j20804821582530_1_alg».proof.Proof.RefValue

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Fr.frame m ρ

/-- So does its reading at the extended reals. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- Both programs end at the loss of the matrix of unit rows of arguments that agree. -/
theorem algebraic : Cert.algebraic_KernelIdeal_ReferenceIdeal := by
  intro m ρ m' ρ' _ hagree
  refine ⟨fun c => fun _ => Cert.PairLoss.loss (Cert.KernelIdeal.Val.xm m c), ?_, ?_⟩
  · exact (θ_run Cert.KernelIdeal.defs _ _).mono
      (fun _ h c => ⟨(h c).1.trans (Cert.KernelIdeal.Val.result_eq m c), (h c).2⟩) (Cert.KernelIdeal.Fr.run_result m ρ)
  · refine (θ_run Cert.ReferenceIdeal.defs _ _).mono (fun _ h c => ⟨(h c).1.trans ?_, (h c).2⟩)
      (Cert.ReferenceIdeal.RefRun.run m' ρ')
    have hx : Cert.ReferenceIdeal.RefTerm.unitRows (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = Cert.KernelIdeal.Val.xm m c := by
      rw [(hagree c).1, (hagree c).2]; exact (Cert.KernelIdeal.Val.xm_eq m c).symm
    exact (congrArg Cert.ReferenceIdeal.RefTerm.out hx).trans (Cert.ReferenceIdeal.RefValue.out_eq _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
